-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_v260) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x512x1024 : Shape := ⟨4, ![8, 3, 512, 1024]⟩
abbrev S8x2x512x1024 : Shape := ⟨4, ![8, 2, 512, 1024]⟩
abbrev S_ : Shape := ⟨0, ![]⟩

class Facts : Prop where
  bcast_S_S8x3x512x1024 : S_.BroadcastsInDim S8x3x512x1024 (![] : Fin 0 → Fin S8x3x512x1024.rank)
  reducesTo_S8x3x512x1024_S_d0_1_2_3 : S8x3x512x1024.ReducesTo [0, 1, 2, 3] S_
  h_S_ : 0 < S_.numel
  bcast_S_S8x2x512x1024 : S_.BroadcastsInDim S8x2x512x1024 (![] : Fin 0 → Fin S8x2x512x1024.rank)
  reducesTo_S8x2x512x1024_S_d0_1_2_3 : S8x2x512x1024.ReducesTo [0, 1, 2, 3] S_

variable [Facts]

def fn {F : FTy → Type} [FloatOps F] (main_arg0 : FVec F S8x3x512x1024 .f32) (main_arg1 : FVec F S8x2x512x1024 .f32) : IVec S_ 1 :=
  let main_v0 : FVec F S8x3x512x1024 .f32 := Host.absf main_arg0
  let main_cst : FVec F S_ .f32 := constant S_ .f32 0x7F800000#32
  let main_v1 : FVec F S8x3x512x1024 .f32 := broadcastInDim S8x3x512x1024 ![] bcast_S_S8x3x512x1024 main_cst
  let main_v2 : IVec S8x3x512x1024 1 := cmpf .olt main_v0 main_v1
  let main_c : IVec S_ 1 := constantI S_ 1 1#1
  let main_v3 : IVec S_ 1 := (fun x v => Host.reduce IntOp.andi x v reducesTo_S8x3x512x1024_S_d0_1_2_3 h_S_) main_v2 main_c
  let main_v4 : FVec F S8x2x512x1024 .f32 := Host.absf main_arg1
  let main_cst_0 : FVec F S_ .f32 := constant S_ .f32 0x7F800000#32
  let main_v5 : FVec F S8x2x512x1024 .f32 := broadcastInDim S8x2x512x1024 ![] bcast_S_S8x2x512x1024 main_cst_0
  let main_v6 : IVec S8x2x512x1024 1 := cmpf .olt main_v4 main_v5
  let main_c_1 : IVec S_ 1 := constantI S_ 1 1#1
  let main_v7 : IVec S_ 1 := (fun x v => Host.reduce IntOp.andi x v reducesTo_S8x2x512x1024_S_d0_1_2_3 h_S_) main_v6 main_c_1
  let main_v8 : IVec S_ 1 := andi main_v3 main_v7
  main_v8
-- ==== Kernel.lean ====
abbrev S8x3x512x1024 : Shape := ⟨4, ![8, 3, 512, 1024]⟩
abbrev S8x2x512x1024 : Shape := ⟨4, ![8, 2, 512, 1024]⟩
abbrev S8x12x512x1024 : Shape := ⟨4, ![8, 12, 512, 1024]⟩
abbrev S8x4x512x1024 : Shape := ⟨4, ![8, 4, 512, 1024]⟩
abbrev S1x3x128x1024 : Shape := ⟨4, ![1, 3, 128, 1024]⟩
abbrev S1x2x128x1024 : Shape := ⟨4, ![1, 2, 128, 1024]⟩
abbrev S1x12x128x1024 : Shape := ⟨4, ![1, 12, 128, 1024]⟩
abbrev S1x4x128x1024 : Shape := ⟨4, ![1, 4, 128, 1024]⟩
abbrev S128x1024 : Shape := ⟨2, ![128, 1024]⟩
abbrev S1x1x128x1024 : Shape := ⟨4, ![1, 1, 128, 1024]⟩
abbrev S3x128x1024 : Shape := ⟨3, ![3, 128, 1024]⟩
abbrev S1x128x1024 : Shape := ⟨3, ![1, 128, 1024]⟩
abbrev S16777216 : Shape := ⟨1, ![16777216]⟩
abbrev S_ : Shape := ⟨0, ![]⟩
abbrev S4194304 : Shape := ⟨1, ![4194304]⟩
abbrev S16777216x1 : Shape := ⟨2, ![16777216, 1]⟩
abbrev S8x4x3x512x1024 : Shape := ⟨5, ![8, 4, 3, 512, 1024]⟩
abbrev S8x4x1x512x1024 : Shape := ⟨5, ![8, 4, 1, 512, 1024]⟩
abbrev S8x512x1024 : Shape := ⟨3, ![8, 512, 1024]⟩
abbrev S8x1x512x1024 : Shape := ⟨4, ![8, 1, 512, 1024]⟩

abbrev nBuf : Space → Nat
  | .hbm => 70
  | .vmem => 10
  | .smem => 0
  | _ => 0

abbrev bufTy : (tb : Table) → Fin (tcTables nBuf tb) → BufTy
  | .hbm, ⟨0, _⟩ => ⟨S8x3x512x1024, .f32⟩
  | .hbm, ⟨1, _⟩ => ⟨S8x2x512x1024, .f32⟩
  | .hbm, ⟨2, _⟩ => ⟨S8x12x512x1024, .f32⟩
  | .hbm, ⟨3, _⟩ => ⟨S8x4x512x1024, .f32⟩
  | .hbm, ⟨4, _⟩ => ⟨S8x4x512x1024, .i32⟩
  | .hbm, ⟨5, _⟩ => ⟨S16777216, .i32⟩
  | .hbm, ⟨6, _⟩ => ⟨S16777216, .f32⟩
  | .hbm, ⟨7, _⟩ => ⟨S_, .f32⟩
  | .hbm, ⟨8, _⟩ => ⟨S4194304, .f32⟩
  | .hbm, ⟨9, _⟩ => ⟨S_, .i32⟩
  | .hbm, ⟨10, _⟩ => ⟨S16777216, .i32⟩
  | .hbm, ⟨11, _⟩ => ⟨S16777216, .i1⟩
  | .hbm, ⟨12, _⟩ => ⟨S_, .i32⟩
  | .hbm, ⟨13, _⟩ => ⟨S16777216, .i32⟩
  | .hbm, ⟨14, _⟩ => ⟨S16777216, .i32⟩
  | .hbm, ⟨15, _⟩ => ⟨S16777216, .i32⟩
  | .hbm, ⟨16, _⟩ => ⟨S16777216x1, .i32⟩
  | .hbm, ⟨17, _⟩ => ⟨S4194304, .f32⟩
  | .hbm, ⟨18, _⟩ => ⟨S8x4x3x512x1024, .f32⟩
  | .hbm, ⟨19, _⟩ => ⟨S8x4x1x512x1024, .f32⟩
  | .hbm, ⟨20, _⟩ => ⟨S8x4x512x1024, .f32⟩
  | .hbm, ⟨21, _⟩ => ⟨S16777216, .f32⟩
  | .hbm, ⟨22, _⟩ => ⟨S_, .f32⟩
  | .hbm, ⟨23, _⟩ => ⟨S4194304, .f32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S_, .i32⟩
  | .hbm, ⟨28, _⟩ => ⟨S16777216, .i32⟩
  | .hbm, ⟨29, _⟩ => ⟨S16777216, .i32⟩
  | .hbm, ⟨30, _⟩ => ⟨S16777216, .i32⟩
  | .hbm, ⟨31, _⟩ => ⟨S16777216x1, .i32⟩
  | .hbm, ⟨32, _⟩ => ⟨S4194304, .f32⟩
  | .hbm, ⟨33, _⟩ => ⟨S8x512x1024, .f32⟩
  | .hbm, ⟨34, _⟩ => ⟨S8x4x1x512x1024, .f32⟩
  | .hbm, ⟨35, _⟩ => ⟨S8x4x512x1024, .f32⟩
  | .hbm, ⟨36, _⟩ => ⟨S16777216, .f32⟩
  | .hbm, ⟨37, _⟩ => ⟨S_, .f32⟩
  | .hbm, ⟨38, _⟩ => ⟨S4194304, .f32⟩
  | .hbm, ⟨39, _⟩ => ⟨S_, .i32⟩
  | .hbm, ⟨40, _⟩ => ⟨S16777216, .i32⟩
  | .hbm, ⟨41, _⟩ => ⟨S16777216, .i1⟩
  | .hbm, ⟨42, _⟩ => ⟨S_, .i32⟩
  | .hbm, ⟨43, _⟩ => ⟨S16777216, .i32⟩
  | .hbm, ⟨44, _⟩ => ⟨S16777216, .i32⟩
  | .hbm, ⟨45, _⟩ => ⟨S16777216, .i32⟩
  | .hbm, ⟨46, _⟩ => ⟨S16777216x1, .i32⟩
  | .hbm, ⟨47, _⟩ => ⟨S4194304, .f32⟩
  | .hbm, ⟨48, _⟩ => ⟨S8x512x1024, .f32⟩
  | .hbm, ⟨49, _⟩ => ⟨S8x4x1x512x1024, .f32⟩
  | .hbm, ⟨50, _⟩ => ⟨S8x4x512x1024, .f32⟩
  | .hbm, ⟨51, _⟩ => ⟨S16777216, .f32⟩
  | .hbm, ⟨52, _⟩ => ⟨S_, .f32⟩
  | .hbm, ⟨53, _⟩ => ⟨S4194304, .f32⟩
  | .hbm, ⟨54, _⟩ => ⟨S_, .i32⟩
  | .hbm, ⟨55, _⟩ => ⟨S16777216, .i32⟩
  | .hbm, ⟨56, _⟩ => ⟨S16777216, .i1⟩
  | .hbm, ⟨57, _⟩ => ⟨S_, .i32⟩
  | .hbm, ⟨58, _⟩ => ⟨S16777216, .i32⟩
  | .hbm, ⟨59, _⟩ => ⟨S16777216, .i32⟩
  | .hbm, ⟨60, _⟩ => ⟨S16777216, .i32⟩
  | .hbm, ⟨61, _⟩ => ⟨S16777216x1, .i32⟩
  | .hbm, ⟨62, _⟩ => ⟨S4194304, .f32⟩
  | .hbm, ⟨63, _⟩ => ⟨S8x512x1024, .f32⟩
  | .hbm, ⟨64, _⟩ => ⟨S8x1x512x1024, .f32⟩
  | .hbm, ⟨65, _⟩ => ⟨S8x1x512x1024, .f32⟩
  | .hbm, ⟨66, _⟩ => ⟨S8x1x512x1024, .f32⟩
  | .hbm, ⟨67, _⟩ => ⟨S8x3x512x1024, .f32⟩
  | .hbm, ⟨68, _⟩ => ⟨S8x1x512x1024, .f32⟩
  | .hbm, ⟨69, _⟩ => ⟨S8x3x512x1024, .f32⟩
  | .local _ .vmem, ⟨0, _⟩ => ⟨S1x3x128x1024, .f32⟩
  | .local _ .vmem, ⟨1, _⟩ => ⟨S1x3x128x1024, .f32⟩
  | .local _ .vmem, ⟨2, _⟩ => ⟨S1x2x128x1024, .f32⟩
  | .local _ .vmem, ⟨3, _⟩ => ⟨S1x2x128x1024, .f32⟩
  | .local _ .vmem, ⟨4, _⟩ => ⟨S1x12x128x1024, .f32⟩
  | .local _ .vmem, ⟨5, _⟩ => ⟨S1x12x128x1024, .f32⟩
  | .local _ .vmem, ⟨6, _⟩ => ⟨S1x4x128x1024, .f32⟩
  | .local _ .vmem, ⟨7, _⟩ => ⟨S1x4x128x1024, .f32⟩
  | .local _ .vmem, ⟨8, _⟩ => ⟨S1x4x128x1024, .i32⟩
  | .local _ .vmem, ⟨9, _⟩ => ⟨S1x4x128x1024, .i32⟩
  | _, _ => ⟨S8x3x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x12x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  iota_S128x1024_d0_w32 : S128x1024.Iotas .tc 32 [0]
  iota_S128x1024_d1_w32 : S128x1024.Iotas .tc 32 [1]
  inb_S1x2x128x1024_S1x1x128x1024_0_0_0_0 : ∀ a, (![0, 0, 0, 0] : Fin 4 → Nat) a + S1x1x128x1024.size a ≤ S1x2x128x1024.size a
  h_S1x1x128x1024 : 0 < S1x1x128x1024.numel
  shapeCasts_S1x1x128x1024_S128x1024 : S1x1x128x1024.ShapeCasts S128x1024
  inb_S1x2x128x1024_S1x1x128x1024_0_1_0_0 : ∀ a, (![0, 1, 0, 0] : Fin 4 → Nat) a + S1x1x128x1024.size a ≤ S1x2x128x1024.size a
  inb_S1x3x128x1024_S1x3x128x1024_0_0_0_0 : ∀ a, (![0, 0, 0, 0] : Fin 4 → Nat) a + S1x3x128x1024.size a ≤ S1x3x128x1024.size a
  h_S1x3x128x1024 : 0 < S1x3x128x1024.numel
  shapeCasts_S1x3x128x1024_S3x128x1024 : S1x3x128x1024.ShapeCasts S3x128x1024
  shapeCasts_S128x1024_S1x128x1024 : S128x1024.ShapeCasts S1x128x1024
  broadcasts_S1x128x1024_S3x128x1024 : S1x128x1024.Broadcasts S3x128x1024
  inb_S1x12x128x1024_S1x3x128x1024_0_0_0_0 : ∀ a, (![0, 0, 0, 0] : Fin 4 → Nat) a + S1x3x128x1024.size a ≤ S1x12x128x1024.size a
  shapeCasts_S3x128x1024_S1x3x128x1024 : S3x128x1024.ShapeCasts S1x3x128x1024
  inb_S1x4x128x1024_S1x1x128x1024_0_0_0_0 : ∀ a, (![0, 0, 0, 0] : Fin 4 → Nat) a + S1x1x128x1024.size a ≤ S1x4x128x1024.size a
  shapeCasts_S128x1024_S1x1x128x1024 : S128x1024.ShapeCasts S1x1x128x1024
  inb_S1x12x128x1024_S1x3x128x1024_0_3_0_0 : ∀ a, (![0, 3, 0, 0] : Fin 4 → Nat) a + S1x3x128x1024.size a ≤ S1x12x128x1024.size a
  inb_S1x4x128x1024_S1x1x128x1024_0_1_0_0 : ∀ a, (![0, 1, 0, 0] : Fin 4 → Nat) a + S1x1x128x1024.size a ≤ S1x4x128x1024.size a
  inb_S1x12x128x1024_S1x3x128x1024_0_6_0_0 : ∀ a, (![0, 6, 0, 0] : Fin 4 → Nat) a + S1x3x128x1024.size a ≤ S1x12x128x1024.size a
  inb_S1x4x128x1024_S1x1x128x1024_0_2_0_0 : ∀ a, (![0, 2, 0, 0] : Fin 4 → Nat) a + S1x1x128x1024.size a ≤ S1x4x128x1024.size a
  inb_S1x12x128x1024_S1x3x128x1024_0_9_0_0 : ∀ a, (![0, 9, 0, 0] : Fin 4 → Nat) a + S1x3x128x1024.size a ≤ S1x12x128x1024.size a
  inb_S1x4x128x1024_S1x1x128x1024_0_3_0_0 : ∀ a, (![0, 3, 0, 0] : Fin 4 → Nat) a + S1x1x128x1024.size a ≤ S1x4x128x1024.size a
  shapeCasts_S8x4x512x1024_S16777216 : S8x4x512x1024.ShapeCasts S16777216
  bcast_S_S4194304 : S_.BroadcastsInDim S4194304 (![] : Fin 0 → Fin S4194304.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S8x12x512x1024_S8x4x3x512x1024 : S8x12x512x1024.ShapeCasts S8x4x3x512x1024
  slices_S8x4x3x512x1024_S8x4x1x512x1024_0_0_0_0_0 : S8x4x3x512x1024.Slices ![0, 0, 0, 0, 0] S8x4x1x512x1024
  shapeCasts_S8x4x1x512x1024_S8x4x512x1024 : S8x4x1x512x1024.ShapeCasts S8x4x512x1024
  shapeCasts_S4194304_S8x512x1024 : S4194304.ShapeCasts S8x512x1024
  slices_S8x4x3x512x1024_S8x4x1x512x1024_0_0_1_0_0 : S8x4x3x512x1024.Slices ![0, 0, 1, 0, 0] S8x4x1x512x1024
  slices_S8x4x3x512x1024_S8x4x1x512x1024_0_0_2_0_0 : S8x4x3x512x1024.Slices ![0, 0, 2, 0, 0] S8x4x1x512x1024
  bcast_S8x512x1024_S8x1x512x1024_0_2_3 : S8x512x1024.BroadcastsInDim S8x1x512x1024 (![0, 2, 3] : Fin 3 → Fin S8x1x512x1024.rank)
  concatenates_S8x1x512x1024_S8x1x512x1024_S8x1x512x1024_S8x3x512x1024_d1 : Shape.Concatenates [S8x1x512x1024, S8x1x512x1024, S8x1x512x1024] S8x3x512x1024 1
  shapeCasts_S4194304_S8x1x512x1024 : S4194304.ShapeCasts S8x1x512x1024
  bcast_S8x1x512x1024_S8x3x512x1024_0_1_2_3 : S8x1x512x1024.BroadcastsInDim S8x3x512x1024 (![0, 1, 2, 3] : Fin 4 → Fin S8x3x512x1024.rank)
  scatter_S4194304_S16777216x1_S16777216_n_0_0_1_wf : ScatterDims.WF S4194304 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x128x1024.size a ≤ S8x3x512x1024.size a
  hwx0_0 : ∀ i : grid0.Coords, EltTy.bits .f32 = 32 ∨ (Rect.block (s := S8x3x512x1024) S1x3x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x128x1024.size a ≤ S8x2x512x1024.size a
  hwx0_1 : ∀ i : grid0.Coords, EltTy.bits .f32 = 32 ∨ (Rect.block (s := S8x2x512x1024) S1x2x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12x128x1024.size a ≤ S8x12x512x1024.size a
  hwx0_2 : ∀ i : grid0.Coords, EltTy.bits .f32 = 32 ∨ (Rect.block (s := S8x12x512x1024) S1x12x128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x128x1024.size a ≤ S8x4x512x1024.size a
  hwx0_3 : ∀ i : grid0.Coords, EltTy.bits .f32 = 32 ∨ (Rect.block (s := S8x4x512x1024) S1x4x128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x128x1024.size a ≤ S8x4x512x1024.size a
  hwx0_4 : ∀ i : grid0.Coords, EltTy.bits .i32 = 32 ∨ (Rect.block (s := S8x4x512x1024) S1x4x128x1024.size (cc0_transform_4 i) (hinb0_4 i)).WholeWords (EltTy.packing .i32)

variable [Facts₀]

def scatter_S4194304_S16777216x1_S16777216_n_0_0_1 : ScatterDims S4194304 S16777216x1 S16777216 where
  updateWindowDims := []
  insertedWindowDims := [0]
  scatterDimsToOperandDims := [0]
  indexVectorDim := 1
  wf := scatter_S4194304_S16777216x1_S16777216_n_0_0_1_wf

abbrev win0_0 : Pipeline.Window sig grid0 :=
  Pipeline.Window.ofSpec (Memref.whole main_arg0) S1x3x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x12x128x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4x128x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x4x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x3x512x1024 : Shape := ⟨4, ![8, 3, 512, 1024]⟩
abbrev S8x2x512x1024 : Shape := ⟨4, ![8, 2, 512, 1024]⟩
abbrev S8x1x512x1024 : Shape := ⟨4, ![8, 1, 512, 1024]⟩
abbrev S8x512x1024 : Shape := ⟨3, ![8, 512, 1024]⟩
abbrev S_ : Shape := ⟨0, ![]⟩
abbrev S512 : Shape := ⟨1, ![512]⟩
abbrev S1x512x1 : Shape := ⟨3, ![1, 512, 1]⟩
abbrev S1024 : Shape := ⟨1, ![1024]⟩
abbrev S1x1x1024 : Shape := ⟨3, ![1, 1, 1024]⟩
abbrev S8x512x1024x3 : Shape := ⟨4, ![8, 512, 1024, 3]⟩
abbrev S8 : Shape := ⟨1, ![8]⟩
abbrev S8x1x1 : Shape := ⟨3, ![8, 1, 1]⟩
abbrev S4194304 : Shape := ⟨1, ![4194304]⟩
abbrev S8x512x1024x1 : Shape := ⟨4, ![8, 512, 1024, 1]⟩
abbrev S4194304x3 : Shape := ⟨2, ![4194304, 3]⟩
abbrev S4194304x1 : Shape := ⟨2, ![4194304, 1]⟩

abbrev nBuf : Space → Nat
  | .hbm => 381
  | .vmem => 0
  | .smem => 0
  | _ => 0

abbrev hbmTy0_0 (i : Nat) : BufTy := match i % 128 with
  | 0 => ⟨S8x3x512x1024, .f32⟩
  | 1 => ⟨S8x2x512x1024, .f32⟩
  | 2 => ⟨S8x1x512x1024, .f32⟩
  | 3 => ⟨S8x512x1024, .f32⟩
  | 4 => ⟨S8x1x512x1024, .f32⟩
  | 5 => ⟨S8x512x1024, .f32⟩
  | 6 => ⟨S8x512x1024, .f32⟩
  | 7 => ⟨S_, .f32⟩
  | 8 => ⟨S8x512x1024, .f32⟩
  | 9 => ⟨S8x512x1024, .f32⟩
  | 10 => ⟨S8x512x1024, .f32⟩
  | 11 => ⟨S_, .f32⟩
  | 12 => ⟨S8x512x1024, .f32⟩
  | 13 => ⟨S8x512x1024, .f32⟩
  | 14 => ⟨S8x512x1024, .f32⟩
  | 15 => ⟨S8x512x1024, .f32⟩
  | 16 => ⟨S8x512x1024, .f32⟩
  | 17 => ⟨S8x512x1024, .f32⟩
  | 18 => ⟨S8x512x1024, .f32⟩
  | 19 => ⟨S8x512x1024, .f32⟩
  | 20 => ⟨S8x512x1024, .f32⟩
  | 21 => ⟨S8x512x1024, .f32⟩
  | 22 => ⟨S8x512x1024, .f32⟩
  | 23 => ⟨S8x512x1024, .f32⟩
  | 24 => ⟨S8x512x1024, .f32⟩
  | 25 => ⟨S8x512x1024, .f32⟩
  | 26 => ⟨S8x512x1024, .f32⟩
  | 27 => ⟨S8x512x1024, .f32⟩
  | 28 => ⟨S8x512x1024, .f32⟩
  | 29 => ⟨S8x512x1024, .f32⟩
  | 30 => ⟨S8x512x1024, .f32⟩
  | 31 => ⟨S8x512x1024, .f32⟩
  | 32 => ⟨S8x512x1024, .f32⟩
  | 33 => ⟨S8x512x1024, .f32⟩
  | 34 => ⟨S512, .i32⟩
  | 35 => ⟨S1x512x1, .i32⟩
  | 36 => ⟨S1024, .i32⟩
  | 37 => ⟨S1x1x1024, .i32⟩
  | 38 => ⟨S8x512x1024x3, .f32⟩
  | 39 => ⟨S8x512x1024, .i32⟩
  | 40 => ⟨S8x512x1024, .i32⟩
  | 41 => ⟨S8x512x1024, .i32⟩
  | 42 => ⟨S8x512x1024, .i32⟩
  | 43 => ⟨S8x512x1024, .i32⟩
  | 44 => ⟨S8x512x1024, .i32⟩
  | 45 => ⟨S_, .i32⟩
  | 46 => ⟨S8x512x1024, .i32⟩
  | 47 => ⟨S8x512x1024, .i1⟩
  | 48 => ⟨S_, .i32⟩
  | 49 => ⟨S8x512x1024, .i32⟩
  | 50 => ⟨S8x512x1024, .i1⟩
  | 51 => ⟨S8x512x1024, .i1⟩
  | 52 => ⟨S_, .i32⟩
  | 53 => ⟨S8x512x1024, .i32⟩
  | 54 => ⟨S8x512x1024, .i1⟩
  | 55 => ⟨S8x512x1024, .i1⟩
  | 56 => ⟨S_, .i32⟩
  | 57 => ⟨S8x512x1024, .i32⟩
  | 58 => ⟨S8x512x1024, .i1⟩
  | 59 => ⟨S8x512x1024, .i1⟩
  | 60 => ⟨S_, .f32⟩
  | 61 => ⟨S_, .f32⟩
  | 62 => ⟨S8x512x1024, .f32⟩
  | 63 => ⟨S8x512x1024, .f32⟩
  | 64 => ⟨S_, .i32⟩
  | 65 => ⟨S_, .i32⟩
  | 66 => ⟨S_, .i32⟩
  | 67 => ⟨S8x512x1024, .i32⟩
  | 68 => ⟨S8x512x1024, .i32⟩
  | 69 => ⟨S_, .i32⟩
  | 70 => ⟨S8x512x1024, .i32⟩
  | 71 => ⟨S8x512x1024, .i32⟩
  | 72 => ⟨S_, .i32⟩
  | 73 => ⟨S_, .i32⟩
  | 74 => ⟨S_, .i32⟩
  | 75 => ⟨S8x512x1024, .i32⟩
  | 76 => ⟨S8x512x1024, .i32⟩
  | 77 => ⟨S_, .i32⟩
  | 78 => ⟨S8x512x1024, .i32⟩
  | 79 => ⟨S8x512x1024, .i32⟩
  | 80 => ⟨S8, .i32⟩
  | 81 => ⟨S8x1x1, .i32⟩
  | 82 => ⟨S_, .i32⟩
  | 83 => ⟨S8x1x1, .i32⟩
  | 84 => ⟨S8x1x1, .i32⟩
  | 85 => ⟨S8x512x1024, .i32⟩
  | 86 => ⟨S8x512x1024, .i32⟩
  | 87 => ⟨S_, .i32⟩
  | 88 => ⟨S8x512x1024, .i32⟩
  | 89 => ⟨S8x512x1024, .i32⟩
  | 90 => ⟨S8x512x1024, .i32⟩
  | 91 => ⟨S4194304, .i32⟩
  | 92 => ⟨S8x512x1024x1, .f32⟩
  | 93 => ⟨S8x512x1024x3, .f32⟩
  | 94 => ⟨S8x512x1024x3, .f32⟩
  | 95 => ⟨S4194304x3, .f32⟩
  | 96 => ⟨S_, .f32⟩
  | 97 => ⟨S4194304x3, .f32⟩
  | 98 => ⟨S_, .i32⟩
  | 99 => ⟨S4194304, .i32⟩
  | 100 => ⟨S4194304, .i1⟩
  | 101 => ⟨S_, .i32⟩
  | 102 => ⟨S4194304, .i32⟩
  | 103 => ⟨S4194304, .i32⟩
  | 104 => ⟨S4194304, .i32⟩
  | 105 => ⟨S4194304x1, .i32⟩
  | 106 => ⟨S4194304x3, .f32⟩
  | 107 => ⟨S_, .f32⟩
  | 108 => ⟨S4194304, .f32⟩
  | 109 => ⟨S4194304, .f32⟩
  | 110 => ⟨S_, .i32⟩
  | 111 => ⟨S4194304, .i32⟩
  | 112 => ⟨S4194304, .i1⟩
  | 113 => ⟨S_, .i32⟩
  | 114 => ⟨S4194304, .i32⟩
  | 115 => ⟨S4194304, .i32⟩
  | 116 => ⟨S4194304, .i32⟩
  | 117 => ⟨S4194304x1, .i32⟩
  | 118 => ⟨S4194304, .f32⟩
  | 119 => ⟨S8x512x1024x3, .f32⟩
  | 120 => ⟨S8x3x512x1024, .f32⟩
  | 121 => ⟨S8x1x512x1024, .f32⟩
  | 122 => ⟨S8x3x512x1024, .f32⟩
  | 123 => ⟨S8x512x1024, .i32⟩
  | 124 => ⟨S8x512x1024, .i32⟩
  | 125 => ⟨S8x512x1024, .i32⟩
  | 126 => ⟨S8x512x1024, .i32⟩
  | 127 => ⟨S8x512x1024, .i32⟩
  | _ => ⟨S8x3x512x1024, .f32⟩

abbrev hbmTy0_1 (i : Nat) : BufTy := match i % 128 with
  | 0 => ⟨S8x512x1024, .i32⟩
  | 1 => ⟨S_, .i32⟩
  | 2 => ⟨S8x512x1024, .i32⟩
  | 3 => ⟨S8x512x1024, .i1⟩
  | 4 => ⟨S_, .i32⟩
  | 5 => ⟨S8x512x1024, .i32⟩
  | 6 => ⟨S8x512x1024, .i1⟩
  | 7 => ⟨S8x512x1024, .i1⟩
  | 8 => ⟨S_, .i32⟩
  | 9 => ⟨S8x512x1024, .i32⟩
  | 10 => ⟨S8x512x1024, .i1⟩
  | 11 => ⟨S8x512x1024, .i1⟩
  | 12 => ⟨S_, .i32⟩
  | 13 => ⟨S8x512x1024, .i32⟩
  | 14 => ⟨S8x512x1024, .i1⟩
  | 15 => ⟨S8x512x1024, .i1⟩
  | 16 => ⟨S_, .f32⟩
  | 17 => ⟨S_, .f32⟩
  | 18 => ⟨S8x512x1024, .f32⟩
  | 19 => ⟨S8x512x1024, .f32⟩
  | 20 => ⟨S_, .i32⟩
  | 21 => ⟨S_, .i32⟩
  | 22 => ⟨S_, .i32⟩
  | 23 => ⟨S8x512x1024, .i32⟩
  | 24 => ⟨S8x512x1024, .i32⟩
  | 25 => ⟨S_, .i32⟩
  | 26 => ⟨S8x512x1024, .i32⟩
  | 27 => ⟨S8x512x1024, .i32⟩
  | 28 => ⟨S_, .i32⟩
  | 29 => ⟨S_, .i32⟩
  | 30 => ⟨S_, .i32⟩
  | 31 => ⟨S8x512x1024, .i32⟩
  | 32 => ⟨S8x512x1024, .i32⟩
  | 33 => ⟨S_, .i32⟩
  | 34 => ⟨S8x512x1024, .i32⟩
  | 35 => ⟨S8x512x1024, .i32⟩
  | 36 => ⟨S8, .i32⟩
  | 37 => ⟨S8x1x1, .i32⟩
  | 38 => ⟨S_, .i32⟩
  | 39 => ⟨S8x1x1, .i32⟩
  | 40 => ⟨S8x1x1, .i32⟩
  | 41 => ⟨S8x512x1024, .i32⟩
  | 42 => ⟨S8x512x1024, .i32⟩
  | 43 => ⟨S_, .i32⟩
  | 44 => ⟨S8x512x1024, .i32⟩
  | 45 => ⟨S8x512x1024, .i32⟩
  | 46 => ⟨S8x512x1024, .i32⟩
  | 47 => ⟨S4194304, .i32⟩
  | 48 => ⟨S8x512x1024x1, .f32⟩
  | 49 => ⟨S8x512x1024x3, .f32⟩
  | 50 => ⟨S8x512x1024x3, .f32⟩
  | 51 => ⟨S4194304x3, .f32⟩
  | 52 => ⟨S_, .f32⟩
  | 53 => ⟨S4194304x3, .f32⟩
  | 54 => ⟨S_, .i32⟩
  | 55 => ⟨S4194304, .i32⟩
  | 56 => ⟨S4194304, .i1⟩
  | 57 => ⟨S_, .i32⟩
  | 58 => ⟨S4194304, .i32⟩
  | 59 => ⟨S4194304, .i32⟩
  | 60 => ⟨S4194304, .i32⟩
  | 61 => ⟨S4194304x1, .i32⟩
  | 62 => ⟨S4194304x3, .f32⟩
  | 63 => ⟨S_, .f32⟩
  | 64 => ⟨S4194304, .f32⟩
  | 65 => ⟨S4194304, .f32⟩
  | 66 => ⟨S_, .i32⟩
  | 67 => ⟨S4194304, .i32⟩
  | 68 => ⟨S4194304, .i1⟩
  | 69 => ⟨S_, .i32⟩
  | 70 => ⟨S4194304, .i32⟩
  | 71 => ⟨S4194304, .i32⟩
  | 72 => ⟨S4194304, .i32⟩
  | 73 => ⟨S4194304x1, .i32⟩
  | 74 => ⟨S4194304, .f32⟩
  | 75 => ⟨S8x512x1024x3, .f32⟩
  | 76 => ⟨S8x3x512x1024, .f32⟩
  | 77 => ⟨S8x1x512x1024, .f32⟩
  | 78 => ⟨S8x3x512x1024, .f32⟩
  | 79 => ⟨S8x512x1024, .i32⟩
  | 80 => ⟨S8x512x1024, .i32⟩
  | 81 => ⟨S8x512x1024, .i32⟩
  | 82 => ⟨S8x512x1024, .i32⟩
  | 83 => ⟨S8x512x1024, .i32⟩
  | 84 => ⟨S8x512x1024, .i32⟩
  | 85 => ⟨S_, .i32⟩
  | 86 => ⟨S8x512x1024, .i32⟩
  | 87 => ⟨S8x512x1024, .i1⟩
  | 88 => ⟨S_, .i32⟩
  | 89 => ⟨S8x512x1024, .i32⟩
  | 90 => ⟨S8x512x1024, .i1⟩
  | 91 => ⟨S8x512x1024, .i1⟩
  | 92 => ⟨S_, .i32⟩
  | 93 => ⟨S8x512x1024, .i32⟩
  | 94 => ⟨S8x512x1024, .i1⟩
  | 95 => ⟨S8x512x1024, .i1⟩
  | 96 => ⟨S_, .i32⟩
  | 97 => ⟨S8x512x1024, .i32⟩
  | 98 => ⟨S8x512x1024, .i1⟩
  | 99 => ⟨S8x512x1024, .i1⟩
  | 100 => ⟨S_, .f32⟩
  | 101 => ⟨S_, .f32⟩
  | 102 => ⟨S8x512x1024, .f32⟩
  | 103 => ⟨S8x512x1024, .f32⟩
  | 104 => ⟨S_, .i32⟩
  | 105 => ⟨S_, .i32⟩
  | 106 => ⟨S_, .i32⟩
  | 107 => ⟨S8x512x1024, .i32⟩
  | 108 => ⟨S8x512x1024, .i32⟩
  | 109 => ⟨S_, .i32⟩
  | 110 => ⟨S8x512x1024, .i32⟩
  | 111 => ⟨S8x512x1024, .i32⟩
  | 112 => ⟨S_, .i32⟩
  | 113 => ⟨S_, .i32⟩
  | 114 => ⟨S_, .i32⟩
  | 115 => ⟨S8x512x1024, .i32⟩
  | 116 => ⟨S8x512x1024, .i32⟩
  | 117 => ⟨S_, .i32⟩
  | 118 => ⟨S8x512x1024, .i32⟩
  | 119 => ⟨S8x512x1024, .i32⟩
  | 120 => ⟨S8, .i32⟩
  | 121 => ⟨S8x1x1, .i32⟩
  | 122 => ⟨S_, .i32⟩
  | 123 => ⟨S8x1x1, .i32⟩
  | 124 => ⟨S8x1x1, .i32⟩
  | 125 => ⟨S8x512x1024, .i32⟩
  | 126 => ⟨S8x512x1024, .i32⟩
  | 127 => ⟨S_, .i32⟩
  | _ => ⟨S8x3x512x1024, .f32⟩

abbrev hbmTy0_2 (i : Nat) : BufTy := match i % 128 with
  | 0 => ⟨S8x512x1024, .i32⟩
  | 1 => ⟨S8x512x1024, .i32⟩
  | 2 => ⟨S8x512x1024, .i32⟩
  | 3 => ⟨S4194304, .i32⟩
  | 4 => ⟨S8x512x1024x1, .f32⟩
  | 5 => ⟨S8x512x1024x3, .f32⟩
  | 6 => ⟨S8x512x1024x3, .f32⟩
  | 7 => ⟨S4194304x3, .f32⟩
  | 8 => ⟨S_, .f32⟩
  | 9 => ⟨S4194304x3, .f32⟩
  | 10 => ⟨S_, .i32⟩
  | 11 => ⟨S4194304, .i32⟩
  | 12 => ⟨S4194304, .i1⟩
  | 13 => ⟨S_, .i32⟩
  | 14 => ⟨S4194304, .i32⟩
  | 15 => ⟨S4194304, .i32⟩
  | 16 => ⟨S4194304, .i32⟩
  | 17 => ⟨S4194304x1, .i32⟩
  | 18 => ⟨S4194304x3, .f32⟩
  | 19 => ⟨S_, .f32⟩
  | 20 => ⟨S4194304, .f32⟩
  | 21 => ⟨S4194304, .f32⟩
  | 22 => ⟨S_, .i32⟩
  | 23 => ⟨S4194304, .i32⟩
  | 24 => ⟨S4194304, .i1⟩
  | 25 => ⟨S_, .i32⟩
  | 26 => ⟨S4194304, .i32⟩
  | 27 => ⟨S4194304, .i32⟩
  | 28 => ⟨S4194304, .i32⟩
  | 29 => ⟨S4194304x1, .i32⟩
  | 30 => ⟨S4194304, .f32⟩
  | 31 => ⟨S8x512x1024x3, .f32⟩
  | 32 => ⟨S8x3x512x1024, .f32⟩
  | 33 => ⟨S8x1x512x1024, .f32⟩
  | 34 => ⟨S8x3x512x1024, .f32⟩
  | 35 => ⟨S8x512x1024, .i32⟩
  | 36 => ⟨S8x512x1024, .i32⟩
  | 37 => ⟨S8x512x1024, .i32⟩
  | 38 => ⟨S8x512x1024, .i32⟩
  | 39 => ⟨S8x512x1024, .i32⟩
  | 40 => ⟨S8x512x1024, .i32⟩
  | 41 => ⟨S_, .i32⟩
  | 42 => ⟨S8x512x1024, .i32⟩
  | 43 => ⟨S8x512x1024, .i1⟩
  | 44 => ⟨S_, .i32⟩
  | 45 => ⟨S8x512x1024, .i32⟩
  | 46 => ⟨S8x512x1024, .i1⟩
  | 47 => ⟨S8x512x1024, .i1⟩
  | 48 => ⟨S_, .i32⟩
  | 49 => ⟨S8x512x1024, .i32⟩
  | 50 => ⟨S8x512x1024, .i1⟩
  | 51 => ⟨S8x512x1024, .i1⟩
  | 52 => ⟨S_, .i32⟩
  | 53 => ⟨S8x512x1024, .i32⟩
  | 54 => ⟨S8x512x1024, .i1⟩
  | 55 => ⟨S8x512x1024, .i1⟩
  | 56 => ⟨S_, .f32⟩
  | 57 => ⟨S_, .f32⟩
  | 58 => ⟨S8x512x1024, .f32⟩
  | 59 => ⟨S8x512x1024, .f32⟩
  | 60 => ⟨S_, .i32⟩
  | 61 => ⟨S_, .i32⟩
  | 62 => ⟨S_, .i32⟩
  | 63 => ⟨S8x512x1024, .i32⟩
  | 64 => ⟨S8x512x1024, .i32⟩
  | 65 => ⟨S_, .i32⟩
  | 66 => ⟨S8x512x1024, .i32⟩
  | 67 => ⟨S8x512x1024, .i32⟩
  | 68 => ⟨S_, .i32⟩
  | 69 => ⟨S_, .i32⟩
  | 70 => ⟨S_, .i32⟩
  | 71 => ⟨S8x512x1024, .i32⟩
  | 72 => ⟨S8x512x1024, .i32⟩
  | 73 => ⟨S_, .i32⟩
  | 74 => ⟨S8x512x1024, .i32⟩
  | 75 => ⟨S8x512x1024, .i32⟩
  | 76 => ⟨S8, .i32⟩
  | 77 => ⟨S8x1x1, .i32⟩
  | 78 => ⟨S_, .i32⟩
  | 79 => ⟨S8x1x1, .i32⟩
  | 80 => ⟨S8x1x1, .i32⟩
  | 81 => ⟨S8x512x1024, .i32⟩
  | 82 => ⟨S8x512x1024, .i32⟩
  | 83 => ⟨S_, .i32⟩
  | 84 => ⟨S8x512x1024, .i32⟩
  | 85 => ⟨S8x512x1024, .i32⟩
  | 86 => ⟨S8x512x1024, .i32⟩
  | 87 => ⟨S4194304, .i32⟩
  | 88 => ⟨S8x512x1024x1, .f32⟩
  | 89 => ⟨S8x512x1024x3, .f32⟩
  | 90 => ⟨S8x512x1024x3, .f32⟩
  | 91 => ⟨S4194304x3, .f32⟩
  | 92 => ⟨S_, .f32⟩
  | 93 => ⟨S4194304x3, .f32⟩
  | 94 => ⟨S_, .i32⟩
  | 95 => ⟨S4194304, .i32⟩
  | 96 => ⟨S4194304, .i1⟩
  | 97 => ⟨S_, .i32⟩
  | 98 => ⟨S4194304, .i32⟩
  | 99 => ⟨S4194304, .i32⟩
  | 100 => ⟨S4194304, .i32⟩
  | 101 => ⟨S4194304x1, .i32⟩
  | 102 => ⟨S4194304x3, .f32⟩
  | 103 => ⟨S_, .f32⟩
  | 104 => ⟨S4194304, .f32⟩
  | 105 => ⟨S4194304, .f32⟩
  | 106 => ⟨S_, .i32⟩
  | 107 => ⟨S4194304, .i32⟩
  | 108 => ⟨S4194304, .i1⟩
  | 109 => ⟨S_, .i32⟩
  | 110 => ⟨S4194304, .i32⟩
  | 111 => ⟨S4194304, .i32⟩
  | 112 => ⟨S4194304, .i32⟩
  | 113 => ⟨S4194304x1, .i32⟩
  | 114 => ⟨S4194304, .f32⟩
  | 115 => ⟨S8x512x1024x3, .f32⟩
  | 116 => ⟨S8x3x512x1024, .f32⟩
  | 117 => ⟨S8x1x512x1024, .f32⟩
  | 118 => ⟨S8x3x512x1024, .f32⟩
  | 119 => ⟨S8x3x512x1024, .f32⟩
  | 120 => ⟨S8x3x512x1024, .f32⟩
  | 121 => ⟨S8x3x512x1024, .f32⟩
  | 122 => ⟨S8x3x512x1024, .f32⟩
  | 123 => ⟨S8x3x512x1024, .f32⟩
  | 124 => ⟨S8x3x512x1024, .f32⟩
  | _ => ⟨S8x3x512x1024, .f32⟩

abbrev hbmTy (i : Nat) : BufTy := match i / 128 with
  | 0 => hbmTy0_0 i
  | 1 => hbmTy0_1 i
  | 2 => hbmTy0_2 i
  | _ => ⟨S8x3x512x1024, .f32⟩

abbrev bufTy : (tb : Table) → Fin (tcTables nBuf tb) → BufTy
  | .hbm, ⟨i, _⟩ => hbmTy i
  | _, _ => ⟨S8x3x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_c : Ref sig .tc := ⟨.hbm, 45, rfl⟩
abbrev main_v41 : Ref sig .tc := ⟨.hbm, 46, rfl⟩
abbrev main_v42 : Ref sig .tc := ⟨.hbm, 47, rfl⟩
abbrev main_c_1 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_c_2 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_c_3 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_call0_v0 : Ref sig .tc := ⟨.hbm, 61, rfl⟩
abbrev main_call0_v1 : Ref sig .tc := ⟨.hbm, 62, rfl⟩
abbrev main_v52 : Ref sig .tc := ⟨.hbm, 63, rfl⟩
abbrev main_c_5 : Ref sig .tc := ⟨.hbm, 64, rfl⟩
abbrev main_c_6 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v53 : Ref sig .tc := ⟨.hbm, 71, rfl⟩
abbrev main_c_7 : Ref sig .tc := ⟨.hbm, 72, rfl⟩
abbrev main_c_8 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_c_12 : Ref sig .tc := ⟨.hbm, 98, rfl⟩
abbrev main_v70 : Ref sig .tc := ⟨.hbm, 99, rfl⟩
abbrev main_v71 : Ref sig .tc := ⟨.hbm, 100, rfl⟩
abbrev main_c_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_c_15 : Ref sig .tc := ⟨.hbm, 110, rfl⟩
abbrev main_v79 : Ref sig .tc := ⟨.hbm, 111, rfl⟩
abbrev main_v80 : Ref sig .tc := ⟨.hbm, 112, rfl⟩
abbrev main_c_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_17 : Ref sig .tc := ⟨.hbm, 129, rfl⟩
abbrev main_v96 : Ref sig .tc := ⟨.hbm, 130, rfl⟩
abbrev main_v97 : Ref sig .tc := ⟨.hbm, 131, rfl⟩
abbrev main_c_18 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_c_19 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_20 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_21 : Ref sig .tc := ⟨.hbm, 144, rfl⟩
abbrev main_call3_v0 : Ref sig .tc := ⟨.hbm, 145, rfl⟩
abbrev main_call3_v1 : Ref sig .tc := ⟨.hbm, 146, rfl⟩
abbrev main_v107 : Ref sig .tc := ⟨.hbm, 147, rfl⟩
abbrev main_c_22 : Ref sig .tc := ⟨.hbm, 148, rfl⟩
abbrev main_c_23 : Ref sig .tc := ⟨.hbm, 149, rfl⟩
abbrev main_call4_v0 : Ref sig .tc := ⟨.hbm, 150, rfl⟩
abbrev main_call4_v1 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_v108 : Ref sig .tc := ⟨.hbm, 155, rfl⟩
abbrev main_c_24 : Ref sig .tc := ⟨.hbm, 156, rfl⟩
abbrev main_c_25 : Ref sig .tc := ⟨.hbm, 157, rfl⟩
abbrev main_call5_v0 : Ref sig .tc := ⟨.hbm, 158, rfl⟩
abbrev main_call5_v1 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_26 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_c_27 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_28 : Ref sig .tc := ⟨.hbm, 180, rfl⟩
abbrev main_v124 : Ref sig .tc := ⟨.hbm, 181, rfl⟩
abbrev main_c_29 : Ref sig .tc := ⟨.hbm, 182, rfl⟩
abbrev main_v125 : Ref sig .tc := ⟨.hbm, 183, rfl⟩
abbrev main_v126 : Ref sig .tc := ⟨.hbm, 184, rfl⟩
abbrev main_c_30 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_31 : Ref sig .tc := ⟨.hbm, 191, rfl⟩
abbrev main_v132 : Ref sig .tc := ⟨.hbm, 192, rfl⟩
abbrev main_v133 : Ref sig .tc := ⟨.hbm, 193, rfl⟩
abbrev main_c_32 : Ref sig .tc := ⟨.hbm, 194, rfl⟩
abbrev main_v134 : Ref sig .tc := ⟨.hbm, 195, rfl⟩
abbrev main_v135 : Ref sig .tc := ⟨.hbm, 196, rfl⟩
abbrev main_c_33 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_c_34 : Ref sig .tc := ⟨.hbm, 213, rfl⟩
abbrev main_v151 : Ref sig .tc := ⟨.hbm, 214, rfl⟩
abbrev main_v152 : Ref sig .tc := ⟨.hbm, 215, rfl⟩
abbrev main_c_35 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_c_36 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_c_37 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_cst_38 : Ref sig .tc := ⟨.hbm, 228, rfl⟩
abbrev main_call6_v0 : Ref sig .tc := ⟨.hbm, 229, rfl⟩
abbrev main_call6_v1 : Ref sig .tc := ⟨.hbm, 230, rfl⟩
abbrev main_v162 : Ref sig .tc := ⟨.hbm, 231, rfl⟩
abbrev main_c_39 : Ref sig .tc := ⟨.hbm, 232, rfl⟩
abbrev main_c_40 : Ref sig .tc := ⟨.hbm, 233, rfl⟩
abbrev main_call7_v0 : Ref sig .tc := ⟨.hbm, 234, rfl⟩
abbrev main_call7_v1 : Ref sig .tc := ⟨.hbm, 235, rfl⟩
abbrev main_call7_v2 : Ref sig .tc := ⟨.hbm, 236, rfl⟩
abbrev main_call7_v3 : Ref sig .tc := ⟨.hbm, 237, rfl⟩
abbrev main_call7_v4 : Ref sig .tc := ⟨.hbm, 238, rfl⟩
abbrev main_v163 : Ref sig .tc := ⟨.hbm, 239, rfl⟩
abbrev main_c_41 : Ref sig .tc := ⟨.hbm, 240, rfl⟩
abbrev main_c_42 : Ref sig .tc := ⟨.hbm, 241, rfl⟩
abbrev main_call8_v0 : Ref sig .tc := ⟨.hbm, 242, rfl⟩
abbrev main_call8_v1 : Ref sig .tc := ⟨.hbm, 243, rfl⟩
abbrev main_call8_v2 : Ref sig .tc := ⟨.hbm, 244, rfl⟩
abbrev main_call8_v3 : Ref sig .tc := ⟨.hbm, 245, rfl⟩
abbrev main_call8_v4 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_c_43 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_c_44 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_cst_45 : Ref sig .tc := ⟨.hbm, 264, rfl⟩
abbrev main_v179 : Ref sig .tc := ⟨.hbm, 265, rfl⟩
abbrev main_c_46 : Ref sig .tc := ⟨.hbm, 266, rfl⟩
abbrev main_v180 : Ref sig .tc := ⟨.hbm, 267, rfl⟩
abbrev main_v181 : Ref sig .tc := ⟨.hbm, 268, rfl⟩
abbrev main_c_47 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_cst_48 : Ref sig .tc := ⟨.hbm, 275, rfl⟩
abbrev main_v187 : Ref sig .tc := ⟨.hbm, 276, rfl⟩
abbrev main_v188 : Ref sig .tc := ⟨.hbm, 277, rfl⟩
abbrev main_c_49 : Ref sig .tc := ⟨.hbm, 278, rfl⟩
abbrev main_v189 : Ref sig .tc := ⟨.hbm, 279, rfl⟩
abbrev main_v190 : Ref sig .tc := ⟨.hbm, 280, rfl⟩
abbrev main_c_50 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_c_51 : Ref sig .tc := ⟨.hbm, 297, rfl⟩
abbrev main_v206 : Ref sig .tc := ⟨.hbm, 298, rfl⟩
abbrev main_v207 : Ref sig .tc := ⟨.hbm, 299, rfl⟩
abbrev main_c_52 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_c_53 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_c_54 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_cst_55 : Ref sig .tc := ⟨.hbm, 312, rfl⟩
abbrev main_call9_v0 : Ref sig .tc := ⟨.hbm, 313, rfl⟩
abbrev main_call9_v1 : Ref sig .tc := ⟨.hbm, 314, rfl⟩
abbrev main_v217 : Ref sig .tc := ⟨.hbm, 315, rfl⟩
abbrev main_c_56 : Ref sig .tc := ⟨.hbm, 316, rfl⟩
abbrev main_c_57 : Ref sig .tc := ⟨.hbm, 317, rfl⟩
abbrev main_call10_v0 : Ref sig .tc := ⟨.hbm, 318, rfl⟩
abbrev main_call10_v1 : Ref sig .tc := ⟨.hbm, 319, rfl⟩
abbrev main_call10_v2 : Ref sig .tc := ⟨.hbm, 320, rfl⟩
abbrev main_call10_v3 : Ref sig .tc := ⟨.hbm, 321, rfl⟩
abbrev main_call10_v4 : Ref sig .tc := ⟨.hbm, 322, rfl⟩
abbrev main_v218 : Ref sig .tc := ⟨.hbm, 323, rfl⟩
abbrev main_c_58 : Ref sig .tc := ⟨.hbm, 324, rfl⟩
abbrev main_c_59 : Ref sig .tc := ⟨.hbm, 325, rfl⟩
abbrev main_call11_v0 : Ref sig .tc := ⟨.hbm, 326, rfl⟩
abbrev main_call11_v1 : Ref sig .tc := ⟨.hbm, 327, rfl⟩
abbrev main_call11_v2 : Ref sig .tc := ⟨.hbm, 328, rfl⟩
abbrev main_call11_v3 : Ref sig .tc := ⟨.hbm, 329, rfl⟩
abbrev main_call11_v4 : Ref sig .tc := ⟨.hbm, 330, rfl⟩
abbrev main_v219 : Ref sig .tc := ⟨.hbm, 331, rfl⟩
abbrev main_v220 : Ref sig .tc := ⟨.hbm, 332, rfl⟩
abbrev main_v221 : Ref sig .tc := ⟨.hbm, 333, rfl⟩
abbrev main_c_60 : Ref sig .tc := ⟨.hbm, 334, rfl⟩
abbrev main_v222 : Ref sig .tc := ⟨.hbm, 335, rfl⟩
abbrev main_v223 : Ref sig .tc := ⟨.hbm, 336, rfl⟩
abbrev main_v224 : Ref sig .tc := ⟨.hbm, 337, rfl⟩
abbrev main_v225 : Ref sig .tc := ⟨.hbm, 338, rfl⟩
abbrev main_c_61 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_cst_62 : Ref sig .tc := ⟨.hbm, 348, rfl⟩
abbrev main_v234 : Ref sig .tc := ⟨.hbm, 349, rfl⟩
abbrev main_c_63 : Ref sig .tc := ⟨.hbm, 350, rfl⟩
abbrev main_v235 : Ref sig .tc := ⟨.hbm, 351, rfl⟩
abbrev main_v236 : Ref sig .tc := ⟨.hbm, 352, rfl⟩
abbrev main_c_64 : Ref sig .tc := ⟨.hbm, 353, rfl⟩
abbrev main_v237 : Ref sig .tc := ⟨.hbm, 354, rfl⟩
abbrev main_v238 : Ref sig .tc := ⟨.hbm, 355, rfl⟩
abbrev main_v239 : Ref sig .tc := ⟨.hbm, 356, rfl⟩
abbrev main_v240 : Ref sig .tc := ⟨.hbm, 357, rfl⟩
abbrev main_v241 : Ref sig .tc := ⟨.hbm, 358, rfl⟩
abbrev main_cst_65 : Ref sig .tc := ⟨.hbm, 359, rfl⟩
abbrev main_v242 : Ref sig .tc := ⟨.hbm, 360, rfl⟩
abbrev main_v243 : Ref sig .tc := ⟨.hbm, 361, rfl⟩
abbrev main_c_66 : Ref sig .tc := ⟨.hbm, 362, rfl⟩
abbrev main_v244 : Ref sig .tc := ⟨.hbm, 363, rfl⟩
abbrev main_v245 : Ref sig .tc := ⟨.hbm, 364, rfl⟩
abbrev main_c_67 : Ref sig .tc := ⟨.hbm, 365, rfl⟩
abbrev main_v246 : Ref sig .tc := ⟨.hbm, 366, rfl⟩
abbrev main_v247 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_v257 : Ref sig .tc := ⟨.hbm, 377, rfl⟩
abbrev main_v258 : Ref sig .tc := ⟨.hbm, 378, rfl⟩
abbrev main_v259 : Ref sig .tc := ⟨.hbm, 379, rfl⟩
abbrev main_v260 : Ref sig .tc := ⟨.hbm, 380, rfl⟩

abbrev nD : Nat := 1
abbrev τ : Topo := Topo.v7x

variable {F : FTy → Type} [FloatOps F]

class Facts₀ : Prop where
  slices_S8x2x512x1024_S8x1x512x1024_0_0_0_0 : S8x2x512x1024.Slices ![0, 0, 0, 0] S8x1x512x1024
  shapeCasts_S8x1x512x1024_S8x512x1024 : S8x1x512x1024.ShapeCasts S8x512x1024
  slices_S8x2x512x1024_S8x1x512x1024_0_1_0_0 : S8x2x512x1024.Slices ![0, 1, 0, 0] S8x1x512x1024
  bcast_S_S8x512x1024 : S_.BroadcastsInDim S8x512x1024 (![] : Fin 0 → Fin S8x512x1024.rank)
  bcast_S512_S1x512x1_1 : S512.BroadcastsInDim S1x512x1 (![1] : Fin 1 → Fin S1x512x1.rank)
  bcast_S1024_S1x1x1024_2 : S1024.BroadcastsInDim S1x1x1024 (![2] : Fin 1 → Fin S1x1x1024.rank)
  transposes_S8x3x512x1024_S8x512x1024x3_0_2_3_1 : S8x3x512x1024.Transposes [0, 2, 3, 1] S8x512x1024x3
  bcast_S1x512x1_S8x512x1024_0_1_2 : S1x512x1.BroadcastsInDim S8x512x1024 (![0, 1, 2] : Fin 3 → Fin S8x512x1024.rank)
  bcast_S1x1x1024_S8x512x1024_0_1_2 : S1x1x1024.BroadcastsInDim S8x512x1024 (![0, 1, 2] : Fin 3 → Fin S8x512x1024.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x1024_0_1_2 : S8x1x1.BroadcastsInDim S8x512x1024 (![0, 1, 2] : Fin 3 → Fin S8x512x1024.rank)
  shapeCasts_S8x512x1024_S4194304 : S8x512x1024.ShapeCasts S4194304
  bcast_S8x512x1024_S8x512x1024x1_0_1_2 : S8x512x1024.BroadcastsInDim S8x512x1024x1 (![0, 1, 2] : Fin 3 → Fin S8x512x1024x1.rank)
  bcast_S8x512x1024x1_S8x512x1024x3_0_1_2_3 : S8x512x1024x1.BroadcastsInDim S8x512x1024x3 (![0, 1, 2, 3] : Fin 4 → Fin S8x512x1024x3.rank)
  shapeCasts_S8x512x1024x3_S4194304x3 : S8x512x1024x3.ShapeCasts S4194304x3
  bcast_S_S4194304x3 : S_.BroadcastsInDim S4194304x3 (![] : Fin 0 → Fin S4194304x3.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  shapeCasts_S4194304x3_S8x512x1024x3 : S4194304x3.ShapeCasts S8x512x1024x3
  transposes_S8x512x1024x3_S8x3x512x1024_0_3_1_2 : S8x512x1024x3.Transposes [0, 3, 1, 2] S8x3x512x1024
  shapeCasts_S4194304_S8x1x512x1024 : S4194304.ShapeCasts S8x1x512x1024
  bcast_S8x1x512x1024_S8x3x512x1024_0_1_2_3 : S8x1x512x1024.BroadcastsInDim S8x3x512x1024 (![0, 1, 2, 3] : Fin 4 → Fin S8x3x512x1024.rank)
  scatter_S4194304x3_S4194304x1_S4194304x3_1_0_0_1_wf : ScatterDims.WF S4194304x3 S4194304x1 S4194304x3 [1] [0] [0] 1
  scatter_S4194304_S4194304x1_S4194304_n_0_0_1_wf : ScatterDims.WF S4194304 S4194304x1 S4194304 [] [0] [0] 1

variable [Facts₀]

def scatter_S4194304x3_S4194304x1_S4194304x3_1_0_0_1 : ScatterDims S4194304x3 S4194304x1 S4194304x3 where
  updateWindowDims := [1]
  insertedWindowDims := [0]
  scatterDimsToOperandDims := [0]
  indexVectorDim := 1
  wf := scatter_S4194304x3_S4194304x1_S4194304x3_1_0_0_1_wf
def scatter_S4194304_S4194304x1_S4194304_n_0_0_1 : ScatterDims S4194304 S4194304x1 S4194304 where
  updateWindowDims := []
  insertedWindowDims := [0]
  scatterDimsToOperandDims := [0]
  indexVectorDim := 1
  wf := scatter_S4194304_S4194304x1_S4194304_n_0_0_1_wf

class Facts : Prop extends Facts₀ where

variable [Facts]
-- ==== Proof.KernelFrame.lean ====
import proofs.«178573_j6485400617539_2_alg».proof.Proof.Gen.Kernel.Launch
import proofs.«178573_j6485400617539_2_alg».proof.Proof.Gen.Kernel.Skeleton
import proofs.«178573_j6485400617539_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The frame of the splatting kernel: it runs to the end and leaves its two inputs as it found them

The program is one pipelined region over an 8 × 4 grid followed by sixty-five host operations, none before it.
At a grid point the body reads the image block `x0` (three channels) and the flow block `x1` (two channels),
and for each of the four corners `(⌊x⌋ or ⌊x⌋+1, ⌊y⌋ or ⌊y⌋+1)` of the displaced pixel writes

* the image times the corner's masked weight `exp (-(dx² + dy²))` into three channels of the first result,
* the masked weight into one channel of the second result,
* the flat target index `(n·H + clip row)·W + clip col` into one channel of the third result.

So each result block is tiled by four stores, and what the body leaves in it is a closed function of the grid
point and the two input blocks: the four payloads laid side by side (`out2`, `out3`, `out4`).  The inputs are
only read.  The host operations after the region write fresh buffers only, hence none of the five arrays the
region stages.  Together with the library's run of a region continued by host lines this gives the frame.
-/

-- membership in a rectangle of extents 128 × 1024, and the 65-element list of host operations
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region inside the program -/

/-- Core `c`'s buffers when the region is entered: no host operation precedes it, so they are as launched
    (the contents after the empty list of operations). -/
abbrev V0 (c : Dev nD) : Valuation τ sig (Elt F) :=
  StableHlo.after (List.flatten ([] : List (List (HloOp τ sig (Elt F))))) (fun b => m (c, b))
/-- The same read at a reference of the core. -/
abbrev V (c : Dev nD) (b : Ref sig .tc) : Buf (Elt F) ((c : Thread nD τ).loc b) := V0 m c (Proc.devRef .tc b)

/-- The host operations after the region allocate nothing. -/
theorem hostOps1_fresh : (hostOps1 : List (HloOp τ sig (Elt F))).Forall fun op => op.fresh = ∅ := by
  simp only [List.Forall]; repeat' constructor

/-- The program is the region continued by the sixty-five host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- Every buffer a later operation touches is an unscoped buffer of the core: one of the region's arrays or one
    that bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-! ### No later operation writes an array the region stages

Each host operation writes exactly one buffer, its own result, and that buffer is none of the two argument arrays
nor of the three result arrays of the region.  One statement per array, over the whole list at once. -/

/-- Unfolds the list and each operation's written set, and compares buffer names. -/
local macro "host_writes_ne" : tactic => `(tactic|
  (simp only [hostOps1, List.Forall, StableHlo.nullary_writes, StableHlo.unary_writes, StableHlo.binary_writes,
     StableHlo.ternary_writes, StableHlo.reshape_writes, StableHlo.nary_writes, Finset.mem_singleton]
   repeat' apply And.intro
   all_goals exact StableHlo.devRef_ne_of_ne (by decide)))

set_option maxHeartbeats 4000000 in
theorem keeps_arg0 : (hostOps1 : List (HloOp τ sig (Elt F))).Forall fun op => Proc.devRef .tc main_arg0 ∉ op.writes := by
  host_writes_ne
set_option maxHeartbeats 4000000 in
theorem keeps_arg1 : (hostOps1 : List (HloOp τ sig (Elt F))).Forall fun op => Proc.devRef .tc main_arg1 ∉ op.writes := by
  host_writes_ne
set_option maxHeartbeats 4000000 in
theorem keeps_res0 : (hostOps1 : List (HloOp τ sig (Elt F))).Forall fun op => Proc.devRef .tc main_v0_0 ∉ op.writes := by
  host_writes_ne
set_option maxHeartbeats 4000000 in
theorem keeps_res1 : (hostOps1 : List (HloOp τ sig (Elt F))).Forall fun op => Proc.devRef .tc main_v0_1 ∉ op.writes := by
  host_writes_ne
set_option maxHeartbeats 4000000 in
theorem keeps_res2 : (hostOps1 : List (HloOp τ sig (Elt F))).Forall fun op => Proc.devRef .tc main_v0_2 ∉ op.writes := by
  host_writes_ne

/-- So the later operations leave all five arrays of the region alone. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  fin_cases w
  · exact (List.forall_iff_forall_mem.mp keeps_arg0) op hop
  · exact (List.forall_iff_forall_mem.mp keeps_arg1) op hop
  · exact (List.forall_iff_forall_mem.mp keeps_res0) op hop
  · exact (List.forall_iff_forall_mem.mp keeps_res1) op hop
  · exact (List.forall_iff_forall_mem.mp keeps_res2) op hop

/-- The region finds the first argument as launched. -/
theorem V_main_arg0 (c : Dev nD) : V m c main_arg0 = m ((c : Thread nD τ).loc main_arg0) := rfl
/-- The region finds the second argument as launched. -/
theorem V_main_arg1 (c : Dev nD) : V m c main_arg1 = m ((c : Thread nD τ).loc main_arg1) := rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The image window's current staging buffer holds the image block of the point, whether the pipeline fetched it
    at this point or kept it from the point before (then the block index did not move): for any proof data whose
    array is the region-entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the flow window. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole image block. -/
abbrev rImg : Rect S1x3x128x1024 := Rect.unit (s := S1x3x128x1024) ![0, 0, 0, 0] S1x3x128x1024.size Gen.inb_S1x3x128x1024_S1x3x128x1024_0_0_0_0
/-- Channel 0 of the flow block (added to the column index) and channel 1 (added to the row index). -/
abbrev rFlo0 : Rect S1x2x128x1024 := Rect.unit (s := S1x2x128x1024) ![0, 0, 0, 0] S1x1x128x1024.size Gen.inb_S1x2x128x1024_S1x1x128x1024_0_0_0_0
abbrev rFlo1 : Rect S1x2x128x1024 := Rect.unit (s := S1x2x128x1024) ![0, 1, 0, 0] S1x1x128x1024.size Gen.inb_S1x2x128x1024_S1x1x128x1024_0_1_0_0
/-- Corner `k`'s three channels of the first result block: channels `3k, 3k+1, 3k+2`. -/
abbrev rVal0 : Rect S1x12x128x1024 := Rect.unit (s := S1x12x128x1024) ![0, 0, 0, 0] S1x3x128x1024.size Gen.inb_S1x12x128x1024_S1x3x128x1024_0_0_0_0
abbrev rVal1 : Rect S1x12x128x1024 := Rect.unit (s := S1x12x128x1024) ![0, 3, 0, 0] S1x3x128x1024.size Gen.inb_S1x12x128x1024_S1x3x128x1024_0_3_0_0
abbrev rVal2 : Rect S1x12x128x1024 := Rect.unit (s := S1x12x128x1024) ![0, 6, 0, 0] S1x3x128x1024.size Gen.inb_S1x12x128x1024_S1x3x128x1024_0_6_0_0
abbrev rVal3 : Rect S1x12x128x1024 := Rect.unit (s := S1x12x128x1024) ![0, 9, 0, 0] S1x3x128x1024.size Gen.inb_S1x12x128x1024_S1x3x128x1024_0_9_0_0
/-- Corner `k`'s channel of the second and of the third result block: channel `k`. -/
abbrev rCh0 : Rect S1x4x128x1024 := Rect.unit (s := S1x4x128x1024) ![0, 0, 0, 0] S1x1x128x1024.size Gen.inb_S1x4x128x1024_S1x1x128x1024_0_0_0_0
abbrev rCh1 : Rect S1x4x128x1024 := Rect.unit (s := S1x4x128x1024) ![0, 1, 0, 0] S1x1x128x1024.size Gen.inb_S1x4x128x1024_S1x1x128x1024_0_1_0_0
abbrev rCh2 : Rect S1x4x128x1024 := Rect.unit (s := S1x4x128x1024) ![0, 2, 0, 0] S1x1x128x1024.size Gen.inb_S1x4x128x1024_S1x1x128x1024_0_2_0_0
abbrev rCh3 : Rect S1x4x128x1024 := Rect.unit (s := S1x4x128x1024) ![0, 3, 0, 0] S1x1x128x1024.size Gen.inb_S1x4x128x1024_S1x1x128x1024_0_3_0_0

/-! ## What the body computes, from the grid point and the two input blocks -/

section Values

variable (i : grid0.Coords) (x0 : Vec F S1x3x128x1024 .f32) (x1 : Vec F S1x2x128x1024 .f32)

/-- The batch coordinate of the grid point as a 32-bit word. -/
abbrev pidN : BitVec 32 := BitVec.ofNat 32 (i 0).val
/-- The absolute row of each element of the tile (the row within the tile plus 128 times the tile's coordinate)
    and its column. -/
abbrev rowIx : IVec S128x1024 32 := k0_pay4 i
abbrev colIx : IVec S128x1024 32 := iota .tc S128x1024 32 [1] Gen.iota_S128x1024_d1_w32
/-- The two channels of the flow block as loaded: `y` (channel 0) and `x` (channel 1). -/
abbrev floY : Vec F S1x1x128x1024 .f32 := View.ld x1 rFlo0
abbrev floX : Vec F S1x1x128x1024 .f32 := View.ld x1 rFlo1
/-- The image block as loaded, and without its leading unit axis. -/
abbrev imgLd : Vec F S1x3x128x1024 .f32 := View.ld x0 rImg
abbrev img : FVec F S3x128x1024 .f32 := k0_pay19 (imgLd x0)

/-- The four corners' masked weights: `exp (-(dx² + dy²))` where the corner lies inside the image, else `0`.
    Corner 0 is `(⌊x⌋, ⌊y⌋)`, corner 1 `(⌊x⌋, ⌊y⌋+1)`, corner 2 `(⌊x⌋+1, ⌊y⌋)`, corner 3 `(⌊x⌋+1, ⌊y⌋+1)`. -/
abbrev wgt0 : FVec F S128x1024 .f32 :=
  k0_pay22 (rowIx i) colIx (k0_pay7 (floX x1)) (k0_pay9 (floY x1)) (k0_pay15 (floY x1) (floX x1))
abbrev wgt1 : FVec F S128x1024 .f32 :=
  k0_pay29 (rowIx i) colIx (k0_pay7 (floX x1)) (k0_pay10 (floY x1)) (k0_pay16 (floY x1) (floX x1))
abbrev wgt2 : FVec F S128x1024 .f32 :=
  k0_pay37 (rowIx i) colIx (k0_pay8 (floX x1)) (k0_pay9 (floY x1)) (k0_pay17 (floY x1) (floX x1))
abbrev wgt3 : FVec F S128x1024 .f32 :=
  k0_pay46 (rowIx i) colIx (k0_pay8 (floX x1)) (k0_pay10 (floY x1)) (k0_pay18 (floY x1) (floX x1))

/-- The four stores into the first result block: the image times the corner's weight, with a leading unit axis. -/
abbrev val0 : FVec F S1x3x128x1024 .f32 :=
  k0_pay24 (rowIx i) colIx (k0_pay7 (floX x1)) (k0_pay9 (floY x1)) (k0_pay15 (floY x1) (floX x1)) (imgLd x0)
abbrev val1 : FVec F S1x3x128x1024 .f32 :=
  k0_pay32 (k0_pay31 (rowIx i) colIx (k0_pay7 (floX x1)) (k0_pay10 (floY x1)) (k0_pay16 (floY x1) (floX x1)) (img x0))
abbrev val2 : FVec F S1x3x128x1024 .f32 := k0_pay41 (img x0) (wgt2 i x1)
abbrev val3 : FVec F S1x3x128x1024 .f32 := k0_pay1 (img x0) (wgt3 i x1)

/-- The four stores into the second result block: the corner's weight as one channel. -/
abbrev wst0 : FVec F S1x1x128x1024 .f32 := k0_pay25 (wgt0 i x1)
abbrev wst1 : FVec F S1x1x128x1024 .f32 := k0_pay33 (wgt1 i x1)
abbrev wst2 : FVec F S1x1x128x1024 .f32 := k0_pay42 (wgt2 i x1)
abbrev wst3 : FVec F S1x1x128x1024 .f32 := k0_pay2 (wgt3 i x1)

/-- The four stores into the third result block: the corner's flat target index `(n·512 + clip row)·1024 + clip col`
    as one channel. -/
abbrev tid0 : IVec S1x1x128x1024 32 :=
  k0_pay26 (k0_pay23 (pidN i) (rowIx i) colIx (k0_pay7 (floX x1)) (k0_pay9 (floY x1)))
abbrev tid1 : IVec S1x1x128x1024 32 :=
  k0_pay34 (k0_pay30 (pidN i) (rowIx i) colIx (k0_pay7 (floX x1)) (k0_pay10 (floY x1)))
abbrev tid2 : IVec S1x1x128x1024 32 :=
  k0_pay43 (k0_pay38 colIx (k0_pay9 (floY x1))) (k0_pay39 (pidN i) (rowIx i) (k0_pay8 (floX x1))) k0_pay40
abbrev tid3 : IVec S1x1x128x1024 32 :=
  k0_pay3 (pidN i) (k0_pay45 colIx (k0_pay10 (floY x1))) (k0_pay47 (rowIx i) (k0_pay8 (floX x1))) 1023#32 k0_pay48

end Values

/-- The first result's staging buffer after the body at grid point `i`, from the image block `x0` and the flow
    block `x1`: its four stores, the last one first. -/
def out2 (i : grid0.Coords) (x0 : Vec F S1x3x128x1024 .f32) (x1 : Vec F S1x2x128x1024 .f32) : Vec F S1x12x128x1024 .f32 :=
  View.canon [⟨rVal3, val3 i x0 x1⟩, ⟨rVal2, val2 i x0 x1⟩, ⟨rVal1, val1 i x0 x1⟩, ⟨rVal0, val0 i x0 x1⟩]
/-- The second result's staging buffer after the body (the image block plays no part). -/
def out3 (i : grid0.Coords) (x0 : Vec F S1x3x128x1024 .f32) (x1 : Vec F S1x2x128x1024 .f32) : Vec F S1x4x128x1024 .f32 :=
  View.canon [⟨rCh3, wst3 i x1⟩, ⟨rCh2, wst2 i x1⟩, ⟨rCh1, wst1 i x1⟩, ⟨rCh0, wst0 i x1⟩]
/-- The third result's staging buffer after the body (the image block plays no part). -/
def out4 (i : grid0.Coords) (x0 : Vec F S1x3x128x1024 .f32) (x1 : Vec F S1x2x128x1024 .f32) : Vec F S1x4x128x1024 .i32 :=
  View.canon [⟨rCh3, tid3 i x1⟩, ⟨rCh2, tid2 i x1⟩, ⟨rCh1, tid1 i x1⟩, ⟨rCh0, tid0 i x1⟩]

/-- Four rectangles of three channels at channel offsets 0, 3, 6, 9 tile the twelve channels. -/
theorem cover2 (p0 p1 p2 p3 : Vec F S1x3x128x1024 .f32) (y : S1x12x128x1024.Idx) :
    ∃ pc ∈ ([⟨rVal3, p0⟩, ⟨rVal2, p1⟩, ⟨rVal1, p2⟩, ⟨rVal0, p3⟩] : List (View.Piece (Elt F) S1x12x128x1024 .f32)), y ∈ pc.1.set :=
  View.cover_of_tiled [⟨rVal3, p0⟩, ⟨rVal2, p1⟩, ⟨rVal1, p2⟩, ⟨rVal0, p3⟩] S1x3x128x1024.size (by rfl) y
/-- Four rectangles of one channel at channel offsets 0, 1, 2, 3 tile the four channels. -/
theorem cover3 (p0 p1 p2 p3 : Vec F S1x1x128x1024 .f32) (y : S1x4x128x1024.Idx) :
    ∃ pc ∈ ([⟨rCh3, p0⟩, ⟨rCh2, p1⟩, ⟨rCh1, p2⟩, ⟨rCh0, p3⟩] : List (View.Piece (Elt F) S1x4x128x1024 .f32)), y ∈ pc.1.set :=
  View.cover_of_tiled [⟨rCh3, p0⟩, ⟨rCh2, p1⟩, ⟨rCh1, p2⟩, ⟨rCh0, p3⟩] S1x1x128x1024.size (by rfl) y
theorem cover4 (p0 p1 p2 p3 : Vec F S1x1x128x1024 .i32) (y : S1x4x128x1024.Idx) :
    ∃ pc ∈ ([⟨rCh3, p0⟩, ⟨rCh2, p1⟩, ⟨rCh1, p2⟩, ⟨rCh0, p3⟩] : List (View.Piece (Elt F) S1x4x128x1024 .i32)), y ∈ pc.1.set :=
  View.cover_of_tiled [⟨rCh3, p0⟩, ⟨rCh2, p1⟩, ⟨rCh1, p2⟩, ⟨rCh0, p3⟩] S1x1x128x1024.size (by rfl) y

/-! ## The body's triple -/

set_option maxHeartbeats 4000000 in
/-- The body on whole staging buffers — the inputs' reading `x0`, `x1`, the results' holding anything — runs to its
    continuation with the inputs' as they were and each result's at `out2`, `out3`, `out4` of the point and the
    inputs: every load and store goes through a literal rectangle, the value loaded from a result buffer before
    each store is never used, and the four stores into a result buffer tile it. -/
theorem sound_kernel (c : Dev nD) (E : Set ℕ) (i : grid0.Coords)
    (arg2 : Memref sig .tc .vmem S1x3x128x1024 .f32) (harg2 : arg2.IsWhole)
    (arg3 : Memref sig .tc .vmem S1x2x128x1024 .f32) (harg3 : arg3.IsWhole)
    (arg4 : Memref sig .tc .vmem S1x12x128x1024 .f32) (harg4 : arg4.IsWhole)
    (arg5 : Memref sig .tc .vmem S1x4x128x1024 .f32) (harg5 : arg5.IsWhole)
    (arg6 : Memref sig .tc .vmem S1x4x128x1024 .i32) (harg6 : arg6.IsWhole)
    (x0 : Vec F S1x3x128x1024 .f32) (x1 : Vec F S1x2x128x1024 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (out2 i x0 x1) ∗ owns (c : Thread nD τ) arg5 fullShare (out3 i x0 x1)
            ∗ owns (c : Thread nD τ) arg6 fullShare (out4 i x0 x1)) -∗ K ⟨⟩))
      ⊢ wp frame (wpE (defs₀ (F := F)) Variants.none c none) E (cc0__prep_kernel i arg2 harg2 arg3 harg3 arg4 harg4 arg5 harg5 arg6 harg6) K := by
  simp only [cc0__prep_kernel_eq_skeleton]; unfold cc0__prep_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _ _ _ _)
  isplitl [H3]
  · iexists _; isplitr
    swap; · iexact H3
    ipureintro
    exact View.read_writes_eq_canon _ _ _ (cover3 _ _ _ _)
  iexists _; isplitr
  swap; · iexact H4
  ipureintro
  exact View.read_writes_eq_canon _ _ _ (cover4 _ _ _ _)

/-! ## The pipeline's proof data -/

/-- The proof data of the pipeline on core `c`: the arrays as the region finds them; after the body at point `t`
    each input's buffer at its block and each result's at `out2`, `out3`, `out4` of the point's coordinates and
    the input blocks; the invariant that of a body which touches nothing but its staging buffers; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (grid0.coords t) (iblk m c 0 t) (iblk m c 1 t)
    | ⟨3, _⟩ => out3 (grid0.coords t) (iblk m c 0 t) (iblk m c 1 t)
    | ⟨4, _⟩ => out4 (grid0.coords t) (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = out2 (grid0.coords t) (iblk m c 0 t) (iblk m c 1 t) := by dsimp only [dats]
theorem after_3 (c : Dev nD) (t : Fin cfg0.N) :
    (dats m 0 c).after 3 t = out3 (grid0.coords t) (iblk m c 0 t) (iblk m c 1 t) := by dsimp only [dats]
theorem after_4 (c : Dev nD) (t : Fin cfg0.N) :
    (dats m 0 c).after 4 t = out4 (grid0.coords t) (iblk m c 0 t) (iblk m c 1 t) := by dsimp only [dats]

/-- Each input's current staging buffer holds its block at every point. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' staging buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the cores terminates without
    fault, and in every final state each array of the region holds what the library computes from the proof data and
    every other unscoped buffer what the operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Fr.run_main' depends on axioms: [propext, Classical.choice, Quot.sound] -/
#guard_msgs in #print axioms run_main

/-- The contents the operations after the region leave, read at the first argument: they do not write it, the
    region's exit has it at the library's value for a staged input — its entry contents —, and those are the launch's. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (by
    simp only [List.flatten_cons, List.flatten_nil, List.append_nil]
    exact List.forall_iff_forall_mem.mp keeps_arg0)]
  exact (Pipeline.withArrays_arr spec0 launch0.win.arr_inj c (V0 m c) _ 0).trans
    (((dats m 0 c).arrAt_in 0 rfl _).trans ((A_eq m c 0).trans (V_main_arg0 m c)))
/-- The same at the second argument. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (by
    simp only [List.flatten_cons, List.flatten_nil, List.append_nil]
    exact List.forall_iff_forall_mem.mp keeps_arg1)]
  exact (Pipeline.withArrays_arr spec0 launch0.win.arr_inj c (V0 m c) _ 1).trans
    (((dats m 0 c).arrAt_in 1 rfl _).trans ((A_eq m c 1).trans (V_main_arg1 m c)))

/-- THE FRAME: the program runs to the end without fault and both argument arrays end as launched — each is the
    array of an input window, which the pipeline never writes back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.Kernel.Fr

end
-- ==== Proof.KernelIdealFrame.lean ====
import proofs.«178573_j6485400617539_2_alg».proof.Proof.Gen.KernelIdeal.Launch
import proofs.«178573_j6485400617539_2_alg».proof.Proof.Gen.KernelIdeal.Skeleton
import proofs.«178573_j6485400617539_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The frame of the splatting kernel: it runs to the end and leaves its two inputs as it found them

The program is one pipelined region over an 8 × 4 grid followed by sixty-five host operations, none before it.
At a grid point the body reads the image block `x0` (three channels) and the flow block `x1` (two channels),
and for each of the four corners `(⌊x⌋ or ⌊x⌋+1, ⌊y⌋ or ⌊y⌋+1)` of the displaced pixel writes

* the image times the corner's masked weight `exp (-(dx² + dy²))` into three channels of the first result,
* the masked weight into one channel of the second result,
* the flat target index `(n·H + clip row)·W + clip col` into one channel of the third result.

So each result block is tiled by four stores, and what the body leaves in it is a closed function of the grid
point and the two input blocks: the four payloads laid side by side (`out2`, `out3`, `out4`).  The inputs are
only read.  The host operations after the region write fresh buffers only, hence none of the five arrays the
region stages.  Together with the library's run of a region continued by host lines this gives the frame.
-/

-- membership in a rectangle of extents 128 × 1024, and the 65-element list of host operations
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region inside the program -/

/-- Core `c`'s buffers when the region is entered: no host operation precedes it, so they are as launched
    (the contents after the empty list of operations). -/
abbrev V0 (c : Dev nD) : Valuation τ sig (Elt F) :=
  StableHlo.after (List.flatten ([] : List (List (HloOp τ sig (Elt F))))) (fun b => m (c, b))
/-- The same read at a reference of the core. -/
abbrev V (c : Dev nD) (b : Ref sig .tc) : Buf (Elt F) ((c : Thread nD τ).loc b) := V0 m c (Proc.devRef .tc b)

/-- The host operations after the region allocate nothing. -/
theorem hostOps1_fresh : (hostOps1 : List (HloOp τ sig (Elt F))).Forall fun op => op.fresh = ∅ := by
  simp only [List.Forall]; repeat' constructor

/-- The program is the region continued by the sixty-five host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- Every buffer a later operation touches is an unscoped buffer of the core: one of the region's arrays or one
    that bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-! ### No later operation writes an array the region stages

Each host operation writes exactly one buffer, its own result, and that buffer is none of the two argument arrays
nor of the three result arrays of the region.  One statement per array, over the whole list at once. -/

/-- Unfolds the list and each operation's written set, and compares buffer names. -/
local macro "host_writes_ne" : tactic => `(tactic|
  (simp only [hostOps1, List.Forall, StableHlo.nullary_writes, StableHlo.unary_writes, StableHlo.binary_writes,
     StableHlo.ternary_writes, StableHlo.reshape_writes, StableHlo.nary_writes, Finset.mem_singleton]
   repeat' apply And.intro
   all_goals exact StableHlo.devRef_ne_of_ne (by decide)))

set_option maxHeartbeats 4000000 in
theorem keeps_arg0 : (hostOps1 : List (HloOp τ sig (Elt F))).Forall fun op => Proc.devRef .tc main_arg0 ∉ op.writes := by
  host_writes_ne
set_option maxHeartbeats 4000000 in
theorem keeps_arg1 : (hostOps1 : List (HloOp τ sig (Elt F))).Forall fun op => Proc.devRef .tc main_arg1 ∉ op.writes := by
  host_writes_ne
set_option maxHeartbeats 4000000 in
theorem keeps_res0 : (hostOps1 : List (HloOp τ sig (Elt F))).Forall fun op => Proc.devRef .tc main_v0_0 ∉ op.writes := by
  host_writes_ne
set_option maxHeartbeats 4000000 in
theorem keeps_res1 : (hostOps1 : List (HloOp τ sig (Elt F))).Forall fun op => Proc.devRef .tc main_v0_1 ∉ op.writes := by
  host_writes_ne
set_option maxHeartbeats 4000000 in
theorem keeps_res2 : (hostOps1 : List (HloOp τ sig (Elt F))).Forall fun op => Proc.devRef .tc main_v0_2 ∉ op.writes := by
  host_writes_ne

/-- So the later operations leave all five arrays of the region alone. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  fin_cases w
  · exact (List.forall_iff_forall_mem.mp keeps_arg0) op hop
  · exact (List.forall_iff_forall_mem.mp keeps_arg1) op hop
  · exact (List.forall_iff_forall_mem.mp keeps_res0) op hop
  · exact (List.forall_iff_forall_mem.mp keeps_res1) op hop
  · exact (List.forall_iff_forall_mem.mp keeps_res2) op hop

/-- The region finds the first argument as launched. -/
theorem V_main_arg0 (c : Dev nD) : V m c main_arg0 = m ((c : Thread nD τ).loc main_arg0) := rfl
/-- The region finds the second argument as launched. -/
theorem V_main_arg1 (c : Dev nD) : V m c main_arg1 = m ((c : Thread nD τ).loc main_arg1) := rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The image window's current staging buffer holds the image block of the point, whether the pipeline fetched it
    at this point or kept it from the point before (then the block index did not move): for any proof data whose
    array is the region-entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the flow window. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole image block. -/
abbrev rImg : Rect S1x3x128x1024 := Rect.unit (s := S1x3x128x1024) ![0, 0, 0, 0] S1x3x128x1024.size Gen.inb_S1x3x128x1024_S1x3x128x1024_0_0_0_0
/-- Channel 0 of the flow block (added to the column index) and channel 1 (added to the row index). -/
abbrev rFlo0 : Rect S1x2x128x1024 := Rect.unit (s := S1x2x128x1024) ![0, 0, 0, 0] S1x1x128x1024.size Gen.inb_S1x2x128x1024_S1x1x128x1024_0_0_0_0
abbrev rFlo1 : Rect S1x2x128x1024 := Rect.unit (s := S1x2x128x1024) ![0, 1, 0, 0] S1x1x128x1024.size Gen.inb_S1x2x128x1024_S1x1x128x1024_0_1_0_0
/-- Corner `k`'s three channels of the first result block: channels `3k, 3k+1, 3k+2`. -/
abbrev rVal0 : Rect S1x12x128x1024 := Rect.unit (s := S1x12x128x1024) ![0, 0, 0, 0] S1x3x128x1024.size Gen.inb_S1x12x128x1024_S1x3x128x1024_0_0_0_0
abbrev rVal1 : Rect S1x12x128x1024 := Rect.unit (s := S1x12x128x1024) ![0, 3, 0, 0] S1x3x128x1024.size Gen.inb_S1x12x128x1024_S1x3x128x1024_0_3_0_0
abbrev rVal2 : Rect S1x12x128x1024 := Rect.unit (s := S1x12x128x1024) ![0, 6, 0, 0] S1x3x128x1024.size Gen.inb_S1x12x128x1024_S1x3x128x1024_0_6_0_0
abbrev rVal3 : Rect S1x12x128x1024 := Rect.unit (s := S1x12x128x1024) ![0, 9, 0, 0] S1x3x128x1024.size Gen.inb_S1x12x128x1024_S1x3x128x1024_0_9_0_0
/-- Corner `k`'s channel of the second and of the third result block: channel `k`. -/
abbrev rCh0 : Rect S1x4x128x1024 := Rect.unit (s := S1x4x128x1024) ![0, 0, 0, 0] S1x1x128x1024.size Gen.inb_S1x4x128x1024_S1x1x128x1024_0_0_0_0
abbrev rCh1 : Rect S1x4x128x1024 := Rect.unit (s := S1x4x128x1024) ![0, 1, 0, 0] S1x1x128x1024.size Gen.inb_S1x4x128x1024_S1x1x128x1024_0_1_0_0
abbrev rCh2 : Rect S1x4x128x1024 := Rect.unit (s := S1x4x128x1024) ![0, 2, 0, 0] S1x1x128x1024.size Gen.inb_S1x4x128x1024_S1x1x128x1024_0_2_0_0
abbrev rCh3 : Rect S1x4x128x1024 := Rect.unit (s := S1x4x128x1024) ![0, 3, 0, 0] S1x1x128x1024.size Gen.inb_S1x4x128x1024_S1x1x128x1024_0_3_0_0

/-! ## What the body computes, from the grid point and the two input blocks -/

section Values

variable (i : grid0.Coords) (x0 : Vec F S1x3x128x1024 .f32) (x1 : Vec F S1x2x128x1024 .f32)

/-- The batch coordinate of the grid point as a 32-bit word. -/
abbrev pidN : BitVec 32 := BitVec.ofNat 32 (i 0).val
/-- The absolute row of each element of the tile (the row within the tile plus 128 times the tile's coordinate)
    and its column. -/
abbrev rowIx : IVec S128x1024 32 := k0_pay4 i
abbrev colIx : IVec S128x1024 32 := iota .tc S128x1024 32 [1] Gen.iota_S128x1024_d1_w32
/-- The two channels of the flow block as loaded: `y` (channel 0) and `x` (channel 1). -/
abbrev floY : Vec F S1x1x128x1024 .f32 := View.ld x1 rFlo0
abbrev floX : Vec F S1x1x128x1024 .f32 := View.ld x1 rFlo1
/-- The image block as loaded, and without its leading unit axis. -/
abbrev imgLd : Vec F S1x3x128x1024 .f32 := View.ld x0 rImg
abbrev img : FVec F S3x128x1024 .f32 := k0_pay19 (imgLd x0)

/-- The four corners' masked weights: `exp (-(dx² + dy²))` where the corner lies inside the image, else `0`.
    Corner 0 is `(⌊x⌋, ⌊y⌋)`, corner 1 `(⌊x⌋, ⌊y⌋+1)`, corner 2 `(⌊x⌋+1, ⌊y⌋)`, corner 3 `(⌊x⌋+1, ⌊y⌋+1)`. -/
abbrev wgt0 : FVec F S128x1024 .f32 :=
  k0_pay22 (rowIx i) colIx (k0_pay7 (floX x1)) (k0_pay9 (floY x1)) (k0_pay15 (floY x1) (floX x1))
abbrev wgt1 : FVec F S128x1024 .f32 :=
  k0_pay29 (rowIx i) colIx (k0_pay7 (floX x1)) (k0_pay10 (floY x1)) (k0_pay16 (floY x1) (floX x1))
abbrev wgt2 : FVec F S128x1024 .f32 :=
  k0_pay37 (rowIx i) colIx (k0_pay8 (floX x1)) (k0_pay9 (floY x1)) (k0_pay17 (floY x1) (floX x1))
abbrev wgt3 : FVec F S128x1024 .f32 :=
  k0_pay46 (rowIx i) colIx (k0_pay8 (floX x1)) (k0_pay10 (floY x1)) (k0_pay18 (floY x1) (floX x1))

/-- The four stores into the first result block: the image times the corner's weight, with a leading unit axis. -/
abbrev val0 : FVec F S1x3x128x1024 .f32 :=
  k0_pay24 (rowIx i) colIx (k0_pay7 (floX x1)) (k0_pay9 (floY x1)) (k0_pay15 (floY x1) (floX x1)) (imgLd x0)
abbrev val1 : FVec F S1x3x128x1024 .f32 :=
  k0_pay32 (k0_pay31 (rowIx i) colIx (k0_pay7 (floX x1)) (k0_pay10 (floY x1)) (k0_pay16 (floY x1) (floX x1)) (img x0))
abbrev val2 : FVec F S1x3x128x1024 .f32 := k0_pay41 (img x0) (wgt2 i x1)
abbrev val3 : FVec F S1x3x128x1024 .f32 := k0_pay1 (img x0) (wgt3 i x1)

/-- The four stores into the second result block: the corner's weight as one channel. -/
abbrev wst0 : FVec F S1x1x128x1024 .f32 := k0_pay25 (wgt0 i x1)
abbrev wst1 : FVec F S1x1x128x1024 .f32 := k0_pay33 (wgt1 i x1)
abbrev wst2 : FVec F S1x1x128x1024 .f32 := k0_pay42 (wgt2 i x1)
abbrev wst3 : FVec F S1x1x128x1024 .f32 := k0_pay2 (wgt3 i x1)

/-- The four stores into the third result block: the corner's flat target index `(n·512 + clip row)·1024 + clip col`
    as one channel. -/
abbrev tid0 : IVec S1x1x128x1024 32 :=
  k0_pay26 (k0_pay23 (pidN i) (rowIx i) colIx (k0_pay7 (floX x1)) (k0_pay9 (floY x1)))
abbrev tid1 : IVec S1x1x128x1024 32 :=
  k0_pay34 (k0_pay30 (pidN i) (rowIx i) colIx (k0_pay7 (floX x1)) (k0_pay10 (floY x1)))
abbrev tid2 : IVec S1x1x128x1024 32 :=
  k0_pay43 (k0_pay38 colIx (k0_pay9 (floY x1))) (k0_pay39 (pidN i) (rowIx i) (k0_pay8 (floX x1))) k0_pay40
abbrev tid3 : IVec S1x1x128x1024 32 :=
  k0_pay3 (pidN i) (k0_pay45 colIx (k0_pay10 (floY x1))) (k0_pay47 (rowIx i) (k0_pay8 (floX x1))) 1023#32 k0_pay48

end Values

/-- The first result's staging buffer after the body at grid point `i`, from the image block `x0` and the flow
    block `x1`: its four stores, the last one first. -/
def out2 (i : grid0.Coords) (x0 : Vec F S1x3x128x1024 .f32) (x1 : Vec F S1x2x128x1024 .f32) : Vec F S1x12x128x1024 .f32 :=
  View.canon [⟨rVal3, val3 i x0 x1⟩, ⟨rVal2, val2 i x0 x1⟩, ⟨rVal1, val1 i x0 x1⟩, ⟨rVal0, val0 i x0 x1⟩]
/-- The second result's staging buffer after the body (the image block plays no part). -/
def out3 (i : grid0.Coords) (x0 : Vec F S1x3x128x1024 .f32) (x1 : Vec F S1x2x128x1024 .f32) : Vec F S1x4x128x1024 .f32 :=
  View.canon [⟨rCh3, wst3 i x1⟩, ⟨rCh2, wst2 i x1⟩, ⟨rCh1, wst1 i x1⟩, ⟨rCh0, wst0 i x1⟩]
/-- The third result's staging buffer after the body (the image block plays no part). -/
def out4 (i : grid0.Coords) (x0 : Vec F S1x3x128x1024 .f32) (x1 : Vec F S1x2x128x1024 .f32) : Vec F S1x4x128x1024 .i32 :=
  View.canon [⟨rCh3, tid3 i x1⟩, ⟨rCh2, tid2 i x1⟩, ⟨rCh1, tid1 i x1⟩, ⟨rCh0, tid0 i x1⟩]

/-- Four rectangles of three channels at channel offsets 0, 3, 6, 9 tile the twelve channels. -/
theorem cover2 (p0 p1 p2 p3 : Vec F S1x3x128x1024 .f32) (y : S1x12x128x1024.Idx) :
    ∃ pc ∈ ([⟨rVal3, p0⟩, ⟨rVal2, p1⟩, ⟨rVal1, p2⟩, ⟨rVal0, p3⟩] : List (View.Piece (Elt F) S1x12x128x1024 .f32)), y ∈ pc.1.set :=
  View.cover_of_tiled [⟨rVal3, p0⟩, ⟨rVal2, p1⟩, ⟨rVal1, p2⟩, ⟨rVal0, p3⟩] S1x3x128x1024.size (by rfl) y
/-- Four rectangles of one channel at channel offsets 0, 1, 2, 3 tile the four channels. -/
theorem cover3 (p0 p1 p2 p3 : Vec F S1x1x128x1024 .f32) (y : S1x4x128x1024.Idx) :
    ∃ pc ∈ ([⟨rCh3, p0⟩, ⟨rCh2, p1⟩, ⟨rCh1, p2⟩, ⟨rCh0, p3⟩] : List (View.Piece (Elt F) S1x4x128x1024 .f32)), y ∈ pc.1.set :=
  View.cover_of_tiled [⟨rCh3, p0⟩, ⟨rCh2, p1⟩, ⟨rCh1, p2⟩, ⟨rCh0, p3⟩] S1x1x128x1024.size (by rfl) y
theorem cover4 (p0 p1 p2 p3 : Vec F S1x1x128x1024 .i32) (y : S1x4x128x1024.Idx) :
    ∃ pc ∈ ([⟨rCh3, p0⟩, ⟨rCh2, p1⟩, ⟨rCh1, p2⟩, ⟨rCh0, p3⟩] : List (View.Piece (Elt F) S1x4x128x1024 .i32)), y ∈ pc.1.set :=
  View.cover_of_tiled [⟨rCh3, p0⟩, ⟨rCh2, p1⟩, ⟨rCh1, p2⟩, ⟨rCh0, p3⟩] S1x1x128x1024.size (by rfl) y

/-! ## The body's triple -/

set_option maxHeartbeats 4000000 in
/-- The body on whole staging buffers — the inputs' reading `x0`, `x1`, the results' holding anything — runs to its
    continuation with the inputs' as they were and each result's at `out2`, `out3`, `out4` of the point and the
    inputs: every load and store goes through a literal rectangle, the value loaded from a result buffer before
    each store is never used, and the four stores into a result buffer tile it. -/
theorem sound_kernel (c : Dev nD) (E : Set ℕ) (i : grid0.Coords)
    (arg2 : Memref sig .tc .vmem S1x3x128x1024 .f32) (harg2 : arg2.IsWhole)
    (arg3 : Memref sig .tc .vmem S1x2x128x1024 .f32) (harg3 : arg3.IsWhole)
    (arg4 : Memref sig .tc .vmem S1x12x128x1024 .f32) (harg4 : arg4.IsWhole)
    (arg5 : Memref sig .tc .vmem S1x4x128x1024 .f32) (harg5 : arg5.IsWhole)
    (arg6 : Memref sig .tc .vmem S1x4x128x1024 .i32) (harg6 : arg6.IsWhole)
    (x0 : Vec F S1x3x128x1024 .f32) (x1 : Vec F S1x2x128x1024 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (out2 i x0 x1) ∗ owns (c : Thread nD τ) arg5 fullShare (out3 i x0 x1)
            ∗ owns (c : Thread nD τ) arg6 fullShare (out4 i x0 x1)) -∗ K ⟨⟩))
      ⊢ wp frame (wpE (defs₀ (F := F)) Variants.none c none) E (cc0__prep_kernel i arg2 harg2 arg3 harg3 arg4 harg4 arg5 harg5 arg6 harg6) K := by
  simp only [cc0__prep_kernel_eq_skeleton]; unfold cc0__prep_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _ _ _ _)
  isplitl [H3]
  · iexists _; isplitr
    swap; · iexact H3
    ipureintro
    exact View.read_writes_eq_canon _ _ _ (cover3 _ _ _ _)
  iexists _; isplitr
  swap; · iexact H4
  ipureintro
  exact View.read_writes_eq_canon _ _ _ (cover4 _ _ _ _)

/-! ## The pipeline's proof data -/

/-- The proof data of the pipeline on core `c`: the arrays as the region finds them; after the body at point `t`
    each input's buffer at its block and each result's at `out2`, `out3`, `out4` of the point's coordinates and
    the input blocks; the invariant that of a body which touches nothing but its staging buffers; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (grid0.coords t) (iblk m c 0 t) (iblk m c 1 t)
    | ⟨3, _⟩ => out3 (grid0.coords t) (iblk m c 0 t) (iblk m c 1 t)
    | ⟨4, _⟩ => out4 (grid0.coords t) (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = out2 (grid0.coords t) (iblk m c 0 t) (iblk m c 1 t) := by dsimp only [dats]
theorem after_3 (c : Dev nD) (t : Fin cfg0.N) :
    (dats m 0 c).after 3 t = out3 (grid0.coords t) (iblk m c 0 t) (iblk m c 1 t) := by dsimp only [dats]
theorem after_4 (c : Dev nD) (t : Fin cfg0.N) :
    (dats m 0 c).after 4 t = out4 (grid0.coords t) (iblk m c 0 t) (iblk m c 1 t) := by dsimp only [dats]

/-- Each input's current staging buffer holds its block at every point. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' staging buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the cores terminates without
    fault, and in every final state each array of the region holds what the library computes from the proof data and
    every other unscoped buffer what the operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Fr.run_main' depends on axioms: [propext, Classical.choice, Quot.sound] -/
#guard_msgs in #print axioms run_main

/-- The contents the operations after the region leave, read at the first argument: they do not write it, the
    region's exit has it at the library's value for a staged input — its entry contents —, and those are the launch's. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (by
    simp only [List.flatten_cons, List.flatten_nil, List.append_nil]
    exact List.forall_iff_forall_mem.mp keeps_arg0)]
  exact (Pipeline.withArrays_arr spec0 launch0.win.arr_inj c (V0 m c) _ 0).trans
    (((dats m 0 c).arrAt_in 0 rfl _).trans ((A_eq m c 0).trans (V_main_arg0 m c)))
/-- The same at the second argument. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (by
    simp only [List.flatten_cons, List.flatten_nil, List.append_nil]
    exact List.forall_iff_forall_mem.mp keeps_arg1)]
  exact (Pipeline.withArrays_arr spec0 launch0.win.arr_inj c (V0 m c) _ 1).trans
    (((dats m 0 c).arrAt_in 1 rfl _).trans ((A_eq m c 1).trans (V_main_arg1 m c)))

/-- THE FRAME: the program runs to the end without fault and both argument arrays end as launched — each is the
    array of an input window, which the pipeline never writes back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Fr

end
-- ==== Proof.Spec.lean ====
/-
  Forward flow warping by a four-corner Gaussian splat, pixel by pixel.

  A flow field `flo` gives every source pixel `(n, h, w)` a row offset `y = flo[n,0,h,w]` and a column offset
  `x = flo[n,1,h,w]`.  With `x1 = ⌊x⌋`, `x2 = x1 + 1`, `y1 = ⌊y⌋`, `y2 = y1 + 1` the four corners are
  `(x1,y1) (x1,y2) (x2,y1) (x2,y2)`; corner `(sx, sy)` has weight `exp (-((x - sx)² + (y - sy)²))`, target row
  `int sx + h` and target column `int sy + w`.  A corner whose target leaves the `512 × 1024` image gets weight zero;
  its target is clamped into the image, and the flat target word is `(n·512 + row)·1024 + column`.
  Every pixel adds, at each of its four targets, its weight (to the normaliser) and its weight times its own
  colour (to the warped image).  This file names the per-pixel quantities; the sums are stated where they are used.
-/
import Idealize.ShloMosaic.PureOps.Ideal
import Idealize.ShloMosaic.PureOps.Ideal.Laws
import Idealize.ShloMosaic.Lib.ValueIdx

noncomputable section

namespace Cert.Splat

open Idealize.ShloMosaic Idealize.ShloMosaic.ValueIdx

/-- The image: batch 8, 3 channels, 512 rows, 1024 columns. -/
abbrev SImg : Shape := ⟨4, ![8, 3, 512, 1024]⟩
/-- The flow: batch 8, 2 offsets, 512 rows, 1024 columns. -/
abbrev SFlo : Shape := ⟨4, ![8, 2, 512, 1024]⟩
/-- One plane of pixels per batch entry. -/
abbrev SPix : Shape := ⟨3, ![8, 512, 1024]⟩
/-- Pixels with the channel last. -/
abbrev SPixC : Shape := ⟨4, ![8, 512, 1024, 3]⟩

/-- The float `1.0`. -/
abbrev one : EReal := Ideal.ofBits .f32 0x3F800000#32
/-- The float `0.0`. -/
abbrev zero : EReal := Ideal.ofBits .f32 0x00000000#32
/-- The floor of an extended real (an infinity is kept). -/
abbrev fl (a : EReal) : EReal := Ideal.liftRound Int.floor a

section
variable (flo : SFlo.Idx → EReal)

/-- The row offset of pixel `(n, h, w)`. -/
def yv (n : Fin 8) (h : Fin 512) (w : Fin 1024) : EReal := flo (ix4 n (0 : Fin 2) h w)
/-- The column offset of pixel `(n, h, w)`. -/
def xv (n : Fin 8) (h : Fin 512) (w : Fin 1024) : EReal := flo (ix4 n (1 : Fin 2) h w)

/-- Corner `ci`'s first shift: `⌊x⌋` for corners 0 and 1, `⌊x⌋ + 1` for corners 2 and 3. -/
def sx (ci : Fin 4) (n : Fin 8) (h : Fin 512) (w : Fin 1024) : EReal :=
  match ci with
  | 0 => fl (xv flo n h w) | 1 => fl (xv flo n h w)
  | 2 => fl (xv flo n h w) + one | 3 => fl (xv flo n h w) + one
/-- Corner `ci`'s second shift: `⌊y⌋` for corners 0 and 2, `⌊y⌋ + 1` for corners 1 and 3. -/
def sy (ci : Fin 4) (n : Fin 8) (h : Fin 512) (w : Fin 1024) : EReal :=
  match ci with
  | 0 => fl (yv flo n h w) | 1 => fl (yv flo n h w) + one
  | 2 => fl (yv flo n h w) | 3 => fl (yv flo n h w) + one

/-- The Gaussian weight of corner `ci`: `exp (-((x - sx)² + (y - sy)²))`. -/
def wt (ci : Fin 4) (n : Fin 8) (h : Fin 512) (w : Fin 1024) : EReal :=
  Ideal.exp (-((xv flo n h w - sx flo ci n h w) * (xv flo n h w - sx flo ci n h w)
    + (yv flo n h w - sy flo ci n h w) * (yv flo n h w - sy flo ci n h w)))

/-- The target row word: the first shift as a 32-bit integer plus the pixel's row. -/
def rowW (ci : Fin 4) (n : Fin 8) (h : Fin 512) (w : Fin 1024) : BitVec 32 :=
  IntOp.addi (Ideal.fptosi 32 (sx flo ci n h w)) (BitVec.ofNat 32 h.val)
/-- The target column word: the second shift as a 32-bit integer plus the pixel's column. -/
def colW (ci : Fin 4) (n : Fin 8) (h : Fin 512) (w : Fin 1024) : BitVec 32 :=
  IntOp.addi (Ideal.fptosi 32 (sy flo ci n h w)) (BitVec.ofNat 32 w.val)

/-- The target is inside the image: `0 ≤ row < 512` and `0 ≤ column < 1024`, signed. -/
def inside (ci : Fin 4) (n : Fin 8) (h : Fin 512) (w : Fin 1024) : BitVec 1 :=
  IntOp.andi (IntOp.andi (IntOp.andi (IntOp.cmpi .sge (rowW flo ci n h w) 0#32) (IntOp.cmpi .slt (rowW flo ci n h w) 512#32))
    (IntOp.cmpi .sge (colW flo ci n h w) 0#32)) (IntOp.cmpi .slt (colW flo ci n h w) 1024#32)

/-- The weight a corner contributes: its Gaussian weight inside the image, zero outside. -/
def wv (ci : Fin 4) (n : Fin 8) (h : Fin 512) (w : Fin 1024) : EReal :=
  Scalar.select (inside flo ci n h w) (wt flo ci n h w) zero

/-- The flat target word: row and column clamped into the image, then `(n·512 + row)·1024 + column`. -/
def tid (ci : Fin 4) (n : Fin 8) (h : Fin 512) (w : Fin 1024) : BitVec 32 :=
  IntOp.addi
    (IntOp.muli (IntOp.addi (IntOp.muli (BitVec.ofNat 32 n.val) 512#32) (IntOp.minsi 511#32 (IntOp.maxsi 0#32 (rowW flo ci n h w)))) 1024#32)
    (IntOp.minsi 1023#32 (IntOp.maxsi 0#32 (colW flo ci n h w)))

/-- The contributed weights of corner `ci` as an array over the pixels. -/
def wvArr (ci : Fin 4) : SPix.Idx → EReal := fun q => wv flo ci (q 0) (q 1) (q 2)
/-- The flat target words of corner `ci` as an array over the pixels. -/
def tidArr (ci : Fin 4) : SPix.Idx → BitVec 32 := fun q => tid flo ci (q 0) (q 1) (q 2)

variable (img : SImg.Idx → EReal)

/-- What corner `ci` of pixel `(n, h, w)` adds to channel `c` of its target: the pixel's colour times the weight. -/
def cv (ci : Fin 4) (n : Fin 8) (c : Fin 3) (h : Fin 512) (w : Fin 1024) : EReal :=
  img (ix4 n c h w) * wv flo ci n h w
/-- The same as an array over pixels with the channel last. -/
def cvArr (ci : Fin 4) : SPixC.Idx → EReal := fun q => cv flo img ci (q 0) (q 3) (q 1) (q 2)

end

end Cert.Splat

end
-- ==== Proof.Targets.lean ====
/-
  What the three arrays written by the kernel's region hold, entry by entry.

  The region writes, for every pixel `(n, h, w)` and corner `ci`: the corner's masked weight, its flat target word,
  and the pixel's three colours times the weight.  The weights and words are arrays `[8, 4, 512, 1024]` with the
  corner on the second axis.  The weighted colours are an array `[8, 12, 512, 1024]` whose second axis is the
  corner-major, channel-minor pair: entry `3·ci + c` is channel `c` of corner `ci`.
-/
import proofs.«178573_j6485400617539_2_alg».proof.Proof.Spec

noncomputable section

namespace Cert.Splat

open Idealize.ShloMosaic Idealize.ShloMosaic.ValueIdx

/-- Corner-major, channel-minor: twelve entries. -/
abbrev SVals : Shape := ⟨4, ![8, 12, 512, 1024]⟩
/-- One entry per corner. -/
abbrev SCorn : Shape := ⟨4, ![8, 4, 512, 1024]⟩

/-- The corner of entry `ch` of the twelve. -/
def chCorner (ch : Fin 12) : Fin 4 := ⟨ch.val / 3, by have := ch.isLt; omega⟩
/-- The channel of entry `ch` of the twelve. -/
def chChan (ch : Fin 12) : Fin 3 := ⟨ch.val % 3, by omega⟩

/-- The weighted colours, as the region leaves them. -/
def valsArr (flo : SFlo.Idx → EReal) (img : SImg.Idx → EReal) : SVals.Idx → EReal :=
  fun p => cv flo img (chCorner (p 1)) (p 0) (chChan (p 1)) (p 2) (p 3)
/-- The masked weights, as the region leaves them. -/
def wtsArr (flo : SFlo.Idx → EReal) : SCorn.Idx → EReal := fun p => wv flo (p 1) (p 0) (p 2) (p 3)
/-- The flat target words, as the region leaves them. -/
def idsArr (flo : SFlo.Idx → EReal) : SCorn.Idx → BitVec 32 := fun p => tid flo (p 1) (p 0) (p 2) (p 3)

end Cert.Splat

end
-- ==== Proof.LibIdxSum.lean ====
/-
  Sums over the indices of a rank-3 or rank-4 array as iterated sums over the coordinates, and a sum over a
  reshaped array's indices as the sum over the original's: a reshape is a bijection of index sets.
-/
import Idealize.ShloMosaic.Lib.ValueIdx

noncomputable section

namespace Cert.LibIdxSum

open Idealize.ShloMosaic Idealize.ShloMosaic.ValueIdx
open scoped BigOperators

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over rank-3 indices is the triple sum over the coordinates. -/
theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-- A rank-4 index is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over rank-4 indices is the fourfold sum over the coordinates. -/
theorem sum_idx4 {A : Type*} [AddCommMonoid A] {n0 n1 n2 n3 : Nat} (f : (⟨4, ![n0, n1, n2, n3]⟩ : Shape).Idx → A) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl (fun a _ => ?_)
  rw [Fintype.sum_prod_type]
  refine Finset.sum_congr rfl (fun b _ => ?_)
  rw [Fintype.sum_prod_type]
  rfl

/-- Summing a function of the ORIGINAL index over a reshaped array's indices is summing it over the original's. -/
theorem sum_reshape {A : Type*} [AddCommMonoid A] {s t : Shape} (h : s.ShapeCasts t) (g : s.Idx → A) :
    ∑ q : t.Idx, g (Shape.reshapeEquiv h q) = ∑ p : s.Idx, g p :=
  Equiv.sum_comp (Shape.reshapeEquiv h) g

end Cert.LibIdxSum

end
-- ==== Proof.Sums.lean ====
/-
  The sums a scatter-add of the splat computes.

  Every corner of every pixel carries a flat target word.  Before it is used as an index the word is normalised the
  way a negative index is (a negative word has the array's length added).  The normaliser at flat position `T` is the
  sum, over all corners of all pixels whose normalised word is `T`, of the corner's weight; channel `c` of the
  warped image is the same sum of the weighted colours.  Summing corner by corner and adding the four partial sums is
  the same as summing over all corners at once: addition of extended reals is commutative and associative.
-/
import proofs.«178573_j6485400617539_2_alg».proof.Proof.Targets
import proofs.«178573_j6485400617539_2_alg».proof.Proof.LibIdxSum

noncomputable section

namespace Cert.Splat

open Idealize.ShloMosaic Idealize.ShloMosaic.ValueIdx Cert.LibIdxSum
open scoped BigOperators

/-- A flat target word made non-negative the way an index is: a negative word gets the array's length added. -/
def wrapWord (t : BitVec 32) : BitVec 32 := Scalar.select (IntOp.cmpi .slt t 0#32) (IntOp.addi t 4194304#32) t

/-- The sum over all pixels of `f` where the pixel's normalised word is `T`. -/
def psum (f : Fin 8 → Fin 512 → Fin 1024 → EReal) (g : Fin 8 → Fin 512 → Fin 1024 → BitVec 32) (T : ℕ) : EReal :=
  ∑ n : Fin 8, ∑ h : Fin 512, ∑ w : Fin 1024, if (wrapWord (g n h w)).toInt = (T : ℤ) then f n h w else 0

/-- A sum over pixel indices is the sum over the pixels' coordinates. -/
theorem sum_pix (f : Fin 8 → Fin 512 → Fin 1024 → EReal) (g : Fin 8 → Fin 512 → Fin 1024 → BitVec 32) (T : ℕ) :
    (∑ p : SPix.Idx, if (wrapWord (g (p 0) (p 1) (p 2))).toInt = (T : ℤ) then f (p 0) (p 1) (p 2) else 0) = psum f g T := by
  rw [sum_idx3]; rfl

/-- A sum over all corners of all pixels is the sum of the four corners' sums. -/
theorem sum_corners (f : Fin 4 → Fin 8 → Fin 512 → Fin 1024 → EReal) (g : Fin 4 → Fin 8 → Fin 512 → Fin 1024 → BitVec 32) (T : ℕ) :
    (∑ p : SCorn.Idx, if (wrapWord (g (p 1) (p 0) (p 2) (p 3))).toInt = (T : ℤ) then f (p 1) (p 0) (p 2) (p 3) else 0)
      = ((psum (f 0) (g 0) T + psum (f 1) (g 1) T) + psum (f 2) (g 2) T) + psum (f 3) (g 3) T := by
  rw [sum_idx4]
  have h : ∀ n : Fin 8, (∑ ci : Fin 4, ∑ h : Fin 512, ∑ w : Fin 1024,
        if (wrapWord (g ci n h w)).toInt = (T : ℤ) then f ci n h w else 0)
      = ∑ ci : Fin 4, ∑ h : Fin 512, ∑ w : Fin 1024, if (wrapWord (g ci n h w)).toInt = (T : ℤ) then f ci n h w else 0 := fun _ => rfl
  show (∑ n : Fin 8, ∑ ci : Fin 4, ∑ h : Fin 512, ∑ w : Fin 1024,
      if (wrapWord (g ci n h w)).toInt = (T : ℤ) then f ci n h w else 0) = _
  rw [Finset.sum_comm, Fin.sum_univ_four]
  rfl

/-- Four sums each started from zero, added, are the one sum started from zero. -/
theorem four_from_zero (a b c d : EReal) :
    (((zero + a) + (zero + b)) + (zero + c)) + (zero + d) = zero + (((a + b) + c) + d) := by
  unfold zero
  rw [Ideal.ofBits_zero_f32]
  simp only [zero_add]

end Cert.Splat

end
-- ==== Proof.LibScatterAdd.lean ====
/-
  An accumulating scatter along the leading axis, read at one entry of its result.

  The scatter indices form one column: update `j` carries the start word `idx[j, 0]`, read as a signed integer and
  not clamped.  Update `j` lands on operand entry `i` exactly when that integer is `i`; an update whose integer is
  outside the operand is dropped.  Over the extended reals the scatter's result at `i` is therefore the operand's
  entry plus the sum, over all updates, of the update's value where the start word is `i` and zero elsewhere.
  Two layouts: a flat operand (one value per update), and an operand with one trailing axis that every update
  carries whole (update `(j, c)` lands on `(i, c)`).
-/
import Idealize.ShloMosaic.PureOps.Ideal
import Idealize.ShloMosaic.PureOps.Ideal.Laws
import Idealize.ShloMosaic.Lib.ValueIdx

noncomputable section

namespace Cert.LibScatterAdd

open Idealize.ShloMosaic Idealize.ShloMosaic.ValueIdx
open scoped BigOperators

/-- A flat array of `n` entries. -/
abbrev SV (n : ℕ) : Shape := ⟨1, ![n]⟩
/-- A column of `n` start words. -/
abbrev SC (n : ℕ) : Shape := ⟨2, ![n, 1]⟩
/-- `n` rows of `c` entries. -/
abbrev SR (n c : ℕ) : Shape := ⟨2, ![n, c]⟩

theorem ix1_any {n : ℕ} (j : Fin n) (x : Fin 1) : ((ix1 j : (SV n).Idx) x).val = j.val := by
  match x with | ⟨0, _⟩ => rfl

theorem ix2_val0 {a b : ℕ} (j : Fin a) (c : Fin b) (x : Fin 2) (hx : x = 0) : ((ix2 j c : (SR a b).Idx) x).val = j.val := by
  subst hx; rfl
theorem ix2_val1 {a b : ℕ} (j : Fin a) (c : Fin b) (x : Fin 2) (hx : x = 1) : ((ix2 j c : (SR a b).Idx) x).val = c.val := by
  subst hx; rfl

/-! ## A flat operand -/

section Flat
variable {N M : ℕ} (wf : ScatterDims.WF (SV N) (SC M) (SV M) [] [0] [0] 1)

/-- The dimension numbers of `x.at[idx].add(u)` for flat `x`, `u` and a column of indices. -/
abbrev flat : ScatterDims (SV N) (SC M) (SV M) := ⟨[], [0], [0], 1, wf⟩

theorem flat_siIdx (j : Fin M) (c) : (flat wf).siIdx (ix1 j) c = ix2 j (0 : Fin 1) := by
  funext b
  match b with
  | ⟨0, _⟩ =>
    apply Fin.ext
    simp [ScatterDims.siIdx, ScatterDims.siCoord, ScatterDims.uScatter, ScatterDims.siKept, Shape.kept]
    exact ix1_any j _
  | ⟨1, _⟩ =>
    apply Fin.ext
    simp [ScatterDims.siIdx]

theorem flat_start (j : Fin M) (idx : IVec (SC M) 32) (a : Fin 1) :
    (flat wf).start (ix1 j) idx a = (idx (ix2 j (0 : Fin 1))).toInt := by
  match a with
  | ⟨0, _⟩ =>
    unfold ScatterDims.start
    simp [flat_siIdx]

theorem flat_window (j : Fin M) (a : Fin 1) : (flat wf).window (ix1 j) a = 0 := by
  match a with
  | ⟨0, _⟩ =>
    unfold ScatterDims.window
    simp [ScatterDims.sKept, Shape.kept]

/-- Update `j` lands on entry `i` exactly when its start word, read signed, is `i`. -/
theorem flat_lands (idx : IVec (SC M) 32) (j : Fin M) (i : Fin N) :
    (flat wf).resultIdx? (ix1 j) idx = some (ix1 i) ↔ (idx (ix2 j (0 : Fin 1))).toInt = (i.val : ℤ) := by
  unfold ScatterDims.resultIdx?
  simp only [flat_start, flat_window]
  constructor
  · intro h
    split at h
    · rename_i hh
      have h1 := congrArg (fun f : (SV N).Idx => (f 0).val) (Option.some.inj h)
      have h0 := hh 0
      simp only [Nat.cast_zero, add_zero] at h1 h0
      have h2 : ((idx (ix2 j (0 : Fin 1))).toInt).toNat = i.val := h1
      omega
    · cases h
  · intro h
    have hh : ∀ (a : Fin 1), 0 ≤ (idx (ix2 j (0 : Fin 1))).toInt + ((0 : ℕ) : ℤ)
        ∧ (idx (ix2 j (0 : Fin 1))).toInt + ((0 : ℕ) : ℤ) < ((![N] a : ℕ) : ℤ) := by
      intro a
      match a with
      | ⟨0, _⟩ =>
        have hi : (i.val : ℤ) < (N : ℤ) := by exact_mod_cast i.isLt
        constructor
        · rw [h]; simp
        · rw [h]; simpa using hi
    rw [dif_pos hh]
    congr 1
    funext a
    match a with
    | ⟨0, _⟩ =>
      apply Fin.ext
      show ((idx (ix2 j (0 : Fin 1))).toInt + ((0 : ℕ) : ℤ)).toNat = i.val
      rw [h]; simp

/-- The accumulating scatter into a flat operand, at entry `i`: the operand's entry plus every update whose start
    word is `i`. -/
theorem flat_apply (x : (SV N).Idx → EReal) (idx : IVec (SC M) 32) (upd : (SV M).Idx → EReal) (i : (SV N).Idx) :
    Ideal.hostScatterAdd (flat wf) x idx upd i
      = x i + ∑ q : (SV M).Idx, if (idx (ix2 (q 0) (0 : Fin 1))).toInt = ((i 0).val : ℤ) then upd q else 0 := by
  unfold Ideal.hostScatterAdd
  congr 1
  rw [Finset.sum_filter]
  refine Finset.sum_congr rfl (fun q _ => ?_)
  refine if_congr ?_ rfl rfl
  rw [eq_ix1 q, eq_ix1 i]
  exact flat_lands wf idx (q 0) (i 0)

end Flat

/-! ## An operand with one trailing axis, carried whole by every update -/

section Rows
variable {N M C : ℕ} (wf : ScatterDims.WF (SR N C) (SC M) (SR M C) [1] [0] [0] 1)

/-- The dimension numbers of `x.at[idx].add(u)` for `x : [N, C]`, `u : [M, C]` and a column of row indices. -/
abbrev rows : ScatterDims (SR N C) (SC M) (SR M C) := ⟨[1], [0], [0], 1, wf⟩

theorem rows_siIdx (j : Fin M) (c : Fin C) (k) : (rows wf).siIdx (ix2 j c) k = ix2 j (0 : Fin 1) := by
  funext b
  match b with
  | ⟨0, _⟩ =>
    apply Fin.ext
    simp [ScatterDims.siIdx, ScatterDims.siCoord, ScatterDims.uScatter, ScatterDims.siKept, Shape.kept]
    exact ix2_val0 j c _ (by rfl)
  | ⟨1, _⟩ =>
    apply Fin.ext
    simp [ScatterDims.siIdx]

theorem rows_start0 (j : Fin M) (c : Fin C) (idx : IVec (SC M) 32) :
    (rows wf).start (ix2 j c) idx (0 : Fin 2) = (idx (ix2 j (0 : Fin 1))).toInt := by
  unfold ScatterDims.start
  simp [rows_siIdx]

theorem rows_start1 (j : Fin M) (c : Fin C) (idx : IVec (SC M) 32) :
    (rows wf).start (ix2 j c) idx (1 : Fin 2) = 0 := by
  unfold ScatterDims.start
  simp

theorem rows_window0 (j : Fin M) (c : Fin C) : (rows wf).window (ix2 j c) (0 : Fin 2) = 0 := by
  unfold ScatterDims.window
  simp [ScatterDims.sKept, Shape.kept]

theorem rows_window1 (j : Fin M) (c : Fin C) : (rows wf).window (ix2 j c) (1 : Fin 2) = c.val := by
  unfold ScatterDims.window
  simp [ScatterDims.sKept, Shape.kept]
  exact ix2_val1 j c _ (by rfl)

/-- Update `(j, c)` lands on entry `(i, c')` exactly when its start word, read signed, is `i` and `c = c'`. -/
theorem rows_lands (idx : IVec (SC M) 32) (j : Fin M) (c : Fin C) (i : Fin N) (c' : Fin C) :
    (rows wf).resultIdx? (ix2 j c) idx = some (ix2 i c') ↔ ((idx (ix2 j (0 : Fin 1))).toInt = (i.val : ℤ) ∧ c = c') := by
  unfold ScatterDims.resultIdx?
  constructor
  · intro h
    split at h
    · rename_i hh
      have h0 := congrArg (fun f : (SR N C).Idx => (f 0).val) (Option.some.inj h)
      have h1 := congrArg (fun f : (SR N C).Idx => (f 1).val) (Option.some.inj h)
      have hb := hh 0
      simp only [rows_start0, rows_start1, rows_window0, rows_window1, Nat.cast_zero, add_zero, zero_add] at h0 h1 hb
      have h0' : ((idx (ix2 j (0 : Fin 1))).toInt).toNat = i.val := h0
      have h1' : ((c.val : ℤ)).toNat = c'.val := h1
      refine ⟨by omega, Fin.ext (by simpa using h1')⟩
    · cases h
  · rintro ⟨h, rfl⟩
    have hh : ∀ (a : Fin 2), 0 ≤ (rows wf).start (ix2 j c) idx a + (((rows wf).window (ix2 j c) a : ℕ) : ℤ)
        ∧ (rows wf).start (ix2 j c) idx a + (((rows wf).window (ix2 j c) a : ℕ) : ℤ) < (((SR N C).size a : ℕ) : ℤ) := by
      intro a
      match a with
      | ⟨0, _⟩ =>
        have hi : (i.val : ℤ) < (N : ℤ) := by exact_mod_cast i.isLt
        show 0 ≤ (rows wf).start (ix2 j c) idx (0 : Fin 2) + (((rows wf).window (ix2 j c) (0 : Fin 2) : ℕ) : ℤ)
          ∧ (rows wf).start (ix2 j c) idx (0 : Fin 2) + (((rows wf).window (ix2 j c) (0 : Fin 2) : ℕ) : ℤ) < ((N : ℕ) : ℤ)
        rw [rows_start0, rows_window0, h]
        constructor
        · simp
        · simpa using hi
      | ⟨1, _⟩ =>
        have hc : (c.val : ℤ) < (C : ℤ) := by exact_mod_cast c.isLt
        show 0 ≤ (rows wf).start (ix2 j c) idx (1 : Fin 2) + (((rows wf).window (ix2 j c) (1 : Fin 2) : ℕ) : ℤ)
          ∧ (rows wf).start (ix2 j c) idx (1 : Fin 2) + (((rows wf).window (ix2 j c) (1 : Fin 2) : ℕ) : ℤ) < ((C : ℕ) : ℤ)
        rw [rows_start1, rows_window1]
        constructor
        · simp
        · simpa using hc
    rw [dif_pos hh]
    congr 1
    funext a
    match a with
    | ⟨0, _⟩ =>
      apply Fin.ext
      show ((rows wf).start (ix2 j c) idx (0 : Fin 2) + (((rows wf).window (ix2 j c) (0 : Fin 2) : ℕ) : ℤ)).toNat = i.val
      rw [rows_start0, rows_window0, h]; simp
    | ⟨1, _⟩ =>
      apply Fin.ext
      show ((rows wf).start (ix2 j c) idx (1 : Fin 2) + (((rows wf).window (ix2 j c) (1 : Fin 2) : ℕ) : ℤ)).toNat = c.val
      rw [rows_start1, rows_window1]; simp

/-- The accumulating scatter into rows, at entry `p`: the operand's entry plus every update in `p`'s column whose
    start word is `p`'s row. -/
theorem rows_apply (x : (SR N C).Idx → EReal) (idx : IVec (SC M) 32) (upd : (SR M C).Idx → EReal) (p : (SR N C).Idx) :
    Ideal.hostScatterAdd (rows wf) x idx upd p
      = x p + ∑ q : (SR M C).Idx,
          if ((idx (ix2 (q 0) (0 : Fin 1))).toInt = ((p 0).val : ℤ) ∧ (q 1).val = (p 1).val) then upd q else 0 := by
  unfold Ideal.hostScatterAdd
  congr 1
  rw [Finset.sum_filter]
  refine Finset.sum_congr rfl (fun q _ => ?_)
  refine if_congr ?_ rfl rfl
  rw [eq_ix2 q, eq_ix2 p]
  exact (rows_lands wf idx (q 0) (q 1) (p 0) (p 1)).trans (and_congr Iff.rfl Fin.ext_iff)

end Rows

end Cert.LibScatterAdd

end
-- ==== Proof.LibNaryThree.lean ====
/-
  General facts about a line of host operations, for reading what it leaves in a buffer.

  * A host operation over a literal family of THREE operand buffers (a concatenation of three arrays), read at its
    result buffer, is the operation's function applied to the three operands' contents, each read AT ITS OWN
    BUFFER (the general statement reads operand `k` at the buffer `xs k`, under a binder).
  * The buffers' contents after two lines run one after the other are the second line's over the first line's.
  * Two or three arrays joined along an axis, with the operands as plain arguments: `concatenate` takes a list of
    shape–array pairs, and an array inside such a pair can only be rewritten when its type is literally the
    pair's; as a plain argument it can be rewritten like any other operand.
  * One simplification pass that evaluates a literal line of host operations at a literal buffer down to a term of
    the launch contents, two-array joins included; a three-array join is read by a lemma stated for the program's
    own operation over `cat3`, passed to the pass.
-/
import Idealize.ShloMosaic.Lib.StableHlo.Run

namespace Cert.Lib

open Idealize.ShloMosaic Idealize.ShloMosaic.StableHlo Idealize.SL.Sem

variable {τ : Topo} {sig : RefSig} {Val : EltTy → Type}

/-- A three-operand host operation's result, read at its result buffer, is its function of the three operands'
    contents, each read at its own buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a simplification pass. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Two lines of host operations run one after the other: the second line's results over the first line's. -/
theorem after_append (l₁ l₂ : List (HloOp τ sig Val)) (V : Valuation τ sig Val) :
    after (l₁ ++ l₂) V = after l₂ (after l₁ V) := by
  induction l₁ generalizing V with
  | nil => rfl
  | cons op l ih => exact ih _

/-- Two arrays joined along an axis, the operands as plain arguments (the library's `concatenate` takes a list of
    shape–array pairs, whose second components no rewriting pass can enter once their types are only definitionally
    the stated ones). -/
def cat2 {α : Type} (S : Shape) (d : Fin S.rank) (S1 S2 : Shape) (h : Shape.Concatenates [S1, S2] S d)
    (a : S1.Idx → α) (b : S2.Idx → α) : S.Idx → α := concatenate S d [⟨S1, a⟩, ⟨S2, b⟩] h

theorem cat2_eq {α : Type} (S : Shape) (d : Fin S.rank) (S1 S2 : Shape) (h : Shape.Concatenates [S1, S2] S d)
    (a : S1.Idx → α) (b : S2.Idx → α) : concatenate S d [⟨S1, a⟩, ⟨S2, b⟩] h = cat2 S d S1 S2 h a b := rfl

/-- Three arrays joined along an axis, the operands as plain arguments. -/
def cat3 {α : Type} (S : Shape) (d : Fin S.rank) (S1 S2 S3 : Shape) (h : Shape.Concatenates [S1, S2, S3] S d)
    (a : S1.Idx → α) (b : S2.Idx → α) (c : S3.Idx → α) : S.Idx → α := concatenate S d [⟨S1, a⟩, ⟨S2, b⟩, ⟨S3, c⟩] h

/-- Evaluates `after ops V b` for a literal line `ops` and a literal buffer `b` in one simplification pass. -/
macro "eval_after" "[" extra:Lean.Parser.Tactic.simpLemma,* "]" : tactic =>
  `(tactic| (simp (disch := decide) only [$extra,*, after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne', Cert.Lib.cat2_eq]))

end Cert.Lib
-- ==== Proof.KernelTail.lean ====
/-
  The host operations after the kernel's region, read at one entry of each result.

  The region leaves three arrays: the weighted colours `VALS : [8,12,512,1024]`, the masked weights
  `WTS : [8,4,512,1024]` and the flat target words `IDS : [8,4,512,1024]`.  The host flattens the words and the
  weights to `16777216` entries, normalises the words as indices, and scatter-adds the weights into `4194304` zeros;
  the normaliser result at `(n, c, h, w)` is that array at the flat position `(n·512 + h)·1024 + w`.  So it is zero
  plus the sum, over the entries `p` of `[8,4,512,1024]` whose normalised word is that position, of `WTS p`: a
  flattening is a bijection of index sets.
-/
import proofs.«178573_j6485400617539_2_alg».proof.Proof.KernelIdealFrame
import proofs.«178573_j6485400617539_2_alg».proof.Proof.Sums
import proofs.«178573_j6485400617539_2_alg».proof.Proof.LibScatterAdd
import Idealize.ShloMosaic.Lib.Pipeline.Value
import Idealize.ShloMosaic.Lib.StableHlo.Run
import proofs.«178573_j6485400617539_2_alg».proof.Proof.LibNaryThree

set_option maxRecDepth 16384

noncomputable section

namespace Cert.KernelTail

open Cert.KernelIdeal Cert.KernelIdeal.Facts₀ Cert.Splat Cert.LibIdxSum
open Idealize.ShloMosaic Idealize.ShloMosaic.ValueIdx
open scoped BigOperators

/-- The flat position of pixel `(n, h, w)`. -/
def flatT (n : Fin 8) (h : Fin 512) (w : Fin 1024) : Fin 4194304 :=
  ⟨(n.val * 512 + h.val) * 1024 + w.val, by have := n.isLt; have := h.isLt; have := w.isLt; omega⟩

/-- The flat words, normalised as indices, as a column. -/
def normIdx (IDS : S8x4x512x1024.Idx → BitVec 32) : IVec S16777216x1 32 :=
  broadcastInDim S16777216x1 ![0] bcast_S16777216_S16777216x1_0
    (select
      (cmpi .slt (shapeCast S16777216 IDS shapeCasts_S8x4x512x1024_S16777216)
        (broadcastInDim S16777216 ![] bcast_S_S16777216 (constantI S_ 32 0#32)))
      (addi (shapeCast S16777216 IDS shapeCasts_S8x4x512x1024_S16777216)
        (broadcastInDim S16777216 ![] bcast_S_S16777216 (constantI S_ 32 4194304#32)))
      (shapeCast S16777216 IDS shapeCasts_S8x4x512x1024_S16777216))

/-- The scatter-add of flat updates `U` at the normalised words into zeros. -/
def scat (IDS : S8x4x512x1024.Idx → BitVec 32) (U : S16777216.Idx → EReal) : S4194304.Idx → EReal :=
  Host.scatterAdd (F := Ideal) (φ := .f32) scatter_S4194304_S16777216x1_S16777216_n_0_0_1
    (broadcastInDim S4194304 ![] bcast_S_S4194304 (constant (F := Ideal) S_ .f32 0x00000000#32)) (normIdx IDS) U

/-- The normalised column at row `j` is the normalised word of the entry that flat position `j` names. -/
theorem normIdx_at (IDS : S8x4x512x1024.Idx → BitVec 32) (j : Fin 16777216) :
    normIdx IDS (ix2 j (0 : Fin 1))
      = wrapWord (IDS (Shape.reshapeEquiv shapeCasts_S8x4x512x1024_S16777216 (ix1 j))) := by
  unfold normIdx
  rw [broadcastInDim_apply ![0] bcast_S16777216_S16777216x1_0 _ (ix2 j (0 : Fin 1)) (ix1 j) (fun a => by
    match a with
    | ⟨0, _⟩ => show j.val = if (16777216 : ℕ) = 1 then 0 else j.val; rw [if_neg (by decide)])]
  rfl

/-- At the extended reals the host's accumulating scatter is the exact sum. -/
theorem scatterAdd_ideal {s si u : Shape} {w : Nat} (d : ScatterDims s si u) (x : s.Idx → EReal) (idx : IVec si w) (upd : u.Idx → EReal) :
    Host.scatterAdd (F := Ideal) (φ := .f32) d x idx upd = Ideal.hostScatterAdd d x idx upd := rfl

/-- The program's dimension numbers are those of a flat scatter along the leading axis. -/
theorem dims_flat : scatter_S4194304_S16777216x1_S16777216_n_0_0_1
    = Cert.LibScatterAdd.flat (N := 4194304) (M := 16777216) scatter_S4194304_S16777216x1_S16777216_n_0_0_1_wf := rfl

/-- The scatter at flat position `T`: zero plus the updates whose normalised word is `T`. -/
theorem scat_apply (IDS : S8x4x512x1024.Idx → BitVec 32) (U : S16777216.Idx → EReal) (T : Fin 4194304) :
    scat IDS U (ix1 T) = zero + ∑ q : S16777216.Idx,
      if (wrapWord (IDS (Shape.reshapeEquiv shapeCasts_S8x4x512x1024_S16777216 q))).toInt = (T.val : ℤ) then U q else 0 := by
  unfold scat
  rw [scatterAdd_ideal, dims_flat]
  refine (Cert.LibScatterAdd.flat_apply (N := 4194304) (M := 16777216) scatter_S4194304_S16777216x1_S16777216_n_0_0_1_wf
    _ (normIdx IDS) U (ix1 T)).trans ?_
  refine congrArg (fun s : EReal => zero + s) ?_
  refine Finset.sum_congr rfl (fun q _ => ?_)
  obtain ⟨j, rfl⟩ : ∃ j : Fin 16777216, q = ix1 j := ⟨q 0, eq_ix1 q⟩
  show (if (normIdx IDS (ix2 j (0 : Fin 1))).toInt = _ then _ else _) = _
  rw [normIdx_at IDS j]

/-- With the updates a flattened array `W`, the sum runs over `W`'s own entries. -/
theorem scat_flat_apply (IDS : S8x4x512x1024.Idx → BitVec 32) (W : S8x4x512x1024.Idx → EReal) (T : Fin 4194304) :
    scat IDS (shapeCast S16777216 W shapeCasts_S8x4x512x1024_S16777216) (ix1 T)
      = zero + ∑ p : S8x4x512x1024.Idx, if (wrapWord (IDS p)).toInt = (T.val : ℤ) then W p else 0 := by
  rw [scat_apply]
  refine congrArg (fun s : EReal => zero + s) ?_
  exact sum_reshape shapeCasts_S8x4x512x1024_S16777216 (fun p => if (wrapWord (IDS p)).toInt = (T.val : ℤ) then W p else 0)

/-- The normaliser result as a function of the two arrays. -/
def oTerm (WTS : S8x4x512x1024.Idx → EReal) (IDS : S8x4x512x1024.Idx → BitVec 32) : S8x3x512x1024.Idx → EReal :=
  broadcastInDim S8x3x512x1024 ![0, 1, 2, 3] bcast_S8x1x512x1024_S8x3x512x1024_0_1_2_3
    (shapeCast S8x1x512x1024 (scat IDS (shapeCast S16777216 WTS shapeCasts_S8x4x512x1024_S16777216)) shapeCasts_S4194304_S8x1x512x1024)

/-- The normaliser result at `(n, c, h, w)` is the scatter at the pixel's flat position. -/
theorem oTerm_apply (WTS : S8x4x512x1024.Idx → EReal) (IDS : S8x4x512x1024.Idx → BitVec 32)
    (n : Fin 8) (c : Fin 3) (h : Fin 512) (w : Fin 1024) :
    oTerm WTS IDS (ix4 n c h w)
      = zero + ∑ p : S8x4x512x1024.Idx, if (wrapWord (IDS p)).toInt = ((flatT n h w).val : ℤ) then WTS p else 0 := by
  unfold oTerm
  rw [broadcastInDim_apply ![0, 1, 2, 3] bcast_S8x1x512x1024_S8x3x512x1024_0_1_2_3 _ (ix4 n c h w) (ix4 n (0 : Fin 1) h w) (fun a => by
    match a with
    | ⟨0, _⟩ => show n.val = if (8 : ℕ) = 1 then 0 else n.val; rw [if_neg (by decide)]
    | ⟨1, _⟩ => show (0 : ℕ) = if (1 : ℕ) = 1 then 0 else c.val; rw [if_pos rfl]
    | ⟨2, _⟩ => show h.val = if (512 : ℕ) = 1 then 0 else h.val; rw [if_neg (by decide)]
    | ⟨3, _⟩ => show w.val = if (1024 : ℕ) = 1 then 0 else w.val; rw [if_neg (by decide)])]
  rw [shapeCast_apply _ shapeCasts_S4194304_S8x1x512x1024 (ix4 n (0 : Fin 1) h w) (ix1 (flatT n h w)) (by
    rw [Shape.rowMajor_val_one, Shape.rowMajor_val_four]
    show (n.val * 512 + h.val) * 1024 + w.val = ((n.val * 1 + 0) * 512 + h.val) * 1024 + w.val
    omega)]
  exact scat_flat_apply IDS WTS (flatT n h w)

end Cert.KernelTail

end
-- ==== Proof.KernelTailColour.lean ====
/-
  The warped image's three channel planes, read at one entry: each is the scatter, at the same normalised words, of one
  channel of the weighted colours.
-/
import proofs.«178573_j6485400617539_2_alg».proof.Proof.KernelTail

set_option maxRecDepth 16384

noncomputable section

namespace Cert.KernelTail

open Cert.KernelIdeal Cert.KernelIdeal.Facts₀ Cert.Splat Cert.LibIdxSum
open Idealize.ShloMosaic Idealize.ShloMosaic.ValueIdx
open scoped BigOperators

/-! ## The warped image: one scatter per channel

  The weighted colours `[8,12,512,1024]` are viewed `[8,4,3,512,1024]` (corner, then channel); channel `c` of every
  corner is sliced out, flattened and scatter-added at the same normalised words.  Entry `(n, ci, h, w)` of the slice
  is entry `(n, 3·ci + c, h, w)` of the colours. -/

/-- Channel `c` of every corner. -/
def chanOf (VALS : S8x12x512x1024.Idx → EReal) (c : Fin 3) : S8x4x512x1024.Idx → EReal := fun p =>
  VALS (ix4 (p 0) (⟨3 * (p 1).val + c.val, by
    have h1 : (p 1).val < 4 := (p 1).isLt
    have h2 := c.isLt
    omega⟩ : Fin 12) (p 2) (p 3))

/-- The slice of channel `c`, with its unit axis dropped, is `chanOf`. -/
theorem chan_eq (VALS : S8x12x512x1024.Idx → EReal) (c : Fin 3)
    (hs : S8x4x3x512x1024.Slices ![0, 0, c.val, 0, 0] S8x4x1x512x1024) :
    shapeCast S8x4x512x1024
        (extractStridedSlice S8x4x1x512x1024 ![0, 0, c.val, 0, 0]
          (shapeCast S8x4x3x512x1024 VALS shapeCasts_S8x12x512x1024_S8x4x3x512x1024) hs)
        shapeCasts_S8x4x1x512x1024_S8x4x512x1024
      = chanOf VALS c := by
  funext p
  obtain ⟨n, ci, h, w, rfl⟩ : ∃ (n : Fin 8) (ci : Fin 4) (h : Fin 512) (w : Fin 1024), p = ix4 n ci h w :=
    ⟨p 0, p 1, p 2, p 3, eq_ix4 p⟩
  have hn := n.isLt; have hci := ci.isLt; have hh := h.isLt; have hw := w.isLt; have hc := c.isLt
  rw [shapeCast_apply _ shapeCasts_S8x4x1x512x1024_S8x4x512x1024 (ix4 n ci h w) (ix5 n ci (0 : Fin 1) h w) (by
    rw [Shape.rowMajor_val_five, Shape.rowMajor_val_four]
    show (((n.val * 4 + ci.val) * 1 + 0) * 512 + h.val) * 1024 + w.val = ((n.val * 4 + ci.val) * 512 + h.val) * 1024 + w.val
    omega)]
  rw [extractStridedSlice_apply ![0, 0, c.val, 0, 0] _ hs (ix5 n ci (0 : Fin 1) h w) (ix5 n ci c h w) (fun a => by
    match a with
    | ⟨0, _⟩ => show n.val = 0 + n.val; omega
    | ⟨1, _⟩ => show ci.val = 0 + ci.val; omega
    | ⟨2, _⟩ => show c.val = c.val + 0; omega
    | ⟨3, _⟩ => show h.val = 0 + h.val; omega
    | ⟨4, _⟩ => show w.val = 0 + w.val; omega)]
  rw [shapeCast_apply VALS shapeCasts_S8x12x512x1024_S8x4x3x512x1024 (ix5 n ci c h w)
    (ix4 n (⟨3 * ci.val + c.val, by omega⟩ : Fin 12) h w) (by
    rw [Shape.rowMajor_val_four, Shape.rowMajor_val_five]
    show ((n.val * 12 + (3 * ci.val + c.val)) * 512 + h.val) * 1024 + w.val
      = ((((n.val * 4 + ci.val) * 3 + c.val) * 512 + h.val) * 1024 + w.val)
    omega)]
  rfl

/-- One channel's plane of the warped image: the scatter of flat updates `U`, viewed `[8,512,1024]`, with a unit
    channel axis. -/
def cPlaneOf (IDS : S8x4x512x1024.Idx → BitVec 32) (U : S16777216.Idx → EReal) : S8x1x512x1024.Idx → EReal :=
  broadcastInDim S8x1x512x1024 ![0, 2, 3] bcast_S8x512x1024_S8x1x512x1024_0_2_3
    (shapeCast S8x512x1024 (scat IDS U) shapeCasts_S4194304_S8x512x1024)

theorem cPlaneOf_apply (IDS : S8x4x512x1024.Idx → BitVec 32) (W : S8x4x512x1024.Idx → EReal)
    (n : Fin 8) (u : Fin 1) (h : Fin 512) (w : Fin 1024) :
    cPlaneOf IDS (shapeCast S16777216 W shapeCasts_S8x4x512x1024_S16777216) (ix4 n u h w)
      = zero + ∑ p : S8x4x512x1024.Idx, if (wrapWord (IDS p)).toInt = ((flatT n h w).val : ℤ) then W p else 0 := by
  unfold cPlaneOf
  rw [broadcastInDim_apply ![0, 2, 3] bcast_S8x512x1024_S8x1x512x1024_0_2_3 _ (ix4 n u h w) (ix3 n h w) (fun a => by
    match a with
    | ⟨0, _⟩ => show n.val = if (8 : ℕ) = 1 then 0 else n.val; rw [if_neg (by decide)]
    | ⟨1, _⟩ => show h.val = if (512 : ℕ) = 1 then 0 else h.val; rw [if_neg (by decide)]
    | ⟨2, _⟩ => show w.val = if (1024 : ℕ) = 1 then 0 else w.val; rw [if_neg (by decide)])]
  rw [shapeCast_apply _ shapeCasts_S4194304_S8x512x1024 (ix3 n h w) (ix1 (flatT n h w)) (by
    rw [Shape.rowMajor_val_one, Shape.rowMajor_val_three]
    rfl)]
  exact scat_flat_apply IDS W (flatT n h w)

/-- The flat updates of channel `c`. -/
def chanFlat (VALS : S8x12x512x1024.Idx → EReal) (c : Fin 3)
    (hs : S8x4x3x512x1024.Slices ![0, 0, c.val, 0, 0] S8x4x1x512x1024) : S16777216.Idx → EReal :=
  shapeCast S16777216
    (shapeCast S8x4x512x1024
      (extractStridedSlice S8x4x1x512x1024 ![0, 0, c.val, 0, 0]
        (shapeCast S8x4x3x512x1024 VALS shapeCasts_S8x12x512x1024_S8x4x3x512x1024) hs)
      shapeCasts_S8x4x1x512x1024_S8x4x512x1024)
    shapeCasts_S8x4x512x1024_S16777216

theorem chanFlat_eq (VALS : S8x12x512x1024.Idx → EReal) (c : Fin 3)
    (hs : S8x4x3x512x1024.Slices ![0, 0, c.val, 0, 0] S8x4x1x512x1024) :
    chanFlat VALS c hs = shapeCast S16777216 (chanOf VALS c) shapeCasts_S8x4x512x1024_S16777216 := by
  unfold chanFlat; rw [chan_eq]

/-- The warped image as a function of the two arrays: the three channel planes joined along the channel axis. -/
def cTerm (VALS : S8x12x512x1024.Idx → EReal) (IDS : S8x4x512x1024.Idx → BitVec 32) : S8x3x512x1024.Idx → EReal :=
  Cert.Lib.cat3 S8x3x512x1024 1 S8x1x512x1024 S8x1x512x1024 S8x1x512x1024
    concatenates_S8x1x512x1024_S8x1x512x1024_S8x1x512x1024_S8x3x512x1024_d1
    (cPlaneOf IDS (chanFlat VALS 0 slices_S8x4x3x512x1024_S8x4x1x512x1024_0_0_0_0_0))
    (cPlaneOf IDS (chanFlat VALS 1 slices_S8x4x3x512x1024_S8x4x1x512x1024_0_0_1_0_0))
    (cPlaneOf IDS (chanFlat VALS 2 slices_S8x4x3x512x1024_S8x4x1x512x1024_0_0_2_0_0))

/-- Three planes joined along the channel axis, read at channel 0, 1 or 2: the first, second or third plane. -/
theorem planes_at0 (A B C : S8x1x512x1024.Idx → EReal) (n : Fin 8) (h : Fin 512) (w : Fin 1024) :
    Cert.Lib.cat3 S8x3x512x1024 1 S8x1x512x1024 S8x1x512x1024 S8x1x512x1024
      concatenates_S8x1x512x1024_S8x1x512x1024_S8x1x512x1024_S8x3x512x1024_d1 A B C (ix4 n (0 : Fin 3) h w)
      = A (ix4 n (0 : Fin 1) h w) := by
  unfold Cert.Lib.cat3
  exact concatenate_apply_piece (t := S8x3x512x1024) (1 : Fin 4) [⟨S8x1x512x1024, A⟩, ⟨S8x1x512x1024, B⟩, ⟨S8x1x512x1024, C⟩]
    (show Shape.Concatenates [S8x1x512x1024, S8x1x512x1024, S8x1x512x1024] S8x3x512x1024 1 from
      concatenates_S8x1x512x1024_S8x1x512x1024_S8x1x512x1024_S8x3x512x1024_d1)
    (ix4 n (0 : Fin 3) h w) 0 (by show (0 : ℕ) < 3; omega) S8x1x512x1024 A rfl rfl 0 (by rfl) (ix4 n (0 : Fin 1) h w)
    (fun b hb => by
      match b with
      | ⟨0, _⟩ => rfl
      | ⟨1, _⟩ => exact absurd rfl hb
      | ⟨2, _⟩ => rfl
      | ⟨3, _⟩ => rfl) (by rfl)
theorem planes_at1 (A B C : S8x1x512x1024.Idx → EReal) (n : Fin 8) (h : Fin 512) (w : Fin 1024) :
    Cert.Lib.cat3 S8x3x512x1024 1 S8x1x512x1024 S8x1x512x1024 S8x1x512x1024
      concatenates_S8x1x512x1024_S8x1x512x1024_S8x1x512x1024_S8x3x512x1024_d1 A B C (ix4 n (1 : Fin 3) h w)
      = B (ix4 n (0 : Fin 1) h w) := by
  unfold Cert.Lib.cat3
  exact concatenate_apply_piece (t := S8x3x512x1024) (1 : Fin 4) [⟨S8x1x512x1024, A⟩, ⟨S8x1x512x1024, B⟩, ⟨S8x1x512x1024, C⟩]
    (show Shape.Concatenates [S8x1x512x1024, S8x1x512x1024, S8x1x512x1024] S8x3x512x1024 1 from
      concatenates_S8x1x512x1024_S8x1x512x1024_S8x1x512x1024_S8x3x512x1024_d1)
    (ix4 n (1 : Fin 3) h w) 1 (by show (1 : ℕ) < 3; omega) S8x1x512x1024 B rfl rfl 1 (by rfl) (ix4 n (0 : Fin 1) h w)
    (fun b hb => by
      match b with
      | ⟨0, _⟩ => rfl
      | ⟨1, _⟩ => exact absurd rfl hb
      | ⟨2, _⟩ => rfl
      | ⟨3, _⟩ => rfl) (by rfl)
theorem planes_at2 (A B C : S8x1x512x1024.Idx → EReal) (n : Fin 8) (h : Fin 512) (w : Fin 1024) :
    Cert.Lib.cat3 S8x3x512x1024 1 S8x1x512x1024 S8x1x512x1024 S8x1x512x1024
      concatenates_S8x1x512x1024_S8x1x512x1024_S8x1x512x1024_S8x3x512x1024_d1 A B C (ix4 n (2 : Fin 3) h w)
      = C (ix4 n (0 : Fin 1) h w) := by
  unfold Cert.Lib.cat3
  exact concatenate_apply_piece (t := S8x3x512x1024) (1 : Fin 4) [⟨S8x1x512x1024, A⟩, ⟨S8x1x512x1024, B⟩, ⟨S8x1x512x1024, C⟩]
    (show Shape.Concatenates [S8x1x512x1024, S8x1x512x1024, S8x1x512x1024] S8x3x512x1024 1 from
      concatenates_S8x1x512x1024_S8x1x512x1024_S8x1x512x1024_S8x3x512x1024_d1)
    (ix4 n (2 : Fin 3) h w) 2 (by show (2 : ℕ) < 3; omega) S8x1x512x1024 C rfl rfl 2 (by rfl) (ix4 n (0 : Fin 1) h w)
    (fun b hb => by
      match b with
      | ⟨0, _⟩ => rfl
      | ⟨1, _⟩ => exact absurd rfl hb
      | ⟨2, _⟩ => rfl
      | ⟨3, _⟩ => rfl) (by rfl)

/-- The warped image at `(n, c, h, w)`: zero plus the colours of channel `c` whose normalised word is the pixel's
    flat position. -/
theorem cTerm_apply (VALS : S8x12x512x1024.Idx → EReal) (IDS : S8x4x512x1024.Idx → BitVec 32)
    (n : Fin 8) (c : Fin 3) (h : Fin 512) (w : Fin 1024) :
    cTerm VALS IDS (ix4 n c h w)
      = zero + ∑ p : S8x4x512x1024.Idx, if (wrapWord (IDS p)).toInt = ((flatT n h w).val : ℤ) then chanOf VALS c p else 0 := by
  unfold cTerm
  match c with
  | ⟨0, _⟩ =>
    refine (planes_at0 _ _ _ n h w).trans ?_
    rw [chanFlat_eq]; exact cPlaneOf_apply IDS (chanOf VALS 0) n 0 h w
  | ⟨1, _⟩ =>
    refine (planes_at1 _ _ _ n h w).trans ?_
    rw [chanFlat_eq]; exact cPlaneOf_apply IDS (chanOf VALS 1) n 0 h w
  | ⟨2, _⟩ =>
    refine (planes_at2 _ _ _ n h w).trans ?_
    rw [chanFlat_eq]; exact cPlaneOf_apply IDS (chanOf VALS 2) n 0 h w

end Cert.KernelTail

end
-- ==== Proof.KernelTailRun.lean ====
/-
  The two results after the host lines that follow the region, as functions of the three arrays the region leaves.
-/
import proofs.«178573_j6485400617539_2_alg».proof.Proof.KernelTailColour

set_option maxRecDepth 16384

noncomputable section

namespace Cert.KernelTail

open Cert.KernelIdeal Cert.KernelIdeal.Facts₀ Cert.Splat Cert.LibIdxSum
open Idealize.ShloMosaic Idealize.ShloMosaic.ValueIdx
open scoped BigOperators

/-! ## The two results after the run, from the three arrays the region leaves -/

section Results
open Cert.KernelIdeal.Gen Cert.KernelIdeal.Fr Idealize.ShloMosaic.StableHlo Idealize.SL.Sem Idealize.ShloMosaic.TcCoe

variable (m : (ℓ : Loc nD τ sig) → Buf (Elt Ideal) ℓ)

/-- The buffers as the region leaves them: its five arrays at what the run computed, every other buffer as launched. -/
abbrev afterRegion (c : Dev nD) : Valuation τ sig (Elt Ideal) :=
  Pipeline.withArrays (cfgs 0).spec c (V0 m c) (fun w => (dats m 0 c).arrAt w (cfgs 0).N)

theorem region_vals (c : Dev nD) : afterRegion m c (Proc.devRef .tc main_v0_0) = (dats m 0 c).arrAt 2 cfg0.N :=
  Pipeline.withArrays_arr spec0 launch0.win.arr_inj c _ _ 2
theorem region_wts (c : Dev nD) : afterRegion m c (Proc.devRef .tc main_v0_1) = (dats m 0 c).arrAt 3 cfg0.N :=
  Pipeline.withArrays_arr spec0 launch0.win.arr_inj c _ _ 3
theorem region_ids (c : Dev nD) : afterRegion m c (Proc.devRef .tc main_v0_2) = (dats m 0 c).arrAt 4 cfg0.N :=
  Pipeline.withArrays_arr spec0 launch0.win.arr_inj c _ _ 4

set_option maxHeartbeats 4000000 in
/-- The normaliser result. -/
theorem res_o (c : Dev nD) :
    Pipeline.afterTail₀ cfgs (dats m) 0 (V0 m) [hostOps1] c main_v53
      = oTerm ((dats m 0 c).arrAt 3 cfg0.N) ((dats m 0 c).arrAt 4 cfg0.N) := by
  unfold Pipeline.afterTail₀
  show StableHlo.after hostOps1 (afterRegion m c) (Proc.devRef .tc main_v53) = _
  after_results
  rw [region_wts, region_ids]
  rfl

/-- The host lines after the region: the first fifty-nine, then the last six. -/
theorem tail_split : (hostOps1 : List (HloOp τ sig (Elt Ideal))) = main_part0_ops0 ++ main_part1_ops0 := rfl

set_option maxHeartbeats 4000000 in
/-- The warped image. -/
theorem res_c (c : Dev nD) :
    Pipeline.afterTail₀ cfgs (dats m) 0 (V0 m) [hostOps1] c main_v51
      = cTerm ((dats m 0 c).arrAt 2 cfg0.N) ((dats m 0 c).arrAt 4 cfg0.N) := by
  unfold Pipeline.afterTail₀
  show StableHlo.after hostOps1 (afterRegion m c) (Proc.devRef .tc main_v51) = _
  rw [tail_split, Cert.Lib.after_append]
  have hcat : ∀ (G : Valuation τ sig (Elt Ideal)) hxs hy,
      (StableHlo.nary (τ := τ) ![main_v48, main_v49, main_v50] main_v51
          (fun u => concatenate S8x3x512x1024 1 [⟨S8x1x512x1024, u 0⟩, ⟨S8x1x512x1024, u 1⟩, ⟨S8x1x512x1024, u 2⟩]
            Facts₀.concatenates_S8x1x512x1024_S8x1x512x1024_S8x1x512x1024_S8x3x512x1024_d1) hxs hy).result G (no_index (Proc.devRef .tc main_v51))
        = Cert.Lib.cat3 S8x3x512x1024 1 S8x1x512x1024 S8x1x512x1024 S8x1x512x1024
            Facts₀.concatenates_S8x1x512x1024_S8x1x512x1024_S8x1x512x1024_S8x3x512x1024_d1
            (G (Proc.devRef .tc main_v48)) (G (Proc.devRef .tc main_v49)) (G (Proc.devRef .tc main_v50)) :=
    fun G hxs hy => Cert.Lib.nary3_result' _ hxs hy G
  eval_after [hcat]
  rw [region_vals, region_ids]
  rfl

end Results

end Cert.KernelTail

end
-- ==== Proof.KernelPoint.lean ====
/-
  The kernel body's arithmetic at one pixel of a block.

  A grid point is a batch entry `n` and a strip of 128 rows `ht`.  The body sees the two offset planes of the strip,
  `Y[r, w]` and `X[r, w]`, and the strip's colours.  Pixel `(r, w)` of the strip is pixel `(n, ht·128 + r, w)` of the
  image, and every quantity the body computes there is the specification's at that pixel: the two floors, the four
  Gaussian weights, the row and column words (the lane and sublane counters plus the strip's first row), and for each
  corner the masked weight, the flat target word and the weighted colours.
-/
import proofs.«178573_j6485400617539_2_alg».proof.Proof.Gen.KernelIdeal.Skeleton
import proofs.«178573_j6485400617539_2_alg».proof.Proof.Spec
import Idealize.ShloMosaic.Lib.Pipeline.Value
import Idealize.ShloMosaic.Lib.ValueLayout

noncomputable section

namespace Cert.KernelPoint

open Idealize.ShloMosaic Idealize.ShloMosaic.ValueIdx Cert.KernelIdeal Cert.KernelIdeal.Gen Cert.Splat

/-- Row `r` of strip `ht` is row `ht·128 + r` of the image. -/
def row (ht : Fin 4) (r : Fin 128) : Fin 512 := ⟨ht.val * 128 + r.val, by have := ht.isLt; have := r.isLt; omega⟩

/-! ## Layouts of one strip -/

/-- A `[1,1,128,1024]` plane viewed `[128,1024]`. -/
theorem plane_drop {α : Type} (v : S1x1x128x1024.Idx → α) (h : S1x1x128x1024.ShapeCasts S128x1024) (r : Fin 128) (w : Fin 1024) :
    shapeCast S128x1024 v h (ix2 r w) = v (ix4 (0 : Fin 1) (0 : Fin 1) r w) :=
  shapeCast_apply v h _ _ (by
    rw [Shape.rowMajor_val_four, Shape.rowMajor_val_two]
    show ((0 * 1 + 0) * 128 + r.val) * 1024 + w.val = r.val * 1024 + w.val
    simp only [Nat.zero_mul, Nat.zero_add])

/-- A `[128,1024]` plane stored as `[1,1,128,1024]`. -/
theorem plane_add {α : Type} (v : S128x1024.Idx → α) (h : S128x1024.ShapeCasts S1x1x128x1024) (a b : Fin 1) (r : Fin 128) (w : Fin 1024) :
    shapeCast S1x1x128x1024 v h (ix4 a b r w) = v (ix2 r w) :=
  shapeCast_apply v h _ _ (by
    have ha : a.val = 0 := by omega
    have hb : b.val = 0 := by omega
    rw [Shape.rowMajor_val_four, Shape.rowMajor_val_two]
    show r.val * 1024 + w.val = ((a.val * 1 + b.val) * 128 + r.val) * 1024 + w.val
    rw [ha, hb]; simp only [Nat.zero_mul, Nat.zero_add])

/-! ## Words -/

/-- The sublane counter plus the strip's first row is the image row. -/
theorem row_word (ht : Fin 4) (r : Fin 128) :
    IntOp.addi (BitVec.ofNat 32 r.val) (Scalar.muli (BitVec.ofNat 32 ht.val) 128#32) = BitVec.ofNat 32 (row ht r).val := by
  show BitVec.ofNat 32 r.val + BitVec.ofNat 32 ht.val * BitVec.ofNat 32 128 = BitVec.ofNat 32 (ht.val * 128 + r.val)
  rw [← BitVec.ofNat_mul, ← BitVec.ofNat_add, Nat.add_comm]

/-- `exp (0 - s)` is `exp (-s)`. -/
theorem exp_zero_sub (s : EReal) : Ideal.exp (Ideal.ofBits .f32 0x00000000#32 - s) = Ideal.exp (-s) := by
  rw [Ideal.ofBits_zero_f32, zero_sub]

section Strip
variable (flo : SFlo.Idx → EReal) (n : Fin 8) (ht : Fin 4) (i : grid0.Coords)
  (v5 v7 : Vec Ideal S1x1x128x1024 .f32)

/-- The rows' words at a pixel of the strip. -/
theorem rows_at (hi1 : (i 1).val = ht.val) (r : Fin 128) (w : Fin 1024) :
    k0_pay4 i (ix2 r w) = BitVec.ofNat 32 (row ht r).val := by
  unfold k0_pay4
  show IntOp.addi (iota .tc S128x1024 32 [0] iota_S128x1024_d0_w32 (ix2 r w)) (Scalar.muli (BitVec.ofNat 32 (i 1).val) 128#32) = _
  rw [iota_single_apply, hi1]
  exact row_word ht r

/-- The columns' words at a pixel of the strip. -/
theorem cols_at (r : Fin 128) (w : Fin 1024) :
    iota .tc S128x1024 32 [1] iota_S128x1024_d1_w32 (ix2 r w) = BitVec.ofNat 32 w.val :=
  iota_single_apply _ _ _ _ _ _

/-- The columns' counter, as the body names it. -/
abbrev colsV : IVec S128x1024 32 := iota .tc S128x1024 32 [1] iota_S128x1024_d1_w32

/-! ## The two offsets, their floors, the four weights -/

section Planes
variable (h5 : ∀ (r : Fin 128) (w : Fin 1024), v5 (ix4 (0 : Fin 1) (0 : Fin 1) r w) = yv flo n (row ht r) w)
  (h7 : ∀ (r : Fin 128) (w : Fin 1024), v7 (ix4 (0 : Fin 1) (0 : Fin 1) r w) = xv flo n (row ht r) w)
include h5 h7

theorem y_at (r : Fin 128) (w : Fin 1024) : k0_pay5 v5 (ix2 r w) = yv flo n (row ht r) w := by
  unfold k0_pay5; rw [plane_drop]; exact h5 r w
theorem x_at (r : Fin 128) (w : Fin 1024) : k0_pay6 v7 (ix2 r w) = xv flo n (row ht r) w := by
  unfold k0_pay6; rw [plane_drop]; exact h7 r w
theorem fx_at (r : Fin 128) (w : Fin 1024) : k0_pay7 v7 (ix2 r w) = fl (xv flo n (row ht r) w) := by
  rw [← x_at flo n ht v5 v7 h5 h7]; rfl
theorem fx1_at (r : Fin 128) (w : Fin 1024) : k0_pay8 v7 (ix2 r w) = fl (xv flo n (row ht r) w) + one := by
  rw [← x_at flo n ht v5 v7 h5 h7]; rfl
theorem fy_at (r : Fin 128) (w : Fin 1024) : k0_pay9 v5 (ix2 r w) = fl (yv flo n (row ht r) w) := by
  rw [← y_at flo n ht v5 v7 h5 h7]; rfl
theorem fy1_at (r : Fin 128) (w : Fin 1024) : k0_pay10 v5 (ix2 r w) = fl (yv flo n (row ht r) w) + one := by
  rw [← y_at flo n ht v5 v7 h5 h7]; rfl

theorem w11_at (r : Fin 128) (w : Fin 1024) : k0_pay15 v5 v7 (ix2 r w) = wt flo 0 n (row ht r) w := by
  unfold wt sx sy
  rw [← exp_zero_sub, ← x_at flo n ht v5 v7 h5 h7 r w, ← y_at flo n ht v5 v7 h5 h7 r w]; rfl
theorem w12_at (r : Fin 128) (w : Fin 1024) : k0_pay16 v5 v7 (ix2 r w) = wt flo 1 n (row ht r) w := by
  unfold wt sx sy
  rw [← exp_zero_sub, ← x_at flo n ht v5 v7 h5 h7 r w, ← y_at flo n ht v5 v7 h5 h7 r w]; rfl
theorem w21_at (r : Fin 128) (w : Fin 1024) : k0_pay17 v5 v7 (ix2 r w) = wt flo 2 n (row ht r) w := by
  unfold wt sx sy
  rw [← exp_zero_sub, ← x_at flo n ht v5 v7 h5 h7 r w, ← y_at flo n ht v5 v7 h5 h7 r w]; rfl
theorem w22_at (r : Fin 128) (w : Fin 1024) : k0_pay18 v5 v7 (ix2 r w) = wt flo 3 n (row ht r) w := by
  unfold wt sx sy
  rw [← exp_zero_sub, ← x_at flo n ht v5 v7 h5 h7 r w, ← y_at flo n ht v5 v7 h5 h7 r w]; rfl

end Planes

/-! ## The colours' layouts -/

/-- A `[1,128,1024]` plane repeated over three channels. -/
theorem strip_bcast {α : Type} (u : S1x128x1024.Idx → α) (h : S1x128x1024.Broadcasts S3x128x1024) (c : Fin 3) (r : Fin 128) (w : Fin 1024) :
    broadcastTo S3x128x1024 u h (ix3 c r w) = u (ix3 (0 : Fin 1) r w) := by
  refine broadcastTo_apply u h (ix3 c r w) (ix3 (0 : Fin 1) r w) fun ax => ?_
  match ax with
  | ⟨0, _⟩ => rfl
  | ⟨1, _⟩ => show r.val = if (128 : ℕ) = 1 then 0 else r.val; rw [if_neg (by decide)]
  | ⟨2, _⟩ => show w.val = if (1024 : ℕ) = 1 then 0 else w.val; rw [if_neg (by decide)]

/-- Three channels times one plane, stored with a leading unit axis: channel `c` at `(r, w)` times the plane there. -/
theorem colour_at (v40 : FVec Ideal S3x128x1024 .f32) (p : FVec Ideal S128x1024 .f32)
    (h1 : S128x1024.ShapeCasts S1x128x1024) (h2 : S1x128x1024.Broadcasts S3x128x1024) (h3 : S3x128x1024.ShapeCasts S1x3x128x1024)
    (a : Fin 1) (c : Fin 3) (r : Fin 128) (w : Fin 1024) :
    shapeCast S1x3x128x1024 (mulf v40 (broadcastTo S3x128x1024 (shapeCast S1x128x1024 p h1) h2)) h3 (ix4 a c r w)
      = v40 (ix3 c r w) * p (ix2 r w) := by
  rw [shapeCast_abc_1abc_apply]
  show v40 (ix3 c r w) * broadcastTo S3x128x1024 (shapeCast S1x128x1024 p h1) h2 (ix3 c r w) = _
  rw [strip_bcast, shapeCast_ab_1ab_apply]

/-- The strip's colours without their leading unit axis. -/
theorem pay19_at (v39 : Vec Ideal S1x3x128x1024 .f32) (c : Fin 3) (r : Fin 128) (w : Fin 1024) :
    k0_pay19 v39 (ix3 c r w) = v39 (ix4 (0 : Fin 1) c r w) := by
  unfold k0_pay19; rw [shapeCast_1abc_abc_apply]

/-! ## The four corners at a pixel -/

section Corners
variable (hi0 : (i 0).val = n.val) (hi1 : (i 1).val = ht.val)
  (h5 : ∀ (r : Fin 128) (w : Fin 1024), v5 (ix4 (0 : Fin 1) (0 : Fin 1) r w) = yv flo n (row ht r) w)
  (h7 : ∀ (r : Fin 128) (w : Fin 1024), v7 (ix4 (0 : Fin 1) (0 : Fin 1) r w) = xv flo n (row ht r) w)
include hi0 hi1 h5 h7

/-- The batch entry's word. -/
theorem pid_word : BitVec.ofNat 32 (i 0).val = BitVec.ofNat 32 n.val := by rw [hi0]

-- corner 0: (⌊x⌋, ⌊y⌋)
theorem row0_at (r : Fin 128) (w : Fin 1024) : k0_pay20 (k0_pay4 i) (k0_pay7 v7) (ix2 r w) = rowW flo 0 n (row ht r) w := by
  unfold rowW sx
  rw [← fx_at flo n ht v5 v7 h5 h7 r w, ← rows_at ht i hi1 r w]; rfl
theorem col0_at (r : Fin 128) (w : Fin 1024) : k0_pay21 colsV (k0_pay9 v5) (ix2 r w) = colW flo 0 n (row ht r) w := by
  unfold colW sy
  rw [← fy_at flo n ht v5 v7 h5 h7 r w, ← cols_at r w]; rfl
theorem wv0_at (r : Fin 128) (w : Fin 1024) :
    k0_pay22 (k0_pay4 i) colsV (k0_pay7 v7) (k0_pay9 v5) (k0_pay15 v5 v7) (ix2 r w) = wv flo 0 n (row ht r) w := by
  unfold wv inside
  rw [← row0_at flo n ht i v5 v7 hi0 hi1 h5 h7 r w, ← col0_at flo n ht i v5 v7 hi0 hi1 h5 h7 r w, ← w11_at flo n ht v5 v7 h5 h7 r w]; rfl
theorem tid0_at (r : Fin 128) (w : Fin 1024) :
    k0_pay23 (BitVec.ofNat 32 (i 0).val) (k0_pay4 i) colsV (k0_pay7 v7) (k0_pay9 v5) (ix2 r w) = tid flo 0 n (row ht r) w := by
  unfold tid
  rw [← row0_at flo n ht i v5 v7 hi0 hi1 h5 h7 r w, ← col0_at flo n ht i v5 v7 hi0 hi1 h5 h7 r w, ← pid_word flo n ht i v5 v7 hi0 hi1 h5 h7]; rfl

-- corner 1: (⌊x⌋, ⌊y⌋ + 1)
theorem row1_at (r : Fin 128) (w : Fin 1024) : k0_pay27 (k0_pay4 i) (k0_pay7 v7) (ix2 r w) = rowW flo 1 n (row ht r) w := by
  unfold rowW sx
  rw [← fx_at flo n ht v5 v7 h5 h7 r w, ← rows_at ht i hi1 r w]; rfl
theorem col1_at (r : Fin 128) (w : Fin 1024) : k0_pay28 colsV (k0_pay10 v5) (ix2 r w) = colW flo 1 n (row ht r) w := by
  unfold colW sy
  rw [← fy1_at flo n ht v5 v7 h5 h7 r w, ← cols_at r w]; rfl
theorem wv1_at (r : Fin 128) (w : Fin 1024) :
    k0_pay29 (k0_pay4 i) colsV (k0_pay7 v7) (k0_pay10 v5) (k0_pay16 v5 v7) (ix2 r w) = wv flo 1 n (row ht r) w := by
  unfold wv inside
  rw [← row1_at flo n ht i v5 v7 hi0 hi1 h5 h7 r w, ← col1_at flo n ht i v5 v7 hi0 hi1 h5 h7 r w, ← w12_at flo n ht v5 v7 h5 h7 r w]; rfl
theorem tid1_at (r : Fin 128) (w : Fin 1024) :
    k0_pay30 (BitVec.ofNat 32 (i 0).val) (k0_pay4 i) colsV (k0_pay7 v7) (k0_pay10 v5) (ix2 r w) = tid flo 1 n (row ht r) w := by
  unfold tid
  rw [← row1_at flo n ht i v5 v7 hi0 hi1 h5 h7 r w, ← col1_at flo n ht i v5 v7 hi0 hi1 h5 h7 r w, ← pid_word flo n ht i v5 v7 hi0 hi1 h5 h7]; rfl

-- corner 2: (⌊x⌋ + 1, ⌊y⌋)
theorem row2_at (r : Fin 128) (w : Fin 1024) : k0_pay35 (k0_pay4 i) (k0_pay8 v7) (ix2 r w) = rowW flo 2 n (row ht r) w := by
  unfold rowW sx
  rw [← fx1_at flo n ht v5 v7 h5 h7 r w, ← rows_at ht i hi1 r w]; rfl
theorem col2_at (r : Fin 128) (w : Fin 1024) : k0_pay36 colsV (k0_pay9 v5) (ix2 r w) = colW flo 2 n (row ht r) w := by
  unfold colW sy
  rw [← fy_at flo n ht v5 v7 h5 h7 r w, ← cols_at r w]; rfl
theorem wv2_at (r : Fin 128) (w : Fin 1024) :
    k0_pay37 (k0_pay4 i) colsV (k0_pay8 v7) (k0_pay9 v5) (k0_pay17 v5 v7) (ix2 r w) = wv flo 2 n (row ht r) w := by
  unfold wv inside
  rw [← row2_at flo n ht i v5 v7 hi0 hi1 h5 h7 r w, ← col2_at flo n ht i v5 v7 hi0 hi1 h5 h7 r w, ← w21_at flo n ht v5 v7 h5 h7 r w]; rfl
theorem tid2_at (a b : Fin 1) (r : Fin 128) (w : Fin 1024) :
    k0_pay43 (k0_pay38 colsV (k0_pay9 v5)) (k0_pay39 (BitVec.ofNat 32 (i 0).val) (k0_pay4 i) (k0_pay8 v7)) k0_pay40 (ix4 a b r w)
      = tid flo 2 n (row ht r) w := by
  unfold k0_pay43; rw [plane_add]
  unfold tid
  rw [← row2_at flo n ht i v5 v7 hi0 hi1 h5 h7 r w, ← col2_at flo n ht i v5 v7 hi0 hi1 h5 h7 r w, ← pid_word flo n ht i v5 v7 hi0 hi1 h5 h7]; rfl

-- corner 3: (⌊x⌋ + 1, ⌊y⌋ + 1)
theorem row3_at (r : Fin 128) (w : Fin 1024) : k0_pay44 (k0_pay4 i) (k0_pay8 v7) (ix2 r w) = rowW flo 3 n (row ht r) w := by
  unfold rowW sx
  rw [← fx1_at flo n ht v5 v7 h5 h7 r w, ← rows_at ht i hi1 r w]; rfl
theorem col3_at (r : Fin 128) (w : Fin 1024) : k0_pay45 colsV (k0_pay10 v5) (ix2 r w) = colW flo 3 n (row ht r) w := by
  unfold colW sy
  rw [← fy1_at flo n ht v5 v7 h5 h7 r w, ← cols_at r w]; rfl
theorem wv3_at (r : Fin 128) (w : Fin 1024) :
    k0_pay46 (k0_pay4 i) colsV (k0_pay8 v7) (k0_pay10 v5) (k0_pay18 v5 v7) (ix2 r w) = wv flo 3 n (row ht r) w := by
  unfold wv inside
  rw [← row3_at flo n ht i v5 v7 hi0 hi1 h5 h7 r w, ← col3_at flo n ht i v5 v7 hi0 hi1 h5 h7 r w, ← w22_at flo n ht v5 v7 h5 h7 r w]; rfl
theorem tid3_at (a b : Fin 1) (r : Fin 128) (w : Fin 1024) :
    k0_pay3 (BitVec.ofNat 32 (i 0).val) (k0_pay45 colsV (k0_pay10 v5)) (k0_pay47 (k0_pay4 i) (k0_pay8 v7)) 1023#32 k0_pay48 (ix4 a b r w)
      = tid flo 3 n (row ht r) w := by
  unfold k0_pay3; rw [plane_add]
  unfold tid
  rw [← row3_at flo n ht i v5 v7 hi0 hi1 h5 h7 r w, ← col3_at flo n ht i v5 v7 hi0 hi1 h5 h7 r w, ← pid_word flo n ht i v5 v7 hi0 hi1 h5 h7]; rfl

/-! ## What is stored: the weights and the words as one channel -/

theorem wst0_at (a b : Fin 1) (r : Fin 128) (w : Fin 1024) :
    k0_pay25 (k0_pay22 (k0_pay4 i) colsV (k0_pay7 v7) (k0_pay9 v5) (k0_pay15 v5 v7)) (ix4 a b r w) = wv flo 0 n (row ht r) w := by
  unfold k0_pay25; rw [plane_add]; exact wv0_at flo n ht i v5 v7 hi0 hi1 h5 h7 r w
theorem wst1_at (a b : Fin 1) (r : Fin 128) (w : Fin 1024) :
    k0_pay33 (k0_pay29 (k0_pay4 i) colsV (k0_pay7 v7) (k0_pay10 v5) (k0_pay16 v5 v7)) (ix4 a b r w) = wv flo 1 n (row ht r) w := by
  unfold k0_pay33; rw [plane_add]; exact wv1_at flo n ht i v5 v7 hi0 hi1 h5 h7 r w
theorem wst2_at (a b : Fin 1) (r : Fin 128) (w : Fin 1024) :
    k0_pay42 (k0_pay37 (k0_pay4 i) colsV (k0_pay8 v7) (k0_pay9 v5) (k0_pay17 v5 v7)) (ix4 a b r w) = wv flo 2 n (row ht r) w := by
  unfold k0_pay42; rw [plane_add]; exact wv2_at flo n ht i v5 v7 hi0 hi1 h5 h7 r w
theorem wst3_at (a b : Fin 1) (r : Fin 128) (w : Fin 1024) :
    k0_pay2 (k0_pay46 (k0_pay4 i) colsV (k0_pay8 v7) (k0_pay10 v5) (k0_pay18 v5 v7)) (ix4 a b r w) = wv flo 3 n (row ht r) w := by
  unfold k0_pay2; rw [plane_add]; exact wv3_at flo n ht i v5 v7 hi0 hi1 h5 h7 r w
theorem tst0_at (a b : Fin 1) (r : Fin 128) (w : Fin 1024) :
    k0_pay26 (k0_pay23 (BitVec.ofNat 32 (i 0).val) (k0_pay4 i) colsV (k0_pay7 v7) (k0_pay9 v5)) (ix4 a b r w) = tid flo 0 n (row ht r) w := by
  unfold k0_pay26; rw [plane_add]; exact tid0_at flo n ht i v5 v7 hi0 hi1 h5 h7 r w
theorem tst1_at (a b : Fin 1) (r : Fin 128) (w : Fin 1024) :
    k0_pay34 (k0_pay30 (BitVec.ofNat 32 (i 0).val) (k0_pay4 i) colsV (k0_pay7 v7) (k0_pay10 v5)) (ix4 a b r w) = tid flo 1 n (row ht r) w := by
  unfold k0_pay34; rw [plane_add]; exact tid1_at flo n ht i v5 v7 hi0 hi1 h5 h7 r w

/-! ## What is stored: the colours times the weight -/

section Colours
variable (img : SImg.Idx → EReal) (v39 : Vec Ideal S1x3x128x1024 .f32)
  (h39 : ∀ (c : Fin 3) (r : Fin 128) (w : Fin 1024), v39 (ix4 (0 : Fin 1) c r w) = img (ix4 n c (row ht r) w))
include h39

theorem val0_at (a : Fin 1) (c : Fin 3) (r : Fin 128) (w : Fin 1024) :
    k0_pay24 (k0_pay4 i) colsV (k0_pay7 v7) (k0_pay9 v5) (k0_pay15 v5 v7) v39 (ix4 a c r w) = cv flo img 0 n c (row ht r) w := by
  unfold k0_pay24 cv
  rw [colour_at, pay19_at, h39, wv0_at flo n ht i v5 v7 hi0 hi1 h5 h7 r w]
theorem val1_at (a : Fin 1) (c : Fin 3) (r : Fin 128) (w : Fin 1024) :
    k0_pay32 (k0_pay31 (k0_pay4 i) colsV (k0_pay7 v7) (k0_pay10 v5) (k0_pay16 v5 v7) (k0_pay19 v39)) (ix4 a c r w)
      = cv flo img 1 n c (row ht r) w := by
  unfold k0_pay32 k0_pay31 cv
  rw [colour_at, pay19_at, h39, wv1_at flo n ht i v5 v7 hi0 hi1 h5 h7 r w]
theorem val2_at (a : Fin 1) (c : Fin 3) (r : Fin 128) (w : Fin 1024) :
    k0_pay41 (k0_pay19 v39) (k0_pay37 (k0_pay4 i) colsV (k0_pay8 v7) (k0_pay9 v5) (k0_pay17 v5 v7)) (ix4 a c r w)
      = cv flo img 2 n c (row ht r) w := by
  unfold k0_pay41 cv
  rw [colour_at, pay19_at, h39, wv2_at flo n ht i v5 v7 hi0 hi1 h5 h7 r w]
theorem val3_at (a : Fin 1) (c : Fin 3) (r : Fin 128) (w : Fin 1024) :
    k0_pay1 (k0_pay19 v39) (k0_pay46 (k0_pay4 i) colsV (k0_pay8 v7) (k0_pay10 v5) (k0_pay18 v5 v7)) (ix4 a c r w)
      = cv flo img 3 n c (row ht r) w := by
  unfold k0_pay1 cv
  rw [colour_at, pay19_at, h39, wv3_at flo n ht i v5 v7 hi0 hi1 h5 h7 r w]

end Colours

end Corners

end Strip

end Cert.KernelPoint

end
-- ==== Proof.KernelArrays.lean ====
import proofs.«178573_j6485400617539_2_alg».proof.Proof.KernelIdealFrame
import proofs.«178573_j6485400617539_2_alg».proof.Proof.Targets
import proofs.«178573_j6485400617539_2_alg».proof.Proof.KernelPoint
import Idealize.ShloMosaic.Lib.Pipeline.Value

/-!
# From the region's blocks to its three result arrays

At grid point `t = (n, ht)` every window's block index is `(n, 0, ht, 0)`: the block of an array `[8, k, 512, 1024]`
is batch entry `n`, all `k` channels, rows `128·ht … 128·ht + 127`, all columns.  So pixel `(r, w)` of the strip is
pixel `(n, 128·ht + r, w)` of the image, the two input blocks are the flow and the image read there, and each result
block is the block at `(n, 0, ht, 0)` of ONE array-wide function of the flow and the image: the masked weights, the
flat target words, the weighted colours.  The thirty-two blocks tile each result array, hence the array ends holding
that function.
-/

set_option maxRecDepth 16384

noncomputable section

namespace Cert.KernelIdeal.Arr

open Cert.KernelIdeal Cert.KernelIdeal.Gen Cert.KernelIdeal.Fr Cert.Splat Cert.KernelPoint
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The flow and the image as launched on core `c`. -/
abbrev floA (c : Dev nD) : SFlo.Idx → EReal := m ((c : Thread nD τ).loc main_arg1)
abbrev imgA (c : Dev nD) : SImg.Idx → EReal := m ((c : Thread nD τ).loc main_arg0)

/-! ## The block indices over the grid -/

/-- At every grid point, every window's block index is (first coordinate, 0, second coordinate, 0). -/
theorem idx_facts : ∀ t : Fin cfg0.N,
    (win0_0.index t (0 : Fin 4) = (grid0.coords t 0).val ∧ win0_0.index t (1 : Fin 4) = 0
      ∧ win0_0.index t (2 : Fin 4) = (grid0.coords t 1).val ∧ win0_0.index t (3 : Fin 4) = 0)
    ∧ (win0_1.index t (0 : Fin 4) = (grid0.coords t 0).val ∧ win0_1.index t (1 : Fin 4) = 0
      ∧ win0_1.index t (2 : Fin 4) = (grid0.coords t 1).val ∧ win0_1.index t (3 : Fin 4) = 0)
    ∧ (win0_2.index t (0 : Fin 4) = (grid0.coords t 0).val ∧ win0_2.index t (1 : Fin 4) = 0
      ∧ win0_2.index t (2 : Fin 4) = (grid0.coords t 1).val ∧ win0_2.index t (3 : Fin 4) = 0)
    ∧ (win0_3.index t (0 : Fin 4) = (grid0.coords t 0).val ∧ win0_3.index t (1 : Fin 4) = 0
      ∧ win0_3.index t (2 : Fin 4) = (grid0.coords t 1).val ∧ win0_3.index t (3 : Fin 4) = 0)
    ∧ (win0_4.index t (0 : Fin 4) = (grid0.coords t 0).val ∧ win0_4.index t (1 : Fin 4) = 0
      ∧ win0_4.index t (2 : Fin 4) = (grid0.coords t 1).val ∧ win0_4.index t (3 : Fin 4) = 0) :=
  (by decide +kernel : ∀ t : Fin grid0.N, _)

/-- Every pair of coordinates is some grid point's. -/
theorem coords_onto : ∀ (q0 : Fin 8) (q1 : Fin 4), ∃ t : Fin cfg0.N,
    (grid0.coords t 0).val = q0.val ∧ (grid0.coords t 1).val = q1.val :=
  (by decide +kernel : ∀ (q0 : Fin 8) (q1 : Fin 4), ∃ t : Fin grid0.N, (grid0.coords t 0).val = q0.val ∧ (grid0.coords t 1).val = q1.val)

/-- The batch entry and the strip of a grid point. -/
abbrev nOf (t : Fin cfg0.N) : Fin 8 := grid0.coords t 0
abbrev htOf (t : Fin cfg0.N) : Fin 4 := grid0.coords t 1

/-! ## The input blocks are the launched arrays read at the strip -/

/-- Element `x` of the flow block at point `t` is the flow at batch entry `n`, the same channel, row `128·ht + x₂`
    and the same column. -/
theorem iblk1_apply (c : Dev nD) (t : Fin cfg0.N) (x : S1x2x128x1024.Idx) (k : SFlo.Idx)
    (h0 : (k 0).val = (nOf t).val) (h1 : (k 1).val = (x 1).val)
    (h2 : (k 2).val = (htOf t).val * 128 + (x 2).val) (h3 : (k 3).val = (x 3).val) :
    (iblk m c 1 t : Vec Ideal S1x2x128x1024 .f32) x = floA m c k := by
  obtain ⟨-, ⟨e0, e1, e2, e3⟩, -⟩ := idx_facts t
  have hn : (nOf t).val = (grid0.coords t 0).val := rfl
  have hh : (htOf t).val = (grid0.coords t 1).val := rfl
  unfold iblk
  rw [View.read_apply]
  show (m ((c : Thread nD τ).loc main_arg1) : SFlo.Idx → EReal) _ = m ((c : Thread nD τ).loc main_arg1) k
  congr 1
  funext a
  apply Fin.ext
  have hx0 : (x 0).val < 1 := (x 0).isLt
  match a with
  | ⟨0, _⟩ => show win0_1.index t 0 * 1 + 1 * (x 0).val = (k 0).val; rw [e0, h0]; omega
  | ⟨1, _⟩ => show win0_1.index t 1 * 2 + 1 * (x 1).val = (k 1).val; rw [e1, h1]; omega
  | ⟨2, _⟩ => show win0_1.index t 2 * 128 + 1 * (x 2).val = (k 2).val; rw [e2, h2]; omega
  | ⟨3, _⟩ => show win0_1.index t 3 * 1024 + 1 * (x 3).val = (k 3).val; rw [e3, h3]; omega

/-- The same for the image block. -/
theorem iblk0_apply (c : Dev nD) (t : Fin cfg0.N) (x : S1x3x128x1024.Idx) (k : SImg.Idx)
    (h0 : (k 0).val = (nOf t).val) (h1 : (k 1).val = (x 1).val)
    (h2 : (k 2).val = (htOf t).val * 128 + (x 2).val) (h3 : (k 3).val = (x 3).val) :
    (iblk m c 0 t : Vec Ideal S1x3x128x1024 .f32) x = imgA m c k := by
  obtain ⟨⟨e0, e1, e2, e3⟩, -⟩ := idx_facts t
  have hn : (nOf t).val = (grid0.coords t 0).val := rfl
  have hh : (htOf t).val = (grid0.coords t 1).val := rfl
  unfold iblk
  rw [View.read_apply]
  show (m ((c : Thread nD τ).loc main_arg0) : SImg.Idx → EReal) _ = m ((c : Thread nD τ).loc main_arg0) k
  congr 1
  funext a
  apply Fin.ext
  have hx0 : (x 0).val < 1 := (x 0).isLt
  match a with
  | ⟨0, _⟩ => show win0_0.index t 0 * 1 + 1 * (x 0).val = (k 0).val; rw [e0, h0]; omega
  | ⟨1, _⟩ => show win0_0.index t 1 * 3 + 1 * (x 1).val = (k 1).val; rw [e1, h1]; omega
  | ⟨2, _⟩ => show win0_0.index t 2 * 128 + 1 * (x 2).val = (k 2).val; rw [e2, h2]; omega
  | ⟨3, _⟩ => show win0_0.index t 3 * 1024 + 1 * (x 3).val = (k 3).val; rw [e3, h3]; omega

/-- What the body's three loads read at a pixel of the strip: the row offset, the column offset, the colours. -/
theorem floY_at (c : Dev nD) (t : Fin cfg0.N) (r : Fin 128) (w : Fin 1024) :
    floY (iblk m c 1 t) (ix4 (0 : Fin 1) (0 : Fin 1) r w) = yv (floA m c) (nOf t) (row (htOf t) r) w := by
  unfold yv
  show (iblk m c 1 t : Vec Ideal S1x2x128x1024 .f32) (rFlo0.idx (ix4 (0 : Fin 1) (0 : Fin 1) r w)) = _
  apply iblk1_apply m c t <;> simp only [LoadRect.idx_apply, Rect.emb_apply, Rect.off_unit, Rect.stride_unit, Nat.one_mul] <;> first | rfl | (simp [row])
theorem floX_at (c : Dev nD) (t : Fin cfg0.N) (r : Fin 128) (w : Fin 1024) :
    floX (iblk m c 1 t) (ix4 (0 : Fin 1) (0 : Fin 1) r w) = xv (floA m c) (nOf t) (row (htOf t) r) w := by
  unfold xv
  show (iblk m c 1 t : Vec Ideal S1x2x128x1024 .f32) (rFlo1.idx (ix4 (0 : Fin 1) (0 : Fin 1) r w)) = _
  apply iblk1_apply m c t <;> simp only [LoadRect.idx_apply, Rect.emb_apply, Rect.off_unit, Rect.stride_unit, Nat.one_mul] <;> first | rfl | (simp [row])
theorem imgLd_at (c : Dev nD) (t : Fin cfg0.N) (ch : Fin 3) (r : Fin 128) (w : Fin 1024) :
    imgLd (iblk m c 0 t) (ix4 (0 : Fin 1) ch r w) = imgA m c (ix4 (nOf t) ch (row (htOf t) r) w) := by
  show (iblk m c 0 t : Vec Ideal S1x3x128x1024 .f32) (rImg.idx (ix4 (0 : Fin 1) ch r w)) = _
  apply iblk0_apply m c t <;> simp only [LoadRect.idx_apply, Rect.emb_apply, Rect.off_unit, Rect.stride_unit, Nat.one_mul] <;> first | rfl | (simp [row])

/-! ## Each result block is one function of the position in the block -/

section Point

variable (flo : SFlo.Idx → EReal) (img : SImg.Idx → EReal) (n : Fin 8) (ht : Fin 4) (i : grid0.Coords)
  (x0 : Vec Ideal S1x3x128x1024 .f32) (x1 : Vec Ideal S1x2x128x1024 .f32)
  (hi0 : (i 0).val = n.val) (hi1 : (i 1).val = ht.val)
  (h5 : ∀ (r : Fin 128) (w : Fin 1024), floY x1 (ix4 (0 : Fin 1) (0 : Fin 1) r w) = yv flo n (row ht r) w)
  (h7 : ∀ (r : Fin 128) (w : Fin 1024), floX x1 (ix4 (0 : Fin 1) (0 : Fin 1) r w) = xv flo n (row ht r) w)
  (h39 : ∀ (ch : Fin 3) (r : Fin 128) (w : Fin 1024), imgLd x0 (ix4 (0 : Fin 1) ch r w) = img (ix4 n ch (row ht r) w))

include hi0 hi1 h5 h7 in
/-- The second result block at position `y` is the masked weight of corner `y₁` at pixel `(n, 128·ht + y₂, y₃)`:
    the store of corner `k` fills channel `k` with that corner's weights. -/
theorem out3_apply (y : S1x4x128x1024.Idx) : out3 i x0 x1 y = wv flo (y 1) n (row ht (y 2)) (y 3) := by
  unfold out3
  refine View.canon_apply_of_pieces (Val := Elt Ideal) (e := .f32) (fun y : S1x4x128x1024.Idx => wv flo (y 1) n (row ht (y 2)) (y 3)) _ ?_ y (cover3 _ _ _ _ y)
  intro p hp x
  simp only [List.mem_cons, List.mem_nil_iff, or_false] at hp
  rcases hp with rfl | rfl | rfl | rfl
  · have hx : (x 1).val < 1 := (x 1).isLt
    have e1 : (rCh3.emb x) 1 = (3 : Fin 4) := Fin.ext (show 3 + 1 * (x 1).val = 3 by omega)
    have e2 : (rCh3.emb x) 2 = x 2 := Fin.ext (show 0 + 1 * (x 2).val = (x 2).val by omega)
    have e3 : (rCh3.emb x) 3 = x 3 := Fin.ext (show 0 + 1 * (x 3).val = (x 3).val by omega)
    show wst3 i x1 x = wv flo ((rCh3.emb x) 1) n (row ht ((rCh3.emb x) 2)) ((rCh3.emb x) 3)
    rw [e1, e2, e3]
    exact (congrArg (wst3 i x1) (eq_ix4 x)).trans (wst3_at flo n ht i (floY x1) (floX x1) hi0 hi1 h5 h7 (x 0) (x 1) (x 2) (x 3))
  · have hx : (x 1).val < 1 := (x 1).isLt
    have e1 : (rCh2.emb x) 1 = (2 : Fin 4) := Fin.ext (show 2 + 1 * (x 1).val = 2 by omega)
    have e2 : (rCh2.emb x) 2 = x 2 := Fin.ext (show 0 + 1 * (x 2).val = (x 2).val by omega)
    have e3 : (rCh2.emb x) 3 = x 3 := Fin.ext (show 0 + 1 * (x 3).val = (x 3).val by omega)
    show wst2 i x1 x = wv flo ((rCh2.emb x) 1) n (row ht ((rCh2.emb x) 2)) ((rCh2.emb x) 3)
    rw [e1, e2, e3]
    exact (congrArg (wst2 i x1) (eq_ix4 x)).trans (wst2_at flo n ht i (floY x1) (floX x1) hi0 hi1 h5 h7 (x 0) (x 1) (x 2) (x 3))
  · have hx : (x 1).val < 1 := (x 1).isLt
    have e1 : (rCh1.emb x) 1 = (1 : Fin 4) := Fin.ext (show 1 + 1 * (x 1).val = 1 by omega)
    have e2 : (rCh1.emb x) 2 = x 2 := Fin.ext (show 0 + 1 * (x 2).val = (x 2).val by omega)
    have e3 : (rCh1.emb x) 3 = x 3 := Fin.ext (show 0 + 1 * (x 3).val = (x 3).val by omega)
    show wst1 i x1 x = wv flo ((rCh1.emb x) 1) n (row ht ((rCh1.emb x) 2)) ((rCh1.emb x) 3)
    rw [e1, e2, e3]
    exact (congrArg (wst1 i x1) (eq_ix4 x)).trans (wst1_at flo n ht i (floY x1) (floX x1) hi0 hi1 h5 h7 (x 0) (x 1) (x 2) (x 3))
  · have hx : (x 1).val < 1 := (x 1).isLt
    have e1 : (rCh0.emb x) 1 = (0 : Fin 4) := Fin.ext (show 0 + 1 * (x 1).val = 0 by omega)
    have e2 : (rCh0.emb x) 2 = x 2 := Fin.ext (show 0 + 1 * (x 2).val = (x 2).val by omega)
    have e3 : (rCh0.emb x) 3 = x 3 := Fin.ext (show 0 + 1 * (x 3).val = (x 3).val by omega)
    show wst0 i x1 x = wv flo ((rCh0.emb x) 1) n (row ht ((rCh0.emb x) 2)) ((rCh0.emb x) 3)
    rw [e1, e2, e3]
    exact (congrArg (wst0 i x1) (eq_ix4 x)).trans (wst0_at flo n ht i (floY x1) (floX x1) hi0 hi1 h5 h7 (x 0) (x 1) (x 2) (x 3))

include hi0 hi1 h5 h7 in
/-- The third result block at position `y` is the flat target word of corner `y₁` at pixel `(n, 128·ht + y₂, y₃)`. -/
theorem out4_apply (y : S1x4x128x1024.Idx) : out4 i x0 x1 y = tid flo (y 1) n (row ht (y 2)) (y 3) := by
  unfold out4
  refine View.canon_apply_of_pieces (Val := Elt Ideal) (e := .i32) (fun y : S1x4x128x1024.Idx => tid flo (y 1) n (row ht (y 2)) (y 3)) _ ?_ y (cover4 _ _ _ _ y)
  intro p hp x
  simp only [List.mem_cons, List.mem_nil_iff, or_false] at hp
  rcases hp with rfl | rfl | rfl | rfl
  · have hx : (x 1).val < 1 := (x 1).isLt
    have e1 : (rCh3.emb x) 1 = (3 : Fin 4) := Fin.ext (show 3 + 1 * (x 1).val = 3 by omega)
    have e2 : (rCh3.emb x) 2 = x 2 := Fin.ext (show 0 + 1 * (x 2).val = (x 2).val by omega)
    have e3 : (rCh3.emb x) 3 = x 3 := Fin.ext (show 0 + 1 * (x 3).val = (x 3).val by omega)
    show tid3 i x1 x = tid flo ((rCh3.emb x) 1) n (row ht ((rCh3.emb x) 2)) ((rCh3.emb x) 3)
    rw [e1, e2, e3]
    exact (congrArg (tid3 i x1) (eq_ix4 x)).trans (tid3_at flo n ht i (floY x1) (floX x1) hi0 hi1 h5 h7 (x 0) (x 1) (x 2) (x 3))
  · have hx : (x 1).val < 1 := (x 1).isLt
    have e1 : (rCh2.emb x) 1 = (2 : Fin 4) := Fin.ext (show 2 + 1 * (x 1).val = 2 by omega)
    have e2 : (rCh2.emb x) 2 = x 2 := Fin.ext (show 0 + 1 * (x 2).val = (x 2).val by omega)
    have e3 : (rCh2.emb x) 3 = x 3 := Fin.ext (show 0 + 1 * (x 3).val = (x 3).val by omega)
    show tid2 i x1 x = tid flo ((rCh2.emb x) 1) n (row ht ((rCh2.emb x) 2)) ((rCh2.emb x) 3)
    rw [e1, e2, e3]
    exact (congrArg (tid2 i x1) (eq_ix4 x)).trans (tid2_at flo n ht i (floY x1) (floX x1) hi0 hi1 h5 h7 (x 0) (x 1) (x 2) (x 3))
  · have hx : (x 1).val < 1 := (x 1).isLt
    have e1 : (rCh1.emb x) 1 = (1 : Fin 4) := Fin.ext (show 1 + 1 * (x 1).val = 1 by omega)
    have e2 : (rCh1.emb x) 2 = x 2 := Fin.ext (show 0 + 1 * (x 2).val = (x 2).val by omega)
    have e3 : (rCh1.emb x) 3 = x 3 := Fin.ext (show 0 + 1 * (x 3).val = (x 3).val by omega)
    show tid1 i x1 x = tid flo ((rCh1.emb x) 1) n (row ht ((rCh1.emb x) 2)) ((rCh1.emb x) 3)
    rw [e1, e2, e3]
    exact (congrArg (tid1 i x1) (eq_ix4 x)).trans (tst1_at flo n ht i (floY x1) (floX x1) hi0 hi1 h5 h7 (x 0) (x 1) (x 2) (x 3))
  · have hx : (x 1).val < 1 := (x 1).isLt
    have e1 : (rCh0.emb x) 1 = (0 : Fin 4) := Fin.ext (show 0 + 1 * (x 1).val = 0 by omega)
    have e2 : (rCh0.emb x) 2 = x 2 := Fin.ext (show 0 + 1 * (x 2).val = (x 2).val by omega)
    have e3 : (rCh0.emb x) 3 = x 3 := Fin.ext (show 0 + 1 * (x 3).val = (x 3).val by omega)
    show tid0 i x1 x = tid flo ((rCh0.emb x) 1) n (row ht ((rCh0.emb x) 2)) ((rCh0.emb x) 3)
    rw [e1, e2, e3]
    exact (congrArg (tid0 i x1) (eq_ix4 x)).trans (tst0_at flo n ht i (floY x1) (floX x1) hi0 hi1 h5 h7 (x 0) (x 1) (x 2) (x 3))

/-- Entry `3k + ch` of the twelve is corner `k`, channel `ch`. -/
theorem chCorner_add (k : Fin 4) (ch : Fin 3) (e : Fin 12) (he : e.val = 3 * k.val + ch.val) : chCorner e = k := by
  apply Fin.ext; show e.val / 3 = k.val; have := ch.isLt; omega
theorem chChan_add (k : Fin 4) (ch : Fin 3) (e : Fin 12) (he : e.val = 3 * k.val + ch.val) : chChan e = ch := by
  apply Fin.ext; show e.val % 3 = ch.val; have := ch.isLt; omega

include hi0 hi1 h5 h7 h39 in
/-- The first result block at position `y`: entry `y₁ = 3k + ch` is colour `ch` of pixel `(n, 128·ht + y₂, y₃)` times
    corner `k`'s masked weight — the store of corner `k` fills entries `3k, 3k+1, 3k+2`. -/
theorem out2_apply (y : S1x12x128x1024.Idx) :
    out2 i x0 x1 y = cv flo img (chCorner (y 1)) n (chChan (y 1)) (row ht (y 2)) (y 3) := by
  unfold out2
  refine View.canon_apply_of_pieces (Val := Elt Ideal) (e := .f32) (fun y : S1x12x128x1024.Idx => cv flo img (chCorner (y 1)) n (chChan (y 1)) (row ht (y 2)) (y 3)) _ ?_ y (cover2 _ _ _ _ y)
  intro p hp x
  simp only [List.mem_cons, List.mem_nil_iff, or_false] at hp
  rcases hp with rfl | rfl | rfl | rfl
  · have hx : (x 1).val < 3 := (x 1).isLt
    have e1 : ((rVal3.emb x) 1).val = 3 * (3 : Fin 4).val + (x 1).val := (show 9 + 1 * (x 1).val = 3 * 3 + (x 1).val by omega)
    have e2 : (rVal3.emb x) 2 = x 2 := Fin.ext (show 0 + 1 * (x 2).val = (x 2).val by omega)
    have e3 : (rVal3.emb x) 3 = x 3 := Fin.ext (show 0 + 1 * (x 3).val = (x 3).val by omega)
    show val3 i x0 x1 x = cv flo img (chCorner ((rVal3.emb x) 1)) n (chChan ((rVal3.emb x) 1)) (row ht ((rVal3.emb x) 2)) ((rVal3.emb x) 3)
    rw [chCorner_add 3 (x 1) _ e1, chChan_add 3 (x 1) _ e1, e2, e3]
    exact (congrArg (val3 i x0 x1) (eq_ix4 x)).trans (val3_at flo n ht i (floY x1) (floX x1) hi0 hi1 h5 h7 img (imgLd x0) h39 (x 0) (x 1) (x 2) (x 3))
  · have hx : (x 1).val < 3 := (x 1).isLt
    have e1 : ((rVal2.emb x) 1).val = 3 * (2 : Fin 4).val + (x 1).val := (show 6 + 1 * (x 1).val = 3 * 2 + (x 1).val by omega)
    have e2 : (rVal2.emb x) 2 = x 2 := Fin.ext (show 0 + 1 * (x 2).val = (x 2).val by omega)
    have e3 : (rVal2.emb x) 3 = x 3 := Fin.ext (show 0 + 1 * (x 3).val = (x 3).val by omega)
    show val2 i x0 x1 x = cv flo img (chCorner ((rVal2.emb x) 1)) n (chChan ((rVal2.emb x) 1)) (row ht ((rVal2.emb x) 2)) ((rVal2.emb x) 3)
    rw [chCorner_add 2 (x 1) _ e1, chChan_add 2 (x 1) _ e1, e2, e3]
    exact (congrArg (val2 i x0 x1) (eq_ix4 x)).trans (val2_at flo n ht i (floY x1) (floX x1) hi0 hi1 h5 h7 img (imgLd x0) h39 (x 0) (x 1) (x 2) (x 3))
  · have hx : (x 1).val < 3 := (x 1).isLt
    have e1 : ((rVal1.emb x) 1).val = 3 * (1 : Fin 4).val + (x 1).val := (show 3 + 1 * (x 1).val = 3 * 1 + (x 1).val by omega)
    have e2 : (rVal1.emb x) 2 = x 2 := Fin.ext (show 0 + 1 * (x 2).val = (x 2).val by omega)
    have e3 : (rVal1.emb x) 3 = x 3 := Fin.ext (show 0 + 1 * (x 3).val = (x 3).val by omega)
    show val1 i x0 x1 x = cv flo img (chCorner ((rVal1.emb x) 1)) n (chChan ((rVal1.emb x) 1)) (row ht ((rVal1.emb x) 2)) ((rVal1.emb x) 3)
    rw [chCorner_add 1 (x 1) _ e1, chChan_add 1 (x 1) _ e1, e2, e3]
    exact (congrArg (val1 i x0 x1) (eq_ix4 x)).trans (val1_at flo n ht i (floY x1) (floX x1) hi0 hi1 h5 h7 img (imgLd x0) h39 (x 0) (x 1) (x 2) (x 3))
  · have hx : (x 1).val < 3 := (x 1).isLt
    have e1 : ((rVal0.emb x) 1).val = 3 * (0 : Fin 4).val + (x 1).val := (show 0 + 1 * (x 1).val = 3 * 0 + (x 1).val by omega)
    have e2 : (rVal0.emb x) 2 = x 2 := Fin.ext (show 0 + 1 * (x 2).val = (x 2).val by omega)
    have e3 : (rVal0.emb x) 3 = x 3 := Fin.ext (show 0 + 1 * (x 3).val = (x 3).val by omega)
    show val0 i x0 x1 x = cv flo img (chCorner ((rVal0.emb x) 1)) n (chChan ((rVal0.emb x) 1)) (row ht ((rVal0.emb x) 2)) ((rVal0.emb x) 3)
    rw [chCorner_add 0 (x 1) _ e1, chChan_add 0 (x 1) _ e1, e2, e3]
    exact (congrArg (val0 i x0 x1) (eq_ix4 x)).trans (val0_at flo n ht i (floY x1) (floX x1) hi0 hi1 h5 h7 img (imgLd x0) h39 (x 0) (x 1) (x 2) (x 3))

end Point

/-! ## The write-backs, the cover, and the arrays after the run -/

/-- What point `t` writes back of window 3 is block `t` of the array-wide function. -/
theorem flushed3_eq (c : Dev nD) (t : Fin cfg0.N) :
    (dats m 0 c).flushed 3 t = ((cfg0.win 3).blk t).view.read (Elt Ideal) ((wtsArr (floA m c) : SCorn.Idx → EReal)) := by
  show (cfg0.win 3).cut (grid0.coords t) ((dats m 0 c).after 3 t) = _
  rw [after_3]
  obtain ⟨-, -, -, ⟨e0, e1, e2, e3⟩, -⟩ := idx_facts t
  have hn : (nOf t).val = (grid0.coords t 0).val := rfl
  have hh : (htOf t).val = (grid0.coords t 1).val := rfl
  funext j
  show out3 (grid0.coords t) (iblk m c 0 t) (iblk m c 1 t) j = ((wtsArr (floA m c) : SCorn.Idx → EReal)) (((cfg0.win 3).blk t).view.emb j)
  rw [out3_apply (floA m c) (nOf t) (htOf t) (grid0.coords t) _ _ rfl rfl (floY_at m c t) (floX_at m c t) j]
  have hj0 : (j 0).val < 1 := (j 0).isLt
  have q0 : (((cfg0.win 3).blk t).view.emb j) 0 = nOf t :=
    Fin.ext (show win0_3.index t 0 * 1 + 1 * (j 0).val = (nOf t).val by rw [e0]; omega)
  have q1 : (((cfg0.win 3).blk t).view.emb j) 1 = j 1 :=
    Fin.ext (show win0_3.index t 1 * 4 + 1 * (j 1).val = (j 1).val by rw [e1]; omega)
  have q2 : (((cfg0.win 3).blk t).view.emb j) 2 = row (htOf t) (j 2) :=
    Fin.ext (show win0_3.index t 2 * 128 + 1 * (j 2).val = (htOf t).val * 128 + (j 2).val by rw [e2]; omega)
  have q3 : (((cfg0.win 3).blk t).view.emb j) 3 = j 3 :=
    Fin.ext (show win0_3.index t 3 * 1024 + 1 * (j 3).val = (j 3).val by rw [e3]; omega)
  show _ = wv (floA m c) ((((cfg0.win 3).blk t).view.emb j) 1) ((((cfg0.win 3).blk t).view.emb j) 0) ((((cfg0.win 3).blk t).view.emb j) 2) ((((cfg0.win 3).blk t).view.emb j) 3)
  rw [q0, q1, q2, q3]

/-- An index of the array lies in point `t`'s block iff each coordinate lies in the block's range on its axis. -/
theorem mem_blk3 (t : Fin cfg0.N) (i : SCorn.Idx) :
    i ∈ ((cfg0.win 3).blk t).view.set ↔ ∀ a : Fin 4, win0_3.index t a * S1x4x128x1024.size a ≤ (i a).val ∧ (i a).val < win0_3.index t a * S1x4x128x1024.size a + S1x4x128x1024.size a := by
  show i ∈ ((View.whole main_v0_1).slice (win0_3.rect t)).set ↔ _
  rw [View.set_slice_whole, Rect.mem_set_unit]
  exact Iff.rfl

/-- Every index of the array lies in the block of the point (batch entry, row / 128). -/
theorem covered3 (i : SCorn.Idx) :
    ∃ t : Fin cfg0.N, (cfg0.win 3).flush t = true ∧ i ∈ ((cfg0.win 3).blk t).view.set := by
  have h0 : (i 0).val < 8 := (i 0).isLt
  have h1 : (i 1).val < 4 := (i 1).isLt
  have h2 : (i 2).val < 512 := (i 2).isLt
  have h3 : (i 3).val < 1024 := (i 3).isLt
  obtain ⟨t, c0, c1⟩ := coords_onto ⟨(i 0).val, h0⟩ ⟨(i 2).val / 128, by omega⟩
  have c0' : (grid0.coords t 0).val = (i 0).val := c0
  have c1' : (grid0.coords t 1).val = (i 2).val / 128 := c1
  obtain ⟨-, -, -, ⟨e0, e1, e2, e3⟩, -⟩ := idx_facts t
  refine ⟨t, flush0_3 t, ?_⟩
  rw [mem_blk3]
  intro a
  match a with
  | ⟨0, _⟩ => show win0_3.index t 0 * 1 ≤ (i 0).val ∧ (i 0).val < win0_3.index t 0 * 1 + 1; omega
  | ⟨1, _⟩ => show win0_3.index t 1 * 4 ≤ (i 1).val ∧ (i 1).val < win0_3.index t 1 * 4 + 4; omega
  | ⟨2, _⟩ => show win0_3.index t 2 * 128 ≤ (i 2).val ∧ (i 2).val < win0_3.index t 2 * 128 + 128; omega
  | ⟨3, _⟩ => show win0_3.index t 3 * 1024 ≤ (i 3).val ∧ (i 3).val < win0_3.index t 3 * 1024 + 1024; omega

/-- THE MASKED WEIGHTS: after the run the second result array holds, at `(n, k, h, w)`, corner `k`'s masked weight at
    pixel `(n, h, w)` of the launched flow. -/
theorem final3 (c : Dev nD) : (dats m 0 c).arrAt 3 cfg0.N = (wtsArr (floA m c) : SCorn.Idx → EReal) :=
  (dats m 0 c).arrAt_eq_of_cover 3 (wtsArr (floA m c) : SCorn.Idx → EReal) (fun t _ => flushed3_eq m c t) covered3

/-- What point `t` writes back of window 4 is block `t` of the array-wide function. -/
theorem flushed4_eq (c : Dev nD) (t : Fin cfg0.N) :
    (dats m 0 c).flushed 4 t = ((cfg0.win 4).blk t).view.read (Elt Ideal) ((idsArr (floA m c) : SCorn.Idx → BitVec 32)) := by
  show (cfg0.win 4).cut (grid0.coords t) ((dats m 0 c).after 4 t) = _
  rw [after_4]
  obtain ⟨-, -, -, -, ⟨e0, e1, e2, e3⟩⟩ := idx_facts t
  have hn : (nOf t).val = (grid0.coords t 0).val := rfl
  have hh : (htOf t).val = (grid0.coords t 1).val := rfl
  funext j
  show out4 (grid0.coords t) (iblk m c 0 t) (iblk m c 1 t) j = ((idsArr (floA m c) : SCorn.Idx → BitVec 32)) (((cfg0.win 4).blk t).view.emb j)
  rw [out4_apply (floA m c) (nOf t) (htOf t) (grid0.coords t) _ _ rfl rfl (floY_at m c t) (floX_at m c t) j]
  have hj0 : (j 0).val < 1 := (j 0).isLt
  have q0 : (((cfg0.win 4).blk t).view.emb j) 0 = nOf t :=
    Fin.ext (show win0_4.index t 0 * 1 + 1 * (j 0).val = (nOf t).val by rw [e0]; omega)
  have q1 : (((cfg0.win 4).blk t).view.emb j) 1 = j 1 :=
    Fin.ext (show win0_4.index t 1 * 4 + 1 * (j 1).val = (j 1).val by rw [e1]; omega)
  have q2 : (((cfg0.win 4).blk t).view.emb j) 2 = row (htOf t) (j 2) :=
    Fin.ext (show win0_4.index t 2 * 128 + 1 * (j 2).val = (htOf t).val * 128 + (j 2).val by rw [e2]; omega)
  have q3 : (((cfg0.win 4).blk t).view.emb j) 3 = j 3 :=
    Fin.ext (show win0_4.index t 3 * 1024 + 1 * (j 3).val = (j 3).val by rw [e3]; omega)
  show _ = tid (floA m c) ((((cfg0.win 4).blk t).view.emb j) 1) ((((cfg0.win 4).blk t).view.emb j) 0) ((((cfg0.win 4).blk t).view.emb j) 2) ((((cfg0.win 4).blk t).view.emb j) 3)
  rw [q0, q1, q2, q3]

/-- An index of the array lies in point `t`'s block iff each coordinate lies in the block's range on its axis. -/
theorem mem_blk4 (t : Fin cfg0.N) (i : SCorn.Idx) :
    i ∈ ((cfg0.win 4).blk t).view.set ↔ ∀ a : Fin 4, win0_4.index t a * S1x4x128x1024.size a ≤ (i a).val ∧ (i a).val < win0_4.index t a * S1x4x128x1024.size a + S1x4x128x1024.size a := by
  show i ∈ ((View.whole main_v0_2).slice (win0_4.rect t)).set ↔ _
  rw [View.set_slice_whole, Rect.mem_set_unit]
  exact Iff.rfl

/-- Every index of the array lies in the block of the point (batch entry, row / 128). -/
theorem covered4 (i : SCorn.Idx) :
    ∃ t : Fin cfg0.N, (cfg0.win 4).flush t = true ∧ i ∈ ((cfg0.win 4).blk t).view.set := by
  have h0 : (i 0).val < 8 := (i 0).isLt
  have h1 : (i 1).val < 4 := (i 1).isLt
  have h2 : (i 2).val < 512 := (i 2).isLt
  have h3 : (i 3).val < 1024 := (i 3).isLt
  obtain ⟨t, c0, c1⟩ := coords_onto ⟨(i 0).val, h0⟩ ⟨(i 2).val / 128, by omega⟩
  have c0' : (grid0.coords t 0).val = (i 0).val := c0
  have c1' : (grid0.coords t 1).val = (i 2).val / 128 := c1
  obtain ⟨-, -, -, -, ⟨e0, e1, e2, e3⟩⟩ := idx_facts t
  refine ⟨t, flush0_4 t, ?_⟩
  rw [mem_blk4]
  intro a
  match a with
  | ⟨0, _⟩ => show win0_4.index t 0 * 1 ≤ (i 0).val ∧ (i 0).val < win0_4.index t 0 * 1 + 1; omega
  | ⟨1, _⟩ => show win0_4.index t 1 * 4 ≤ (i 1).val ∧ (i 1).val < win0_4.index t 1 * 4 + 4; omega
  | ⟨2, _⟩ => show win0_4.index t 2 * 128 ≤ (i 2).val ∧ (i 2).val < win0_4.index t 2 * 128 + 128; omega
  | ⟨3, _⟩ => show win0_4.index t 3 * 1024 ≤ (i 3).val ∧ (i 3).val < win0_4.index t 3 * 1024 + 1024; omega

/-- THE TARGET WORDS: after the run the third result array holds, at `(n, k, h, w)`, corner `k`'s flat target word at
    pixel `(n, h, w)`. -/
theorem final4 (c : Dev nD) : (dats m 0 c).arrAt 4 cfg0.N = (idsArr (floA m c) : SCorn.Idx → BitVec 32) :=
  (dats m 0 c).arrAt_eq_of_cover 4 (idsArr (floA m c) : SCorn.Idx → BitVec 32) (fun t _ => flushed4_eq m c t) covered4

/-- What point `t` writes back of window 2 is block `t` of the array-wide function. -/
theorem flushed2_eq (c : Dev nD) (t : Fin cfg0.N) :
    (dats m 0 c).flushed 2 t = ((cfg0.win 2).blk t).view.read (Elt Ideal) ((valsArr (floA m c) (imgA m c) : SVals.Idx → EReal)) := by
  show (cfg0.win 2).cut (grid0.coords t) ((dats m 0 c).after 2 t) = _
  rw [after_2]
  obtain ⟨-, -, ⟨e0, e1, e2, e3⟩, -, -⟩ := idx_facts t
  have hn : (nOf t).val = (grid0.coords t 0).val := rfl
  have hh : (htOf t).val = (grid0.coords t 1).val := rfl
  funext j
  show out2 (grid0.coords t) (iblk m c 0 t) (iblk m c 1 t) j = ((valsArr (floA m c) (imgA m c) : SVals.Idx → EReal)) (((cfg0.win 2).blk t).view.emb j)
  rw [out2_apply (floA m c) (imgA m c) (nOf t) (htOf t) (grid0.coords t) _ _ rfl rfl (floY_at m c t) (floX_at m c t) (imgLd_at m c t) j]
  have hj0 : (j 0).val < 1 := (j 0).isLt
  have q0 : (((cfg0.win 2).blk t).view.emb j) 0 = nOf t :=
    Fin.ext (show win0_2.index t 0 * 1 + 1 * (j 0).val = (nOf t).val by rw [e0]; omega)
  have q1 : (((cfg0.win 2).blk t).view.emb j) 1 = j 1 :=
    Fin.ext (show win0_2.index t 1 * 12 + 1 * (j 1).val = (j 1).val by rw [e1]; omega)
  have q2 : (((cfg0.win 2).blk t).view.emb j) 2 = row (htOf t) (j 2) :=
    Fin.ext (show win0_2.index t 2 * 128 + 1 * (j 2).val = (htOf t).val * 128 + (j 2).val by rw [e2]; omega)
  have q3 : (((cfg0.win 2).blk t).view.emb j) 3 = j 3 :=
    Fin.ext (show win0_2.index t 3 * 1024 + 1 * (j 3).val = (j 3).val by rw [e3]; omega)
  show _ = cv (floA m c) (imgA m c) (chCorner ((((cfg0.win 2).blk t).view.emb j) 1)) ((((cfg0.win 2).blk t).view.emb j) 0) (chChan ((((cfg0.win 2).blk t).view.emb j) 1)) ((((cfg0.win 2).blk t).view.emb j) 2) ((((cfg0.win 2).blk t).view.emb j) 3)
  rw [q0, q1, q2, q3]

/-- An index of the array lies in point `t`'s block iff each coordinate lies in the block's range on its axis. -/
theorem mem_blk2 (t : Fin cfg0.N) (i : SVals.Idx) :
    i ∈ ((cfg0.win 2).blk t).view.set ↔ ∀ a : Fin 4, win0_2.index t a * S1x12x128x1024.size a ≤ (i a).val ∧ (i a).val < win0_2.index t a * S1x12x128x1024.size a + S1x12x128x1024.size a := by
  show i ∈ ((View.whole main_v0_0).slice (win0_2.rect t)).set ↔ _
  rw [View.set_slice_whole, Rect.mem_set_unit]
  exact Iff.rfl

/-- Every index of the array lies in the block of the point (batch entry, row / 128). -/
theorem covered2 (i : SVals.Idx) :
    ∃ t : Fin cfg0.N, (cfg0.win 2).flush t = true ∧ i ∈ ((cfg0.win 2).blk t).view.set := by
  have h0 : (i 0).val < 8 := (i 0).isLt
  have h1 : (i 1).val < 12 := (i 1).isLt
  have h2 : (i 2).val < 512 := (i 2).isLt
  have h3 : (i 3).val < 1024 := (i 3).isLt
  obtain ⟨t, c0, c1⟩ := coords_onto ⟨(i 0).val, h0⟩ ⟨(i 2).val / 128, by omega⟩
  have c0' : (grid0.coords t 0).val = (i 0).val := c0
  have c1' : (grid0.coords t 1).val = (i 2).val / 128 := c1
  obtain ⟨-, -, ⟨e0, e1, e2, e3⟩, -, -⟩ := idx_facts t
  refine ⟨t, flush0_2 t, ?_⟩
  rw [mem_blk2]
  intro a
  match a with
  | ⟨0, _⟩ => show win0_2.index t 0 * 1 ≤ (i 0).val ∧ (i 0).val < win0_2.index t 0 * 1 + 1; omega
  | ⟨1, _⟩ => show win0_2.index t 1 * 12 ≤ (i 1).val ∧ (i 1).val < win0_2.index t 1 * 12 + 12; omega
  | ⟨2, _⟩ => show win0_2.index t 2 * 128 ≤ (i 2).val ∧ (i 2).val < win0_2.index t 2 * 128 + 128; omega
  | ⟨3, _⟩ => show win0_2.index t 3 * 1024 ≤ (i 3).val ∧ (i 3).val < win0_2.index t 3 * 1024 + 1024; omega

/-- THE WEIGHTED COLOURS: after the run the first result array holds, at `(n, 3k + ch, h, w)`, colour `ch` of pixel
    `(n, h, w)` of the launched image times corner `k`'s masked weight there. -/
theorem final2 (c : Dev nD) : (dats m 0 c).arrAt 2 cfg0.N = (valsArr (floA m c) (imgA m c) : SVals.Idx → EReal) :=
  (dats m 0 c).arrAt_eq_of_cover 2 (valsArr (floA m c) (imgA m c) : SVals.Idx → EReal) (fun t _ => flushed2_eq m c t) covered2

end Cert.KernelIdeal.Arr

end
-- ==== Proof.KernelValue.lean ====
/-
  The idealized kernel's run, read: after the region and the host lines that follow it, the two results are the
  warped image and the normaliser as functions of the image and the flow, and the two arguments are as launched.
-/
import proofs.«178573_j6485400617539_2_alg».proof.Proof.KernelTailRun
import proofs.«178573_j6485400617539_2_alg».proof.Proof.KernelArrays

noncomputable section

namespace Cert.KernelValue

open Cert.KernelIdeal Cert.KernelIdeal.Gen Cert.KernelIdeal.Fr Cert.KernelIdeal.Arr Cert.KernelTail Cert.Splat
open Idealize.ShloMosaic Idealize.SL.Sem Idealize.ShloMosaic.TcCoe

variable (m : (ℓ : Loc nD τ sig) → Buf (Elt Ideal) ℓ) (ρ : Dev nD → PrngReg)

/-- The warped image on core `c`, from the launch contents. -/
abbrev imgw (c : Dev nD) : Buf (Elt Ideal) ((c.tc : Thread nD τ).loc main_v51) :=
  cTerm (valsArr (floA m c) (imgA m c)) (idsArr (floA m c))
/-- The normaliser on core `c`, from the launch contents. -/
abbrev norm (c : Dev nD) : Buf (Elt Ideal) ((c.tc : Thread nD τ).loc main_v53) :=
  oTerm (wtsArr (floA m c)) (idsArr (floA m c))

theorem run : θ_run (defs (F := Ideal)) (onTc (τ := τ) (main (F := Ideal))) ⟨m, fun _ => 0, ρ⟩ (fun r => ∀ c : Dev nD,
      r.2.mem ((c.tc : Thread nD τ).loc main_v51) = imgw m c
      ∧ r.2.mem ((c.tc : Thread nD τ).loc main_v53) = norm m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v51 (Pipeline.mem_restRefs_of main_v51 (by decide) (by decide))).trans
        ((res_c m c).trans (by rw [final2, final4])),
      ((h c).2 main_v53 (Pipeline.mem_restRefs_of main_v53 (by decide) (by decide))).trans
        ((res_o m c).trans (by rw [final3, final4])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelValue

end
-- ==== Proof.RefSide.lean ====
/-
  The reference program read at an index.  First its per-corner arrays before the scatters, at one pixel: each is the
  specification's per-pixel quantity.  Then the scatters' index columns and updates, position by position.  Last the
  two results at one entry: each of the eight scatters is a sum over the pixels whose normalised target word is the
  entry's flat position, and a result adds its four corners' sums.
-/
import proofs.«178573_j6485400617539_2_alg».proof.Proof.RefReadP
import proofs.«178573_j6485400617539_2_alg».proof.Proof.Spec
import proofs.«178573_j6485400617539_2_alg».proof.Proof.LibScatterAdd
import proofs.«178573_j6485400617539_2_alg».proof.Proof.Sums

noncomputable section

namespace Cert.RefSide

open Cert.ReferenceIdeal Cert.ReferenceIdeal.ReadP Cert.Splat Idealize.ShloMosaic Idealize.ShloMosaic.ValueIdx
  Cert.ReferenceIdeal.Gen Cert.LibScatterAdd
open scoped BigOperators

section
variable (flo : SFlo.Idx → EReal)

/-- The second plane of the flow at one pixel: the offset x. -/
theorem x_at (n : Fin 8) (h : Fin 512) (w : Fin 1024) :
    val_main_v3 (F := Ideal) flo (ix3 n h w) = xv flo n h w := by
  rw [val_main_v3_apply, val_main_v2_apply]
  unfold xv
  congr 1
  funext a
  have hn := n.isLt; have hh := h.isLt; have hw := w.isLt
  match a with
  | ⟨0, _⟩ => exact Fin.ext (by show ((n.val * 512 + h.val) * 1024 + w.val) / 524288 = n.val; omega)
  | ⟨1, _⟩ => rfl
  | ⟨2, _⟩ => exact Fin.ext (by show ((n.val * 512 + h.val) * 1024 + w.val) / 1024 % 512 = h.val; omega)
  | ⟨3, _⟩ => exact Fin.ext (by show ((n.val * 512 + h.val) * 1024 + w.val) % 1024 = w.val; omega)

/-- The first plane of the flow at one pixel: the offset y. -/
theorem y_at (n : Fin 8) (h : Fin 512) (w : Fin 1024) :
    val_main_v1 (F := Ideal) flo (ix3 n h w) = yv flo n h w := by
  rw [val_main_v1_apply, val_main_v0_apply]
  unfold yv
  congr 1
  funext a
  have hn := n.isLt; have hh := h.isLt; have hw := w.isLt
  match a with
  | ⟨0, _⟩ => exact Fin.ext (by show ((n.val * 512 + h.val) * 1024 + w.val) / 524288 = n.val; omega)
  | ⟨1, _⟩ => rfl
  | ⟨2, _⟩ => exact Fin.ext (by show ((n.val * 512 + h.val) * 1024 + w.val) / 1024 % 512 = h.val; omega)
  | ⟨3, _⟩ => exact Fin.ext (by show ((n.val * 512 + h.val) * 1024 + w.val) % 1024 = w.val; omega)

/-- The floor of x at one pixel. -/
theorem fx_at (n : Fin 8) (h : Fin 512) (w : Fin 1024) :
    val_main_v4 (F := Ideal) flo (ix3 n h w) = fl (xv flo n h w) := by
  rw [val_main_v4_apply, x_at]; rfl

/-- The floor of x, plus one, at one pixel. -/
theorem fx1_at (n : Fin 8) (h : Fin 512) (w : Fin 1024) :
    val_main_v6 (F := Ideal) flo (ix3 n h w) = fl (xv flo n h w) + one := by
  rw [val_main_v6_apply, fx_at, val_main_v5_apply, val_main_cst_apply]; rfl

/-- The floor of y at one pixel. -/
theorem fy_at (n : Fin 8) (h : Fin 512) (w : Fin 1024) :
    val_main_v7 (F := Ideal) flo (ix3 n h w) = fl (yv flo n h w) := by
  rw [val_main_v7_apply, y_at]; rfl

/-- The floor of y, plus one, at one pixel. -/
theorem fy1_at (n : Fin 8) (h : Fin 512) (w : Fin 1024) :
    val_main_v9 (F := Ideal) flo (ix3 n h w) = fl (yv flo n h w) + one := by
  rw [val_main_v9_apply, fy_at, val_main_v8_apply, val_main_cst_0_apply]; rfl

/-- The four squared distances at one pixel. -/
theorem dx1_at (n : Fin 8) (h : Fin 512) (w : Fin 1024) :
    val_main_v11 (F := Ideal) flo (ix3 n h w)
      = (xv flo n h w - fl (xv flo n h w)) * (xv flo n h w - fl (xv flo n h w)) := by
  rw [val_main_v11_apply, val_main_v10_apply, x_at, fx_at]; rfl
theorem dx2_at (n : Fin 8) (h : Fin 512) (w : Fin 1024) :
    val_main_v13 (F := Ideal) flo (ix3 n h w)
      = (xv flo n h w - (fl (xv flo n h w) + one)) * (xv flo n h w - (fl (xv flo n h w) + one)) := by
  rw [val_main_v13_apply, val_main_v12_apply, x_at, fx1_at]; rfl
theorem dy1_at (n : Fin 8) (h : Fin 512) (w : Fin 1024) :
    val_main_v15 (F := Ideal) flo (ix3 n h w)
      = (yv flo n h w - fl (yv flo n h w)) * (yv flo n h w - fl (yv flo n h w)) := by
  rw [val_main_v15_apply, val_main_v14_apply, y_at, fy_at]; rfl
theorem dy2_at (n : Fin 8) (h : Fin 512) (w : Fin 1024) :
    val_main_v17 (F := Ideal) flo (ix3 n h w)
      = (yv flo n h w - (fl (yv flo n h w) + one)) * (yv flo n h w - (fl (yv flo n h w) + one)) := by
  rw [val_main_v17_apply, val_main_v16_apply, y_at, fy1_at]; rfl

/-- The four Gaussian weights at one pixel. -/
theorem w0_at (n : Fin 8) (h : Fin 512) (w : Fin 1024) :
    val_main_v20 (F := Ideal) flo (ix3 n h w) = wt flo 0 n h w := by
  rw [val_main_v20_apply, val_main_v19_apply, val_main_v18_apply, dx1_at, dy1_at]; rfl
theorem w1_at (n : Fin 8) (h : Fin 512) (w : Fin 1024) :
    val_main_v23 (F := Ideal) flo (ix3 n h w) = wt flo 1 n h w := by
  rw [val_main_v23_apply, val_main_v22_apply, val_main_v21_apply, dx1_at, dy2_at]; rfl
theorem w2_at (n : Fin 8) (h : Fin 512) (w : Fin 1024) :
    val_main_v26 (F := Ideal) flo (ix3 n h w) = wt flo 2 n h w := by
  rw [val_main_v26_apply, val_main_v25_apply, val_main_v24_apply, dx2_at, dy1_at]; rfl
theorem w3_at (n : Fin 8) (h : Fin 512) (w : Fin 1024) :
    val_main_v29 (F := Ideal) flo (ix3 n h w) = wt flo 3 n h w := by
  rw [val_main_v29_apply, val_main_v28_apply, val_main_v27_apply, dx2_at, dy2_at]; rfl

end

/-! ## Corner 0 -/

section
variable (flo : SFlo.Idx → EReal)

/-- The pixel's row as a word, broadcast over the batch and the columns. -/
theorem rowI0_at (n : Fin 8) (h : Fin 512) (w : Fin 1024) :
    val_main_v36 (F := Ideal) (ix3 n h w) = BitVec.ofNat 32 h.val := by
  rw [val_main_v36_apply, val_main_v31_apply, val_main_v30_apply]

/-- The pixel's column as a word, broadcast over the batch and the rows. -/
theorem colI0_at (n : Fin 8) (h : Fin 512) (w : Fin 1024) :
    val_main_v39 (F := Ideal) (ix3 n h w) = BitVec.ofNat 32 w.val := by
  rw [val_main_v39_apply, val_main_v33_apply, val_main_v32_apply]

/-- The target row word of corner 0. -/
theorem row0_at (n : Fin 8) (h : Fin 512) (w : Fin 1024) :
    val_main_v37 (F := Ideal) flo (ix3 n h w) = rowW flo 0 n h w := by
  rw [val_main_v37_apply, val_main_v35_apply, fx_at, rowI0_at]; rfl

/-- The target column word of corner 0. -/
theorem col0_at (n : Fin 8) (h : Fin 512) (w : Fin 1024) :
    val_main_v40 (F := Ideal) flo (ix3 n h w) = colW flo 0 n h w := by
  rw [val_main_v40_apply, val_main_v38_apply, fy_at, colI0_at]; rfl

/-- The mask of corner 0: the target is inside the image. -/
theorem inside0_at (n : Fin 8) (h : Fin 512) (w : Fin 1024) :
    val_main_v51 (F := Ideal) flo (ix3 n h w) = inside flo 0 n h w := by
  rw [val_main_v51_apply, val_main_v48_apply, val_main_v45_apply, val_main_v42_apply, val_main_v44_apply, val_main_v47_apply, val_main_v50_apply,
    val_main_v41_apply, val_main_c_apply, val_main_v43_apply, val_main_c_1_apply, val_main_v46_apply, val_main_c_2_apply, val_main_v49_apply, val_main_c_3_apply,
    row0_at, col0_at]; rfl

/-- The contributed weight of corner 0 at one pixel. -/
theorem wv0_at (n : Fin 8) (h : Fin 512) (w : Fin 1024) :
    val_main_v52 (F := Ideal) flo (ix3 n h w) = wv flo 0 n h w := by
  rw [val_main_v52_apply, inside0_at, w0_at, val_main_call0_v1_apply, val_main_call0_v0_apply, val_main_cst_4_apply]; rfl

/-- The batch entry times 512, broadcast over the rows and the columns. -/
theorem nI0_at (n : Fin 8) (h : Fin 512) (w : Fin 1024) :
    val_main_v59 (F := Ideal) (ix3 n h w) = IntOp.muli (BitVec.ofNat 32 n.val) 512#32 := by
  rw [val_main_v59_apply, val_main_v58_apply, val_main_v56_apply, val_main_v55_apply, val_main_v57_apply, val_main_c_9_apply]

/-- The clamped target row of corner 0. -/
theorem rowC0_at (n : Fin 8) (h : Fin 512) (w : Fin 1024) :
    val_main_v53 (F := Ideal) flo (ix3 n h w) = IntOp.minsi 511#32 (IntOp.maxsi 0#32 (rowW flo 0 n h w)) := by
  rw [val_main_v53_apply, val_main_call1_v4_apply, val_main_call1_v3_apply, val_main_c_6_apply, val_main_call1_v2_apply, val_main_call1_v1_apply, val_main_call1_v0_apply, val_main_c_5_apply,
    row0_at]

/-- The clamped target column of corner 0. -/
theorem colC0_at (n : Fin 8) (h : Fin 512) (w : Fin 1024) :
    val_main_v54 (F := Ideal) flo (ix3 n h w) = IntOp.minsi 1023#32 (IntOp.maxsi 0#32 (colW flo 0 n h w)) := by
  rw [val_main_v54_apply, val_main_call2_v4_apply, val_main_call2_v3_apply, val_main_c_8_apply, val_main_call2_v2_apply, val_main_call2_v1_apply, val_main_call2_v0_apply, val_main_c_7_apply,
    col0_at]

/-- The flat target word of corner 0 at one pixel. -/
theorem tid0_at (n : Fin 8) (h : Fin 512) (w : Fin 1024) :
    val_main_v63 (F := Ideal) flo (ix3 n h w) = tid flo 0 n h w := by
  rw [val_main_v63_apply, val_main_v62_apply, val_main_v60_apply, nI0_at, rowC0_at, colC0_at, val_main_v61_apply, val_main_c_10_apply]; rfl

end

/-- The reference's masked weights of corner 0 are the specification's. -/
theorem ref_wv0 (flo : SFlo.Idx → EReal) : val_main_v52 (F := Ideal) flo = wvArr flo 0 := by
  funext q
  obtain ⟨n, h, w, rfl⟩ : ∃ (n : Fin 8) (h : Fin 512) (w : Fin 1024), q = ix3 n h w := ⟨q 0, q 1, q 2, eq_ix3 q⟩
  exact wv0_at flo n h w

/-- The reference's flat target words of corner 0 are the specification's. -/
theorem ref_tid0 (flo : SFlo.Idx → EReal) : val_main_v63 (F := Ideal) flo = tidArr flo 0 := by
  funext q
  obtain ⟨n, h, w, rfl⟩ : ∃ (n : Fin 8) (h : Fin 512) (w : Fin 1024), q = ix3 n h w := ⟨q 0, q 1, q 2, eq_ix3 q⟩
  exact tid0_at flo n h w

/-- The reference's weighted colours of corner 0, channel last, are the specification's. -/
theorem ref_cv0 (img : SImg.Idx → EReal) (flo : SFlo.Idx → EReal) : val_main_v67 (F := Ideal) img flo = cvArr flo img 0 := by
  funext q
  obtain ⟨n, h, w, c, rfl⟩ : ∃ (n : Fin 8) (h : Fin 512) (w : Fin 1024) (c : Fin 3), q = ix4 n h w c :=
    ⟨q 0, q 1, q 2, q 3, eq_ix4 q⟩
  rw [val_main_v67_apply, val_main_v34_apply, val_main_v66_apply, val_main_v65_apply]
  have hi : idx_main_v65 (idx_main_v66 (ix4 n h w c)) = ix3 n h w := by
    funext a; match a with | ⟨0, _⟩ => rfl | ⟨1, _⟩ => rfl | ⟨2, _⟩ => rfl
  have hj : idx_main_v34 (ix4 n h w c) = ix4 n c h w := by
    funext a; match a with | ⟨0, _⟩ => rfl | ⟨1, _⟩ => rfl | ⟨2, _⟩ => rfl | ⟨3, _⟩ => rfl
  rw [hi, hj, wv0_at]; rfl

/-! ## Corner 1 -/

section
variable (flo : SFlo.Idx → EReal)

/-- The pixel's row as a word, broadcast over the batch and the columns. -/
theorem rowI1_at (n : Fin 8) (h : Fin 512) (w : Fin 1024) :
    val_main_v91 (F := Ideal) (ix3 n h w) = BitVec.ofNat 32 h.val := by
  rw [val_main_v91_apply, val_main_v31_apply, val_main_v30_apply]

/-- The pixel's column as a word, broadcast over the batch and the rows. -/
theorem colI1_at (n : Fin 8) (h : Fin 512) (w : Fin 1024) :
    val_main_v94 (F := Ideal) (ix3 n h w) = BitVec.ofNat 32 w.val := by
  rw [val_main_v94_apply, val_main_v33_apply, val_main_v32_apply]

/-- The target row word of corner 1. -/
theorem row1_at (n : Fin 8) (h : Fin 512) (w : Fin 1024) :
    val_main_v92 (F := Ideal) flo (ix3 n h w) = rowW flo 1 n h w := by
  rw [val_main_v92_apply, val_main_v90_apply, fx_at, rowI1_at]; rfl

/-- The target column word of corner 1. -/
theorem col1_at (n : Fin 8) (h : Fin 512) (w : Fin 1024) :
    val_main_v95 (F := Ideal) flo (ix3 n h w) = colW flo 1 n h w := by
  rw [val_main_v95_apply, val_main_v93_apply, fy1_at, colI1_at]; rfl

/-- The mask of corner 1: the target is inside the image. -/
theorem inside1_at (n : Fin 8) (h : Fin 512) (w : Fin 1024) :
    val_main_v106 (F := Ideal) flo (ix3 n h w) = inside flo 1 n h w := by
  rw [val_main_v106_apply, val_main_v103_apply, val_main_v100_apply, val_main_v97_apply, val_main_v99_apply, val_main_v102_apply, val_main_v105_apply,
    val_main_v96_apply, val_main_c_17_apply, val_main_v98_apply, val_main_c_18_apply, val_main_v101_apply, val_main_c_19_apply, val_main_v104_apply, val_main_c_20_apply,
    row1_at, col1_at]; rfl

/-- The contributed weight of corner 1 at one pixel. -/
theorem wv1_at (n : Fin 8) (h : Fin 512) (w : Fin 1024) :
    val_main_v107 (F := Ideal) flo (ix3 n h w) = wv flo 1 n h w := by
  rw [val_main_v107_apply, inside1_at, w1_at, val_main_call3_v1_apply, val_main_call3_v0_apply, val_main_cst_21_apply]; rfl

/-- The batch entry times 512, broadcast over the rows and the columns. -/
theorem nI1_at (n : Fin 8) (h : Fin 512) (w : Fin 1024) :
    val_main_v114 (F := Ideal) (ix3 n h w) = IntOp.muli (BitVec.ofNat 32 n.val) 512#32 := by
  rw [val_main_v114_apply, val_main_v113_apply, val_main_v111_apply, val_main_v110_apply, val_main_v112_apply, val_main_c_26_apply]

/-- The clamped target row of corner 1. -/
theorem rowC1_at (n : Fin 8) (h : Fin 512) (w : Fin 1024) :
    val_main_v108 (F := Ideal) flo (ix3 n h w) = IntOp.minsi 511#32 (IntOp.maxsi 0#32 (rowW flo 1 n h w)) := by
  rw [val_main_v108_apply, val_main_call4_v4_apply, val_main_call4_v3_apply, val_main_c_23_apply, val_main_call4_v2_apply, val_main_call4_v1_apply, val_main_call4_v0_apply, val_main_c_22_apply,
    row1_at]

/-- The clamped target column of corner 1. -/
theorem colC1_at (n : Fin 8) (h : Fin 512) (w : Fin 1024) :
    val_main_v109 (F := Ideal) flo (ix3 n h w) = IntOp.minsi 1023#32 (IntOp.maxsi 0#32 (colW flo 1 n h w)) := by
  rw [val_main_v109_apply, val_main_call5_v4_apply, val_main_call5_v3_apply, val_main_c_25_apply, val_main_call5_v2_apply, val_main_call5_v1_apply, val_main_call5_v0_apply, val_main_c_24_apply,
    col1_at]

/-- The flat target word of corner 1 at one pixel. -/
theorem tid1_at (n : Fin 8) (h : Fin 512) (w : Fin 1024) :
    val_main_v118 (F := Ideal) flo (ix3 n h w) = tid flo 1 n h w := by
  rw [val_main_v118_apply, val_main_v117_apply, val_main_v115_apply, nI1_at, rowC1_at, colC1_at, val_main_v116_apply, val_main_c_27_apply]; rfl

end

/-- The reference's masked weights of corner 1 are the specification's. -/
theorem ref_wv1 (flo : SFlo.Idx → EReal) : val_main_v107 (F := Ideal) flo = wvArr flo 1 := by
  funext q
  obtain ⟨n, h, w, rfl⟩ : ∃ (n : Fin 8) (h : Fin 512) (w : Fin 1024), q = ix3 n h w := ⟨q 0, q 1, q 2, eq_ix3 q⟩
  exact wv1_at flo n h w

/-- The reference's flat target words of corner 1 are the specification's. -/
theorem ref_tid1 (flo : SFlo.Idx → EReal) : val_main_v118 (F := Ideal) flo = tidArr flo 1 := by
  funext q
  obtain ⟨n, h, w, rfl⟩ : ∃ (n : Fin 8) (h : Fin 512) (w : Fin 1024), q = ix3 n h w := ⟨q 0, q 1, q 2, eq_ix3 q⟩
  exact tid1_at flo n h w

/-- The reference's weighted colours of corner 1, channel last, are the specification's. -/
theorem ref_cv1 (img : SImg.Idx → EReal) (flo : SFlo.Idx → EReal) : val_main_v122 (F := Ideal) img flo = cvArr flo img 1 := by
  funext q
  obtain ⟨n, h, w, c, rfl⟩ : ∃ (n : Fin 8) (h : Fin 512) (w : Fin 1024) (c : Fin 3), q = ix4 n h w c :=
    ⟨q 0, q 1, q 2, q 3, eq_ix4 q⟩
  rw [val_main_v122_apply, val_main_v34_apply, val_main_v121_apply, val_main_v120_apply]
  have hi : idx_main_v120 (idx_main_v121 (ix4 n h w c)) = ix3 n h w := by
    funext a; match a with | ⟨0, _⟩ => rfl | ⟨1, _⟩ => rfl | ⟨2, _⟩ => rfl
  have hj : idx_main_v34 (ix4 n h w c) = ix4 n c h w := by
    funext a; match a with | ⟨0, _⟩ => rfl | ⟨1, _⟩ => rfl | ⟨2, _⟩ => rfl | ⟨3, _⟩ => rfl
  rw [hi, hj, wv1_at]; rfl

/-! ## Corner 2 -/

section
variable (flo : SFlo.Idx → EReal)

/-- The pixel's row as a word, broadcast over the batch and the columns. -/
theorem rowI2_at (n : Fin 8) (h : Fin 512) (w : Fin 1024) :
    val_main_v146 (F := Ideal) (ix3 n h w) = BitVec.ofNat 32 h.val := by
  rw [val_main_v146_apply, val_main_v31_apply, val_main_v30_apply]

/-- The pixel's column as a word, broadcast over the batch and the rows. -/
theorem colI2_at (n : Fin 8) (h : Fin 512) (w : Fin 1024) :
    val_main_v149 (F := Ideal) (ix3 n h w) = BitVec.ofNat 32 w.val := by
  rw [val_main_v149_apply, val_main_v33_apply, val_main_v32_apply]

/-- The target row word of corner 2. -/
theorem row2_at (n : Fin 8) (h : Fin 512) (w : Fin 1024) :
    val_main_v147 (F := Ideal) flo (ix3 n h w) = rowW flo 2 n h w := by
  rw [val_main_v147_apply, val_main_v145_apply, fx1_at, rowI2_at]; rfl

/-- The target column word of corner 2. -/
theorem col2_at (n : Fin 8) (h : Fin 512) (w : Fin 1024) :
    val_main_v150 (F := Ideal) flo (ix3 n h w) = colW flo 2 n h w := by
  rw [val_main_v150_apply, val_main_v148_apply, fy_at, colI2_at]; rfl

/-- The mask of corner 2: the target is inside the image. -/
theorem inside2_at (n : Fin 8) (h : Fin 512) (w : Fin 1024) :
    val_main_v161 (F := Ideal) flo (ix3 n h w) = inside flo 2 n h w := by
  rw [val_main_v161_apply, val_main_v158_apply, val_main_v155_apply, val_main_v152_apply, val_main_v154_apply, val_main_v157_apply, val_main_v160_apply,
    val_main_v151_apply, val_main_c_34_apply, val_main_v153_apply, val_main_c_35_apply, val_main_v156_apply, val_main_c_36_apply, val_main_v159_apply, val_main_c_37_apply,
    row2_at, col2_at]; rfl

/-- The contributed weight of corner 2 at one pixel. -/
theorem wv2_at (n : Fin 8) (h : Fin 512) (w : Fin 1024) :
    val_main_v162 (F := Ideal) flo (ix3 n h w) = wv flo 2 n h w := by
  rw [val_main_v162_apply, inside2_at, w2_at, val_main_call6_v1_apply, val_main_call6_v0_apply, val_main_cst_38_apply]; rfl

/-- The batch entry times 512, broadcast over the rows and the columns. -/
theorem nI2_at (n : Fin 8) (h : Fin 512) (w : Fin 1024) :
    val_main_v169 (F := Ideal) (ix3 n h w) = IntOp.muli (BitVec.ofNat 32 n.val) 512#32 := by
  rw [val_main_v169_apply, val_main_v168_apply, val_main_v166_apply, val_main_v165_apply, val_main_v167_apply, val_main_c_43_apply]

/-- The clamped target row of corner 2. -/
theorem rowC2_at (n : Fin 8) (h : Fin 512) (w : Fin 1024) :
    val_main_v163 (F := Ideal) flo (ix3 n h w) = IntOp.minsi 511#32 (IntOp.maxsi 0#32 (rowW flo 2 n h w)) := by
  rw [val_main_v163_apply, val_main_call7_v4_apply, val_main_call7_v3_apply, val_main_c_40_apply, val_main_call7_v2_apply, val_main_call7_v1_apply, val_main_call7_v0_apply, val_main_c_39_apply,
    row2_at]

/-- The clamped target column of corner 2. -/
theorem colC2_at (n : Fin 8) (h : Fin 512) (w : Fin 1024) :
    val_main_v164 (F := Ideal) flo (ix3 n h w) = IntOp.minsi 1023#32 (IntOp.maxsi 0#32 (colW flo 2 n h w)) := by
  rw [val_main_v164_apply, val_main_call8_v4_apply, val_main_call8_v3_apply, val_main_c_42_apply, val_main_call8_v2_apply, val_main_call8_v1_apply, val_main_call8_v0_apply, val_main_c_41_apply,
    col2_at]

/-- The flat target word of corner 2 at one pixel. -/
theorem tid2_at (n : Fin 8) (h : Fin 512) (w : Fin 1024) :
    val_main_v173 (F := Ideal) flo (ix3 n h w) = tid flo 2 n h w := by
  rw [val_main_v173_apply, val_main_v172_apply, val_main_v170_apply, nI2_at, rowC2_at, colC2_at, val_main_v171_apply, val_main_c_44_apply]; rfl

end

/-- The reference's masked weights of corner 2 are the specification's. -/
theorem ref_wv2 (flo : SFlo.Idx → EReal) : val_main_v162 (F := Ideal) flo = wvArr flo 2 := by
  funext q
  obtain ⟨n, h, w, rfl⟩ : ∃ (n : Fin 8) (h : Fin 512) (w : Fin 1024), q = ix3 n h w := ⟨q 0, q 1, q 2, eq_ix3 q⟩
  exact wv2_at flo n h w

/-- The reference's flat target words of corner 2 are the specification's. -/
theorem ref_tid2 (flo : SFlo.Idx → EReal) : val_main_v173 (F := Ideal) flo = tidArr flo 2 := by
  funext q
  obtain ⟨n, h, w, rfl⟩ : ∃ (n : Fin 8) (h : Fin 512) (w : Fin 1024), q = ix3 n h w := ⟨q 0, q 1, q 2, eq_ix3 q⟩
  exact tid2_at flo n h w

/-- The reference's weighted colours of corner 2, channel last, are the specification's. -/
theorem ref_cv2 (img : SImg.Idx → EReal) (flo : SFlo.Idx → EReal) : val_main_v177 (F := Ideal) img flo = cvArr flo img 2 := by
  funext q
  obtain ⟨n, h, w, c, rfl⟩ : ∃ (n : Fin 8) (h : Fin 512) (w : Fin 1024) (c : Fin 3), q = ix4 n h w c :=
    ⟨q 0, q 1, q 2, q 3, eq_ix4 q⟩
  rw [val_main_v177_apply, val_main_v34_apply, val_main_v176_apply, val_main_v175_apply]
  have hi : idx_main_v175 (idx_main_v176 (ix4 n h w c)) = ix3 n h w := by
    funext a; match a with | ⟨0, _⟩ => rfl | ⟨1, _⟩ => rfl | ⟨2, _⟩ => rfl
  have hj : idx_main_v34 (ix4 n h w c) = ix4 n c h w := by
    funext a; match a with | ⟨0, _⟩ => rfl | ⟨1, _⟩ => rfl | ⟨2, _⟩ => rfl | ⟨3, _⟩ => rfl
  rw [hi, hj, wv2_at]; rfl

/-! ## Corner 3 -/

section
variable (flo : SFlo.Idx → EReal)

/-- The pixel's row as a word, broadcast over the batch and the columns. -/
theorem rowI3_at (n : Fin 8) (h : Fin 512) (w : Fin 1024) :
    val_main_v201 (F := Ideal) (ix3 n h w) = BitVec.ofNat 32 h.val := by
  rw [val_main_v201_apply, val_main_v31_apply, val_main_v30_apply]

/-- The pixel's column as a word, broadcast over the batch and the rows. -/
theorem colI3_at (n : Fin 8) (h : Fin 512) (w : Fin 1024) :
    val_main_v204 (F := Ideal) (ix3 n h w) = BitVec.ofNat 32 w.val := by
  rw [val_main_v204_apply, val_main_v33_apply, val_main_v32_apply]

/-- The target row word of corner 3. -/
theorem row3_at (n : Fin 8) (h : Fin 512) (w : Fin 1024) :
    val_main_v202 (F := Ideal) flo (ix3 n h w) = rowW flo 3 n h w := by
  rw [val_main_v202_apply, val_main_v200_apply, fx1_at, rowI3_at]; rfl

/-- The target column word of corner 3. -/
theorem col3_at (n : Fin 8) (h : Fin 512) (w : Fin 1024) :
    val_main_v205 (F := Ideal) flo (ix3 n h w) = colW flo 3 n h w := by
  rw [val_main_v205_apply, val_main_v203_apply, fy1_at, colI3_at]; rfl

/-- The mask of corner 3: the target is inside the image. -/
theorem inside3_at (n : Fin 8) (h : Fin 512) (w : Fin 1024) :
    val_main_v216 (F := Ideal) flo (ix3 n h w) = inside flo 3 n h w := by
  rw [val_main_v216_apply, val_main_v213_apply, val_main_v210_apply, val_main_v207_apply, val_main_v209_apply, val_main_v212_apply, val_main_v215_apply,
    val_main_v206_apply, val_main_c_51_apply, val_main_v208_apply, val_main_c_52_apply, val_main_v211_apply, val_main_c_53_apply, val_main_v214_apply, val_main_c_54_apply,
    row3_at, col3_at]; rfl

/-- The contributed weight of corner 3 at one pixel. -/
theorem wv3_at (n : Fin 8) (h : Fin 512) (w : Fin 1024) :
    val_main_v217 (F := Ideal) flo (ix3 n h w) = wv flo 3 n h w := by
  rw [val_main_v217_apply, inside3_at, w3_at, val_main_call9_v1_apply, val_main_call9_v0_apply, val_main_cst_55_apply]; rfl

/-- The batch entry times 512, broadcast over the rows and the columns. -/
theorem nI3_at (n : Fin 8) (h : Fin 512) (w : Fin 1024) :
    val_main_v224 (F := Ideal) (ix3 n h w) = IntOp.muli (BitVec.ofNat 32 n.val) 512#32 := by
  rw [val_main_v224_apply, val_main_v223_apply, val_main_v221_apply, val_main_v220_apply, val_main_v222_apply, val_main_c_60_apply]

/-- The clamped target row of corner 3. -/
theorem rowC3_at (n : Fin 8) (h : Fin 512) (w : Fin 1024) :
    val_main_v218 (F := Ideal) flo (ix3 n h w) = IntOp.minsi 511#32 (IntOp.maxsi 0#32 (rowW flo 3 n h w)) := by
  rw [val_main_v218_apply, val_main_call10_v4_apply, val_main_call10_v3_apply, val_main_c_57_apply, val_main_call10_v2_apply, val_main_call10_v1_apply, val_main_call10_v0_apply, val_main_c_56_apply,
    row3_at]

/-- The clamped target column of corner 3. -/
theorem colC3_at (n : Fin 8) (h : Fin 512) (w : Fin 1024) :
    val_main_v219 (F := Ideal) flo (ix3 n h w) = IntOp.minsi 1023#32 (IntOp.maxsi 0#32 (colW flo 3 n h w)) := by
  rw [val_main_v219_apply, val_main_call11_v4_apply, val_main_call11_v3_apply, val_main_c_59_apply, val_main_call11_v2_apply, val_main_call11_v1_apply, val_main_call11_v0_apply, val_main_c_58_apply,
    col3_at]

/-- The flat target word of corner 3 at one pixel. -/
theorem tid3_at (n : Fin 8) (h : Fin 512) (w : Fin 1024) :
    val_main_v228 (F := Ideal) flo (ix3 n h w) = tid flo 3 n h w := by
  rw [val_main_v228_apply, val_main_v227_apply, val_main_v225_apply, nI3_at, rowC3_at, colC3_at, val_main_v226_apply, val_main_c_61_apply]; rfl

end

/-- The reference's masked weights of corner 3 are the specification's. -/
theorem ref_wv3 (flo : SFlo.Idx → EReal) : val_main_v217 (F := Ideal) flo = wvArr flo 3 := by
  funext q
  obtain ⟨n, h, w, rfl⟩ : ∃ (n : Fin 8) (h : Fin 512) (w : Fin 1024), q = ix3 n h w := ⟨q 0, q 1, q 2, eq_ix3 q⟩
  exact wv3_at flo n h w

/-- The reference's flat target words of corner 3 are the specification's. -/
theorem ref_tid3 (flo : SFlo.Idx → EReal) : val_main_v228 (F := Ideal) flo = tidArr flo 3 := by
  funext q
  obtain ⟨n, h, w, rfl⟩ : ∃ (n : Fin 8) (h : Fin 512) (w : Fin 1024), q = ix3 n h w := ⟨q 0, q 1, q 2, eq_ix3 q⟩
  exact tid3_at flo n h w

/-- The reference's weighted colours of corner 3, channel last, are the specification's. -/
theorem ref_cv3 (img : SImg.Idx → EReal) (flo : SFlo.Idx → EReal) : val_main_v232 (F := Ideal) img flo = cvArr flo img 3 := by
  funext q
  obtain ⟨n, h, w, c, rfl⟩ : ∃ (n : Fin 8) (h : Fin 512) (w : Fin 1024) (c : Fin 3), q = ix4 n h w c :=
    ⟨q 0, q 1, q 2, q 3, eq_ix4 q⟩
  rw [val_main_v232_apply, val_main_v34_apply, val_main_v231_apply, val_main_v230_apply]
  have hi : idx_main_v230 (idx_main_v231 (ix4 n h w c)) = ix3 n h w := by
    funext a; match a with | ⟨0, _⟩ => rfl | ⟨1, _⟩ => rfl | ⟨2, _⟩ => rfl
  have hj : idx_main_v34 (ix4 n h w c) = ix4 n c h w := by
    funext a; match a with | ⟨0, _⟩ => rfl | ⟨1, _⟩ => rfl | ⟨2, _⟩ => rfl | ⟨3, _⟩ => rfl
  rw [hi, hj, wv3_at]; rfl

/-! ## The scatters' index columns -/

/-- The pixel whose row-major position among the 8 x 512 x 1024 pixels is j. -/
def pixAt (j : Fin 4194304) : SPix.Idx :=
  ix3 (⟨j.val / 524288, by have := j.isLt; omega⟩ : Fin 8) (⟨j.val / 1024 % 512, by omega⟩ : Fin 512)
    (⟨j.val % 1024, by omega⟩ : Fin 1024)

/-- A signed target word made non-negative the way a scatter normalises its indices: the extent 4194304 is added
    to a negative word. -/
def wrapW (t : BitVec 32) : BitVec 32 :=
  Scalar.select (IntOp.cmpi .slt t 0#32) (IntOp.addi t 4194304#32) t

/-- Pixel j with channel c, the channel last. -/
def pixCAt (j : Fin 4194304) (c : Fin 3) : SPixC.Idx :=
  ix4 (⟨j.val / 524288, by have := j.isLt; omega⟩ : Fin 8) (⟨j.val / 1024 % 512, by omega⟩ : Fin 512)
    (⟨j.val % 1024, by omega⟩ : Fin 1024) c

/-- The index column of corner 0's scatter into the warped image: position j holds the normalised target word of
    pixel j. -/
theorem ref_sidxC0 (flo : SFlo.Idx → EReal) (j : Fin 4194304) (z : Fin 1) :
    val_main_v75 (F := Ideal) flo (ix2 j z) = wrapW (tidArr flo 0 (pixAt j)) := by
  rw [val_main_v75_apply, val_main_v74_apply, val_main_v71_apply, val_main_v73_apply, val_main_v64_apply, val_main_v70_apply, val_main_c_12_apply, val_main_v72_apply, val_main_c_13_apply, ref_tid0]
  have hi : idx_main_v64 (idx_main_v75 (ix2 j z)) = pixAt j := by
    funext a; match a with | ⟨0, _⟩ => rfl | ⟨1, _⟩ => rfl | ⟨2, _⟩ => rfl
  rw [hi]; rfl

/-- The index column of corner 0's scatter into the normaliser: position j holds the normalised target word of
    pixel j. -/
theorem ref_sidxW0 (flo : SFlo.Idx → EReal) (j : Fin 4194304) (z : Fin 1) :
    val_main_v84 (F := Ideal) flo (ix2 j z) = wrapW (tidArr flo 0 (pixAt j)) := by
  rw [val_main_v84_apply, val_main_v83_apply, val_main_v80_apply, val_main_v82_apply, val_main_v64_apply, val_main_v79_apply, val_main_c_15_apply, val_main_v81_apply, val_main_c_16_apply, ref_tid0]
  have hi : idx_main_v64 (idx_main_v84 (ix2 j z)) = pixAt j := by
    funext a; match a with | ⟨0, _⟩ => rfl | ⟨1, _⟩ => rfl | ⟨2, _⟩ => rfl
  rw [hi]; rfl

/-- The updates of corner 0's scatter into the normaliser: position j holds pixel j's contributed weight. -/
theorem ref_updW0 (flo : SFlo.Idx → EReal) (j : Fin 4194304) :
    val_main_v78 (F := Ideal) flo (ix1 j) = wvArr flo 0 (pixAt j) := by
  rw [val_main_v78_apply, ref_wv0]
  have hi : idx_main_v78 (ix1 j) = pixAt j := by
    funext a; match a with | ⟨0, _⟩ => rfl | ⟨1, _⟩ => rfl | ⟨2, _⟩ => rfl
  rw [hi]

/-- The updates of corner 0's scatter into the warped image: row j holds pixel j's weighted colour, channel by
    channel. -/
theorem ref_updC0 (img : SImg.Idx → EReal) (flo : SFlo.Idx → EReal) (j : Fin 4194304) (c : Fin 3) :
    val_main_v68 (F := Ideal) img flo (ix2 j c) = cvArr flo img 0 (pixCAt j c) := by
  rw [val_main_v68_apply, ref_cv0]
  have hi : idx_main_v68 (ix2 j c) = pixCAt j c := by
    have hj := j.isLt; have hc := c.isLt
    funext a
    match a with
    | ⟨0, _⟩ => exact Fin.ext (by show (j.val * 3 + c.val) / 1572864 = j.val / 524288; omega)
    | ⟨1, _⟩ => exact Fin.ext (by show (j.val * 3 + c.val) / 3072 % 512 = j.val / 1024 % 512; omega)
    | ⟨2, _⟩ => exact Fin.ext (by show (j.val * 3 + c.val) / 3 % 1024 = j.val % 1024; omega)
    | ⟨3, _⟩ => exact Fin.ext (by show (j.val * 3 + c.val) % 3 = c.val; omega)
  rw [hi]

/-- The index column of corner 1's scatter into the warped image: position j holds the normalised target word of
    pixel j. -/
theorem ref_sidxC1 (flo : SFlo.Idx → EReal) (j : Fin 4194304) (z : Fin 1) :
    val_main_v130 (F := Ideal) flo (ix2 j z) = wrapW (tidArr flo 1 (pixAt j)) := by
  rw [val_main_v130_apply, val_main_v129_apply, val_main_v126_apply, val_main_v128_apply, val_main_v119_apply, val_main_v125_apply, val_main_c_29_apply, val_main_v127_apply, val_main_c_30_apply, ref_tid1]
  have hi : idx_main_v119 (idx_main_v130 (ix2 j z)) = pixAt j := by
    funext a; match a with | ⟨0, _⟩ => rfl | ⟨1, _⟩ => rfl | ⟨2, _⟩ => rfl
  rw [hi]; rfl

/-- The index column of corner 1's scatter into the normaliser: position j holds the normalised target word of
    pixel j. -/
theorem ref_sidxW1 (flo : SFlo.Idx → EReal) (j : Fin 4194304) (z : Fin 1) :
    val_main_v139 (F := Ideal) flo (ix2 j z) = wrapW (tidArr flo 1 (pixAt j)) := by
  rw [val_main_v139_apply, val_main_v138_apply, val_main_v135_apply, val_main_v137_apply, val_main_v119_apply, val_main_v134_apply, val_main_c_32_apply, val_main_v136_apply, val_main_c_33_apply, ref_tid1]
  have hi : idx_main_v119 (idx_main_v139 (ix2 j z)) = pixAt j := by
    funext a; match a with | ⟨0, _⟩ => rfl | ⟨1, _⟩ => rfl | ⟨2, _⟩ => rfl
  rw [hi]; rfl

/-- The updates of corner 1's scatter into the normaliser: position j holds pixel j's contributed weight. -/
theorem ref_updW1 (flo : SFlo.Idx → EReal) (j : Fin 4194304) :
    val_main_v133 (F := Ideal) flo (ix1 j) = wvArr flo 1 (pixAt j) := by
  rw [val_main_v133_apply, ref_wv1]
  have hi : idx_main_v133 (ix1 j) = pixAt j := by
    funext a; match a with | ⟨0, _⟩ => rfl | ⟨1, _⟩ => rfl | ⟨2, _⟩ => rfl
  rw [hi]

/-- The updates of corner 1's scatter into the warped image: row j holds pixel j's weighted colour, channel by
    channel. -/
theorem ref_updC1 (img : SImg.Idx → EReal) (flo : SFlo.Idx → EReal) (j : Fin 4194304) (c : Fin 3) :
    val_main_v123 (F := Ideal) img flo (ix2 j c) = cvArr flo img 1 (pixCAt j c) := by
  rw [val_main_v123_apply, ref_cv1]
  have hi : idx_main_v123 (ix2 j c) = pixCAt j c := by
    have hj := j.isLt; have hc := c.isLt
    funext a
    match a with
    | ⟨0, _⟩ => exact Fin.ext (by show (j.val * 3 + c.val) / 1572864 = j.val / 524288; omega)
    | ⟨1, _⟩ => exact Fin.ext (by show (j.val * 3 + c.val) / 3072 % 512 = j.val / 1024 % 512; omega)
    | ⟨2, _⟩ => exact Fin.ext (by show (j.val * 3 + c.val) / 3 % 1024 = j.val % 1024; omega)
    | ⟨3, _⟩ => exact Fin.ext (by show (j.val * 3 + c.val) % 3 = c.val; omega)
  rw [hi]

/-- The index column of corner 2's scatter into the warped image: position j holds the normalised target word of
    pixel j. -/
theorem ref_sidxC2 (flo : SFlo.Idx → EReal) (j : Fin 4194304) (z : Fin 1) :
    val_main_v185 (F := Ideal) flo (ix2 j z) = wrapW (tidArr flo 2 (pixAt j)) := by
  rw [val_main_v185_apply, val_main_v184_apply, val_main_v181_apply, val_main_v183_apply, val_main_v174_apply, val_main_v180_apply, val_main_c_46_apply, val_main_v182_apply, val_main_c_47_apply, ref_tid2]
  have hi : idx_main_v174 (idx_main_v185 (ix2 j z)) = pixAt j := by
    funext a; match a with | ⟨0, _⟩ => rfl | ⟨1, _⟩ => rfl | ⟨2, _⟩ => rfl
  rw [hi]; rfl

/-- The index column of corner 2's scatter into the normaliser: position j holds the normalised target word of
    pixel j. -/
theorem ref_sidxW2 (flo : SFlo.Idx → EReal) (j : Fin 4194304) (z : Fin 1) :
    val_main_v194 (F := Ideal) flo (ix2 j z) = wrapW (tidArr flo 2 (pixAt j)) := by
  rw [val_main_v194_apply, val_main_v193_apply, val_main_v190_apply, val_main_v192_apply, val_main_v174_apply, val_main_v189_apply, val_main_c_49_apply, val_main_v191_apply, val_main_c_50_apply, ref_tid2]
  have hi : idx_main_v174 (idx_main_v194 (ix2 j z)) = pixAt j := by
    funext a; match a with | ⟨0, _⟩ => rfl | ⟨1, _⟩ => rfl | ⟨2, _⟩ => rfl
  rw [hi]; rfl

/-- The updates of corner 2's scatter into the normaliser: position j holds pixel j's contributed weight. -/
theorem ref_updW2 (flo : SFlo.Idx → EReal) (j : Fin 4194304) :
    val_main_v188 (F := Ideal) flo (ix1 j) = wvArr flo 2 (pixAt j) := by
  rw [val_main_v188_apply, ref_wv2]
  have hi : idx_main_v188 (ix1 j) = pixAt j := by
    funext a; match a with | ⟨0, _⟩ => rfl | ⟨1, _⟩ => rfl | ⟨2, _⟩ => rfl
  rw [hi]

/-- The updates of corner 2's scatter into the warped image: row j holds pixel j's weighted colour, channel by
    channel. -/
theorem ref_updC2 (img : SImg.Idx → EReal) (flo : SFlo.Idx → EReal) (j : Fin 4194304) (c : Fin 3) :
    val_main_v178 (F := Ideal) img flo (ix2 j c) = cvArr flo img 2 (pixCAt j c) := by
  rw [val_main_v178_apply, ref_cv2]
  have hi : idx_main_v178 (ix2 j c) = pixCAt j c := by
    have hj := j.isLt; have hc := c.isLt
    funext a
    match a with
    | ⟨0, _⟩ => exact Fin.ext (by show (j.val * 3 + c.val) / 1572864 = j.val / 524288; omega)
    | ⟨1, _⟩ => exact Fin.ext (by show (j.val * 3 + c.val) / 3072 % 512 = j.val / 1024 % 512; omega)
    | ⟨2, _⟩ => exact Fin.ext (by show (j.val * 3 + c.val) / 3 % 1024 = j.val % 1024; omega)
    | ⟨3, _⟩ => exact Fin.ext (by show (j.val * 3 + c.val) % 3 = c.val; omega)
  rw [hi]

/-- The index column of corner 3's scatter into the warped image: position j holds the normalised target word of
    pixel j. -/
theorem ref_sidxC3 (flo : SFlo.Idx → EReal) (j : Fin 4194304) (z : Fin 1) :
    val_main_v240 (F := Ideal) flo (ix2 j z) = wrapW (tidArr flo 3 (pixAt j)) := by
  rw [val_main_v240_apply, val_main_v239_apply, val_main_v236_apply, val_main_v238_apply, val_main_v229_apply, val_main_v235_apply, val_main_c_63_apply, val_main_v237_apply, val_main_c_64_apply, ref_tid3]
  have hi : idx_main_v229 (idx_main_v240 (ix2 j z)) = pixAt j := by
    funext a; match a with | ⟨0, _⟩ => rfl | ⟨1, _⟩ => rfl | ⟨2, _⟩ => rfl
  rw [hi]; rfl

/-- The index column of corner 3's scatter into the normaliser: position j holds the normalised target word of
    pixel j. -/
theorem ref_sidxW3 (flo : SFlo.Idx → EReal) (j : Fin 4194304) (z : Fin 1) :
    val_main_v249 (F := Ideal) flo (ix2 j z) = wrapW (tidArr flo 3 (pixAt j)) := by
  rw [val_main_v249_apply, val_main_v248_apply, val_main_v245_apply, val_main_v247_apply, val_main_v229_apply, val_main_v244_apply, val_main_c_66_apply, val_main_v246_apply, val_main_c_67_apply, ref_tid3]
  have hi : idx_main_v229 (idx_main_v249 (ix2 j z)) = pixAt j := by
    funext a; match a with | ⟨0, _⟩ => rfl | ⟨1, _⟩ => rfl | ⟨2, _⟩ => rfl
  rw [hi]; rfl

/-- The updates of corner 3's scatter into the normaliser: position j holds pixel j's contributed weight. -/
theorem ref_updW3 (flo : SFlo.Idx → EReal) (j : Fin 4194304) :
    val_main_v243 (F := Ideal) flo (ix1 j) = wvArr flo 3 (pixAt j) := by
  rw [val_main_v243_apply, ref_wv3]
  have hi : idx_main_v243 (ix1 j) = pixAt j := by
    funext a; match a with | ⟨0, _⟩ => rfl | ⟨1, _⟩ => rfl | ⟨2, _⟩ => rfl
  rw [hi]

/-- The updates of corner 3's scatter into the warped image: row j holds pixel j's weighted colour, channel by
    channel. -/
theorem ref_updC3 (img : SImg.Idx → EReal) (flo : SFlo.Idx → EReal) (j : Fin 4194304) (c : Fin 3) :
    val_main_v233 (F := Ideal) img flo (ix2 j c) = cvArr flo img 3 (pixCAt j c) := by
  rw [val_main_v233_apply, ref_cv3]
  have hi : idx_main_v233 (ix2 j c) = pixCAt j c := by
    have hj := j.isLt; have hc := c.isLt
    funext a
    match a with
    | ⟨0, _⟩ => exact Fin.ext (by show (j.val * 3 + c.val) / 1572864 = j.val / 524288; omega)
    | ⟨1, _⟩ => exact Fin.ext (by show (j.val * 3 + c.val) / 3072 % 512 = j.val / 1024 % 512; omega)
    | ⟨2, _⟩ => exact Fin.ext (by show (j.val * 3 + c.val) / 3 % 1024 = j.val % 1024; omega)
    | ⟨3, _⟩ => exact Fin.ext (by show (j.val * 3 + c.val) % 3 = c.val; omega)
  rw [hi]

/-! ## The two results, read down to the eight scatters -/

/-- The row-major position of pixel (n, h, w) among the 8 x 512 x 1024 pixels. -/
def flatT (n : Fin 8) (h : Fin 512) (w : Fin 1024) : Fin 4194304 :=
  ⟨(n.val * 512 + h.val) * 1024 + w.val, by have := n.isLt; have := h.isLt; have := w.isLt; omega⟩

/-- Corner 0's normaliser, reshaped and broadcast over the channels, at one entry: the scatter's result at the
    pixel's flat position. -/
theorem normOut0_at (flo : SFlo.Idx → EReal) (n : Fin 8) (c : Fin 3) (h : Fin 512) (w : Fin 1024) :
    val_main_v89 (F := Ideal) flo (ix4 n c h w) = val_main_v85 (F := Ideal) flo (ix1 (flatT n h w)) := by
  rw [val_main_v89_apply, val_main_v88_apply]
  have hi : idx_main_v88 (idx_main_v89 (ix4 n c h w)) = ix1 (flatT n h w) := by
    funext a
    match a with
    | ⟨0, _⟩ => exact Fin.ext (by show ((n.val * 1 + 0) * 512 + h.val) * 1024 + w.val = (n.val * 512 + h.val) * 1024 + w.val; omega)
  rw [hi]

/-- Corner 0's warped image, reshaped and transposed to channel second, at one entry: the scatter's result at the
    pixel's flat position and the channel. -/
theorem imgOut0_at (img : SImg.Idx → EReal) (flo : SFlo.Idx → EReal) (n : Fin 8) (c : Fin 3) (h : Fin 512) (w : Fin 1024) :
    val_main_v87 (F := Ideal) img flo (ix4 n c h w) = val_main_v76 (F := Ideal) img flo (ix2 (flatT n h w) c) := by
  rw [val_main_v87_apply, val_main_v86_apply]
  have hi : idx_main_v86 (idx_main_v87 (ix4 n c h w)) = ix2 (flatT n h w) c := by
    have hn := n.isLt; have hh := h.isLt; have hw := w.isLt; have hc := c.isLt
    funext a
    match a with
    | ⟨0, _⟩ => exact Fin.ext (by show (((n.val * 512 + h.val) * 1024 + w.val) * 3 + c.val) / 3 = (n.val * 512 + h.val) * 1024 + w.val; omega)
    | ⟨1, _⟩ => exact Fin.ext (by show (((n.val * 512 + h.val) * 1024 + w.val) * 3 + c.val) % 3 = c.val; omega)
  rw [hi]

/-- Corner 0's scatter into the normaliser is the accumulating scatter of its three operands. -/
theorem scatW0_def (flo : SFlo.Idx → EReal) :
    val_main_v85 (F := Ideal) flo
      = Host.scatterAdd (F := Ideal) (φ := .f32) scatter_S4194304_S4194304x1_S4194304_n_0_0_1 (val_main_v77 (F := Ideal)) (val_main_v84 (F := Ideal) flo)
          (val_main_v78 (F := Ideal) flo) := rfl

/-- Corner 0's scatter into the warped image is the accumulating scatter of its three operands. -/
theorem scatC0_def (img : SImg.Idx → EReal) (flo : SFlo.Idx → EReal) :
    val_main_v76 (F := Ideal) img flo
      = Host.scatterAdd (F := Ideal) (φ := .f32) scatter_S4194304x3_S4194304x1_S4194304x3_1_0_0_1 (val_main_v69 (F := Ideal)) (val_main_v75 (F := Ideal) flo)
          (val_main_v68 (F := Ideal) img flo) := rfl

/-- The operand of corner 0's scatter into the normaliser is zero everywhere. -/
theorem zeroW0_at (q : S4194304.Idx) : val_main_v77 (F := Ideal) q = zero := by
  rw [val_main_v77_apply, val_main_cst_14_apply]; rfl

/-- The operand of corner 0's scatter into the warped image is zero everywhere. -/
theorem zeroC0_at (q : S4194304x3.Idx) : val_main_v69 (F := Ideal) q = zero := by
  rw [val_main_v69_apply, val_main_cst_11_apply]; rfl

/-- Corner 1's normaliser, reshaped and broadcast over the channels, at one entry: the scatter's result at the
    pixel's flat position. -/
theorem normOut1_at (flo : SFlo.Idx → EReal) (n : Fin 8) (c : Fin 3) (h : Fin 512) (w : Fin 1024) :
    val_main_v144 (F := Ideal) flo (ix4 n c h w) = val_main_v140 (F := Ideal) flo (ix1 (flatT n h w)) := by
  rw [val_main_v144_apply, val_main_v143_apply]
  have hi : idx_main_v143 (idx_main_v144 (ix4 n c h w)) = ix1 (flatT n h w) := by
    funext a
    match a with
    | ⟨0, _⟩ => exact Fin.ext (by show ((n.val * 1 + 0) * 512 + h.val) * 1024 + w.val = (n.val * 512 + h.val) * 1024 + w.val; omega)
  rw [hi]

/-- Corner 1's warped image, reshaped and transposed to channel second, at one entry: the scatter's result at the
    pixel's flat position and the channel. -/
theorem imgOut1_at (img : SImg.Idx → EReal) (flo : SFlo.Idx → EReal) (n : Fin 8) (c : Fin 3) (h : Fin 512) (w : Fin 1024) :
    val_main_v142 (F := Ideal) img flo (ix4 n c h w) = val_main_v131 (F := Ideal) img flo (ix2 (flatT n h w) c) := by
  rw [val_main_v142_apply, val_main_v141_apply]
  have hi : idx_main_v141 (idx_main_v142 (ix4 n c h w)) = ix2 (flatT n h w) c := by
    have hn := n.isLt; have hh := h.isLt; have hw := w.isLt; have hc := c.isLt
    funext a
    match a with
    | ⟨0, _⟩ => exact Fin.ext (by show (((n.val * 512 + h.val) * 1024 + w.val) * 3 + c.val) / 3 = (n.val * 512 + h.val) * 1024 + w.val; omega)
    | ⟨1, _⟩ => exact Fin.ext (by show (((n.val * 512 + h.val) * 1024 + w.val) * 3 + c.val) % 3 = c.val; omega)
  rw [hi]

/-- Corner 1's scatter into the normaliser is the accumulating scatter of its three operands. -/
theorem scatW1_def (flo : SFlo.Idx → EReal) :
    val_main_v140 (F := Ideal) flo
      = Host.scatterAdd (F := Ideal) (φ := .f32) scatter_S4194304_S4194304x1_S4194304_n_0_0_1 (val_main_v132 (F := Ideal)) (val_main_v139 (F := Ideal) flo)
          (val_main_v133 (F := Ideal) flo) := rfl

/-- Corner 1's scatter into the warped image is the accumulating scatter of its three operands. -/
theorem scatC1_def (img : SImg.Idx → EReal) (flo : SFlo.Idx → EReal) :
    val_main_v131 (F := Ideal) img flo
      = Host.scatterAdd (F := Ideal) (φ := .f32) scatter_S4194304x3_S4194304x1_S4194304x3_1_0_0_1 (val_main_v124 (F := Ideal)) (val_main_v130 (F := Ideal) flo)
          (val_main_v123 (F := Ideal) img flo) := rfl

/-- The operand of corner 1's scatter into the normaliser is zero everywhere. -/
theorem zeroW1_at (q : S4194304.Idx) : val_main_v132 (F := Ideal) q = zero := by
  rw [val_main_v132_apply, val_main_cst_31_apply]; rfl

/-- The operand of corner 1's scatter into the warped image is zero everywhere. -/
theorem zeroC1_at (q : S4194304x3.Idx) : val_main_v124 (F := Ideal) q = zero := by
  rw [val_main_v124_apply, val_main_cst_28_apply]; rfl

/-- Corner 2's normaliser, reshaped and broadcast over the channels, at one entry: the scatter's result at the
    pixel's flat position. -/
theorem normOut2_at (flo : SFlo.Idx → EReal) (n : Fin 8) (c : Fin 3) (h : Fin 512) (w : Fin 1024) :
    val_main_v199 (F := Ideal) flo (ix4 n c h w) = val_main_v195 (F := Ideal) flo (ix1 (flatT n h w)) := by
  rw [val_main_v199_apply, val_main_v198_apply]
  have hi : idx_main_v198 (idx_main_v199 (ix4 n c h w)) = ix1 (flatT n h w) := by
    funext a
    match a with
    | ⟨0, _⟩ => exact Fin.ext (by show ((n.val * 1 + 0) * 512 + h.val) * 1024 + w.val = (n.val * 512 + h.val) * 1024 + w.val; omega)
  rw [hi]

/-- Corner 2's warped image, reshaped and transposed to channel second, at one entry: the scatter's result at the
    pixel's flat position and the channel. -/
theorem imgOut2_at (img : SImg.Idx → EReal) (flo : SFlo.Idx → EReal) (n : Fin 8) (c : Fin 3) (h : Fin 512) (w : Fin 1024) :
    val_main_v197 (F := Ideal) img flo (ix4 n c h w) = val_main_v186 (F := Ideal) img flo (ix2 (flatT n h w) c) := by
  rw [val_main_v197_apply, val_main_v196_apply]
  have hi : idx_main_v196 (idx_main_v197 (ix4 n c h w)) = ix2 (flatT n h w) c := by
    have hn := n.isLt; have hh := h.isLt; have hw := w.isLt; have hc := c.isLt
    funext a
    match a with
    | ⟨0, _⟩ => exact Fin.ext (by show (((n.val * 512 + h.val) * 1024 + w.val) * 3 + c.val) / 3 = (n.val * 512 + h.val) * 1024 + w.val; omega)
    | ⟨1, _⟩ => exact Fin.ext (by show (((n.val * 512 + h.val) * 1024 + w.val) * 3 + c.val) % 3 = c.val; omega)
  rw [hi]

/-- Corner 2's scatter into the normaliser is the accumulating scatter of its three operands. -/
theorem scatW2_def (flo : SFlo.Idx → EReal) :
    val_main_v195 (F := Ideal) flo
      = Host.scatterAdd (F := Ideal) (φ := .f32) scatter_S4194304_S4194304x1_S4194304_n_0_0_1 (val_main_v187 (F := Ideal)) (val_main_v194 (F := Ideal) flo)
          (val_main_v188 (F := Ideal) flo) := rfl

/-- Corner 2's scatter into the warped image is the accumulating scatter of its three operands. -/
theorem scatC2_def (img : SImg.Idx → EReal) (flo : SFlo.Idx → EReal) :
    val_main_v186 (F := Ideal) img flo
      = Host.scatterAdd (F := Ideal) (φ := .f32) scatter_S4194304x3_S4194304x1_S4194304x3_1_0_0_1 (val_main_v179 (F := Ideal)) (val_main_v185 (F := Ideal) flo)
          (val_main_v178 (F := Ideal) img flo) := rfl

/-- The operand of corner 2's scatter into the normaliser is zero everywhere. -/
theorem zeroW2_at (q : S4194304.Idx) : val_main_v187 (F := Ideal) q = zero := by
  rw [val_main_v187_apply, val_main_cst_48_apply]; rfl

/-- The operand of corner 2's scatter into the warped image is zero everywhere. -/
theorem zeroC2_at (q : S4194304x3.Idx) : val_main_v179 (F := Ideal) q = zero := by
  rw [val_main_v179_apply, val_main_cst_45_apply]; rfl

/-- Corner 3's normaliser, reshaped and broadcast over the channels, at one entry: the scatter's result at the
    pixel's flat position. -/
theorem normOut3_at (flo : SFlo.Idx → EReal) (n : Fin 8) (c : Fin 3) (h : Fin 512) (w : Fin 1024) :
    val_main_v254 (F := Ideal) flo (ix4 n c h w) = val_main_v250 (F := Ideal) flo (ix1 (flatT n h w)) := by
  rw [val_main_v254_apply, val_main_v253_apply]
  have hi : idx_main_v253 (idx_main_v254 (ix4 n c h w)) = ix1 (flatT n h w) := by
    funext a
    match a with
    | ⟨0, _⟩ => exact Fin.ext (by show ((n.val * 1 + 0) * 512 + h.val) * 1024 + w.val = (n.val * 512 + h.val) * 1024 + w.val; omega)
  rw [hi]

/-- Corner 3's warped image, reshaped and transposed to channel second, at one entry: the scatter's result at the
    pixel's flat position and the channel. -/
theorem imgOut3_at (img : SImg.Idx → EReal) (flo : SFlo.Idx → EReal) (n : Fin 8) (c : Fin 3) (h : Fin 512) (w : Fin 1024) :
    val_main_v252 (F := Ideal) img flo (ix4 n c h w) = val_main_v241 (F := Ideal) img flo (ix2 (flatT n h w) c) := by
  rw [val_main_v252_apply, val_main_v251_apply]
  have hi : idx_main_v251 (idx_main_v252 (ix4 n c h w)) = ix2 (flatT n h w) c := by
    have hn := n.isLt; have hh := h.isLt; have hw := w.isLt; have hc := c.isLt
    funext a
    match a with
    | ⟨0, _⟩ => exact Fin.ext (by show (((n.val * 512 + h.val) * 1024 + w.val) * 3 + c.val) / 3 = (n.val * 512 + h.val) * 1024 + w.val; omega)
    | ⟨1, _⟩ => exact Fin.ext (by show (((n.val * 512 + h.val) * 1024 + w.val) * 3 + c.val) % 3 = c.val; omega)
  rw [hi]

/-- Corner 3's scatter into the normaliser is the accumulating scatter of its three operands. -/
theorem scatW3_def (flo : SFlo.Idx → EReal) :
    val_main_v250 (F := Ideal) flo
      = Host.scatterAdd (F := Ideal) (φ := .f32) scatter_S4194304_S4194304x1_S4194304_n_0_0_1 (val_main_v242 (F := Ideal)) (val_main_v249 (F := Ideal) flo)
          (val_main_v243 (F := Ideal) flo) := rfl

/-- Corner 3's scatter into the warped image is the accumulating scatter of its three operands. -/
theorem scatC3_def (img : SImg.Idx → EReal) (flo : SFlo.Idx → EReal) :
    val_main_v241 (F := Ideal) img flo
      = Host.scatterAdd (F := Ideal) (φ := .f32) scatter_S4194304x3_S4194304x1_S4194304x3_1_0_0_1 (val_main_v234 (F := Ideal)) (val_main_v240 (F := Ideal) flo)
          (val_main_v233 (F := Ideal) img flo) := rfl

/-- The operand of corner 3's scatter into the normaliser is zero everywhere. -/
theorem zeroW3_at (q : S4194304.Idx) : val_main_v242 (F := Ideal) q = zero := by
  rw [val_main_v242_apply, val_main_cst_65_apply]; rfl

/-- The operand of corner 3's scatter into the warped image is zero everywhere. -/
theorem zeroC3_at (q : S4194304x3.Idx) : val_main_v234 (F := Ideal) q = zero := by
  rw [val_main_v234_apply, val_main_cst_62_apply]; rfl

/-- The reference's normaliser at one entry: the four corners' scatters at the pixel's flat position, added in the
    reference's order. -/
theorem ref_outW (flo : SFlo.Idx → EReal) (n : Fin 8) (c : Fin 3) (h : Fin 512) (w : Fin 1024) :
    val_main_v260 (F := Ideal) flo (ix4 n c h w)
      = ((val_main_v85 (F := Ideal) flo (ix1 (flatT n h w)) + val_main_v140 (F := Ideal) flo (ix1 (flatT n h w)))
          + val_main_v195 (F := Ideal) flo (ix1 (flatT n h w))) + val_main_v250 (F := Ideal) flo (ix1 (flatT n h w)) := by
  rw [val_main_v260_apply, val_main_v259_apply, val_main_v258_apply, normOut0_at, normOut1_at, normOut2_at, normOut3_at]; rfl

/-- The reference's warped image at one entry: the four corners' scatters at the pixel's flat position and the
    channel, added in the reference's order. -/
theorem ref_outC (img : SImg.Idx → EReal) (flo : SFlo.Idx → EReal) (n : Fin 8) (c : Fin 3) (h : Fin 512) (w : Fin 1024) :
    val_main_v257 (F := Ideal) img flo (ix4 n c h w)
      = ((val_main_v76 (F := Ideal) img flo (ix2 (flatT n h w) c) + val_main_v131 (F := Ideal) img flo (ix2 (flatT n h w) c))
          + val_main_v186 (F := Ideal) img flo (ix2 (flatT n h w) c)) + val_main_v241 (F := Ideal) img flo (ix2 (flatT n h w) c) := by
  rw [val_main_v257_apply, val_main_v256_apply, val_main_v255_apply, imgOut0_at, imgOut1_at, imgOut2_at, imgOut3_at]; rfl

/-! ## The eight scatters at an entry, as sums over the pixels -/

/-- At the extended reals the host's accumulating scatter is the exact one. -/
theorem hostScatterAdd_ideal {s si u : Shape} {w : Nat} (d : ScatterDims s si u) (x : FVec Ideal s .f32) (idx : IVec si w)
    (upd : FVec Ideal u .f32) : Host.scatterAdd (F := Ideal) (φ := .f32) d x idx upd = Ideal.hostScatterAdd d x idx upd := rfl

/-- The dimension numbers of the scatters into the normaliser: a flat operand, a column of indices. -/
theorem dW_eq : scatter_S4194304_S4194304x1_S4194304_n_0_0_1 = flat scatter_S4194304_S4194304x1_S4194304_n_0_0_1_wf := rfl
/-- The dimension numbers of the scatters into the warped image: rows of three channels, a column of indices. -/
theorem dC_eq : scatter_S4194304x3_S4194304x1_S4194304x3_1_0_0_1 = rows scatter_S4194304x3_S4194304x1_S4194304x3_1_0_0_1_wf := rfl

/-- The scatter's normalisation of a word is the specification's. -/
theorem wrapW_eq (t : BitVec 32) : wrapW t = wrapWord t := rfl

/-- The pixels in row-major order. -/
def pixEquiv : Fin 4194304 ≃ SPix.Idx where
  toFun := pixAt
  invFun p := flatT (p 0) (p 1) (p 2)
  left_inv j := by
    apply Fin.ext
    show ((j.val / 524288) * 512 + j.val / 1024 % 512) * 1024 + j.val % 1024 = j.val
    omega
  right_inv p := by
    obtain ⟨n, h, w, rfl⟩ : ∃ (n : Fin 8) (h : Fin 512) (w : Fin 1024), p = ix3 n h w := ⟨p 0, p 1, p 2, eq_ix3 p⟩
    have hn := n.isLt; have hh := h.isLt; have hw := w.isLt
    funext a
    match a with
    | ⟨0, _⟩ => exact Fin.ext (by show ((n.val * 512 + h.val) * 1024 + w.val) / 524288 = n.val; omega)
    | ⟨1, _⟩ => exact Fin.ext (by show ((n.val * 512 + h.val) * 1024 + w.val) / 1024 % 512 = h.val; omega)
    | ⟨2, _⟩ => exact Fin.ext (by show ((n.val * 512 + h.val) * 1024 + w.val) % 1024 = w.val; omega)

/-- A flat array's index is its one coordinate. -/
def idxEquiv1 {n : ℕ} : (⟨1, ![n]⟩ : Shape).Idx ≃ Fin n where
  toFun q := q 0
  invFun := ix1
  left_inv q := (eq_ix1 q).symm
  right_inv _ := rfl

/-- A sum over the flat positions of a function of the pixel at the position is the sum over the pixels. -/
theorem sum_fin (G : SPix.Idx → EReal) : ∑ j : Fin 4194304, G (pixAt j) = ∑ p : SPix.Idx, G p :=
  Equiv.sum_comp pixEquiv G

/-- The same with the positions as the indices of a flat array. -/
theorem sum_flat (G : SPix.Idx → EReal) : ∑ q : (SV 4194304).Idx, G (pixAt (q 0)) = ∑ p : SPix.Idx, G p :=
  (Equiv.sum_comp (idxEquiv1 (n := 4194304)) (fun j => G (pixAt j))).trans (sum_fin G)

/-- Of the three channels' entries at one flat position only the wanted channel's contributes. -/
theorem sum_chan (P : Prop) [Decidable P] (F : Fin 3 → EReal) (c : Fin 3) :
    (∑ b : Fin 3, if (P ∧ b.val = c.val) then F b else 0) = if P then F c else 0 := by
  by_cases hp : P
  · simp only [hp, true_and, if_true]
    rw [Finset.sum_eq_single c]
    · simp
    · intro b _ hb
      rw [if_neg]
      intro h
      exact hb (Fin.ext h)
    · intro h
      exact absurd (Finset.mem_univ c) h
  · simp only [hp, false_and, if_false, Finset.sum_const_zero]

/-- Corner 0's scatter into the normaliser at the flat position T: the sum, over the pixels whose normalised target
    word is T, of the contributed weight. -/
theorem scatW0_sum (flo : SFlo.Idx → EReal) (T : Fin 4194304) :
    val_main_v85 (F := Ideal) flo (ix1 T) = zero + psum (wv flo 0) (tid flo 0) T.val := by
  rewrite [scatW0_def, hostScatterAdd_ideal, dW_eq]
  refine (flat_apply (N := 4194304) (M := 4194304) scatter_S4194304_S4194304x1_S4194304_n_0_0_1_wf _ _ _ (ix1 T)).trans ?_
  rewrite [zeroW0_at]
  refine congrArg (fun s : EReal => zero + s) ?_
  refine Eq.trans ?_ (sum_pix (wv flo 0) (tid flo 0) T.val)
  refine Eq.trans ?_ (sum_flat (fun p => if (wrapWord (tid flo 0 (p 0) (p 1) (p 2))).toInt = (T.val : ℤ)
    then wv flo 0 (p 0) (p 1) (p 2) else 0))
  refine Finset.sum_congr rfl (fun q _ => ?_)
  have h1 : val_main_v84 (F := Ideal) flo (ix2 (q 0) (0 : Fin 1)) = wrapW (tidArr flo 0 (pixAt (q 0))) :=
    ref_sidxW0 flo (q 0) 0
  have h2 : val_main_v78 (F := Ideal) flo q = wvArr flo 0 (pixAt (q 0)) :=
    (congrArg (val_main_v78 (F := Ideal) flo) (eq_ix1 q)).trans (ref_updW0 flo (q 0))
  rewrite [h1, h2]
  rfl

/-- Corner 0's scatter into the warped image at the flat position T and channel c: the sum, over the pixels whose
    normalised target word is T, of the weighted colour in channel c. -/
theorem scatC0_sum (img : SImg.Idx → EReal) (flo : SFlo.Idx → EReal) (T : Fin 4194304) (c : Fin 3) :
    val_main_v76 (F := Ideal) img flo (ix2 T c)
      = zero + psum (fun n h w => cv flo img 0 n c h w) (tid flo 0) T.val := by
  rewrite [scatC0_def, hostScatterAdd_ideal, dC_eq]
  refine (rows_apply (N := 4194304) (M := 4194304) (C := 3) scatter_S4194304x3_S4194304x1_S4194304x3_1_0_0_1_wf _ _ _ (ix2 T c)).trans ?_
  rewrite [zeroC0_at]
  refine congrArg (fun s : EReal => zero + s) ?_
  refine Eq.trans ?_ (sum_pix (fun n h w => cv flo img 0 n c h w) (tid flo 0) T.val)
  refine Eq.trans ?_ (sum_fin (fun p => if (wrapWord (tid flo 0 (p 0) (p 1) (p 2))).toInt = (T.val : ℤ)
    then cv flo img 0 (p 0) c (p 1) (p 2) else 0))
  refine Eq.trans (sum_idx2 _) ?_
  refine Finset.sum_congr rfl (fun j _ => ?_)
  refine Eq.trans (sum_chan ((val_main_v75 (F := Ideal) flo (ix2 j (0 : Fin 1))).toInt = (T.val : ℤ))
    (fun b => val_main_v68 (F := Ideal) img flo (ix2 j b)) c) ?_
  rewrite [ref_sidxC0 flo j 0, ref_updC0 img flo j c]
  rfl

/-- Corner 1's scatter into the normaliser at the flat position T: the sum, over the pixels whose normalised target
    word is T, of the contributed weight. -/
theorem scatW1_sum (flo : SFlo.Idx → EReal) (T : Fin 4194304) :
    val_main_v140 (F := Ideal) flo (ix1 T) = zero + psum (wv flo 1) (tid flo 1) T.val := by
  rewrite [scatW1_def, hostScatterAdd_ideal, dW_eq]
  refine (flat_apply (N := 4194304) (M := 4194304) scatter_S4194304_S4194304x1_S4194304_n_0_0_1_wf _ _ _ (ix1 T)).trans ?_
  rewrite [zeroW1_at]
  refine congrArg (fun s : EReal => zero + s) ?_
  refine Eq.trans ?_ (sum_pix (wv flo 1) (tid flo 1) T.val)
  refine Eq.trans ?_ (sum_flat (fun p => if (wrapWord (tid flo 1 (p 0) (p 1) (p 2))).toInt = (T.val : ℤ)
    then wv flo 1 (p 0) (p 1) (p 2) else 0))
  refine Finset.sum_congr rfl (fun q _ => ?_)
  have h1 : val_main_v139 (F := Ideal) flo (ix2 (q 0) (0 : Fin 1)) = wrapW (tidArr flo 1 (pixAt (q 0))) :=
    ref_sidxW1 flo (q 0) 0
  have h2 : val_main_v133 (F := Ideal) flo q = wvArr flo 1 (pixAt (q 0)) :=
    (congrArg (val_main_v133 (F := Ideal) flo) (eq_ix1 q)).trans (ref_updW1 flo (q 0))
  rewrite [h1, h2]
  rfl

/-- Corner 1's scatter into the warped image at the flat position T and channel c: the sum, over the pixels whose
    normalised target word is T, of the weighted colour in channel c. -/
theorem scatC1_sum (img : SImg.Idx → EReal) (flo : SFlo.Idx → EReal) (T : Fin 4194304) (c : Fin 3) :
    val_main_v131 (F := Ideal) img flo (ix2 T c)
      = zero + psum (fun n h w => cv flo img 1 n c h w) (tid flo 1) T.val := by
  rewrite [scatC1_def, hostScatterAdd_ideal, dC_eq]
  refine (rows_apply (N := 4194304) (M := 4194304) (C := 3) scatter_S4194304x3_S4194304x1_S4194304x3_1_0_0_1_wf _ _ _ (ix2 T c)).trans ?_
  rewrite [zeroC1_at]
  refine congrArg (fun s : EReal => zero + s) ?_
  refine Eq.trans ?_ (sum_pix (fun n h w => cv flo img 1 n c h w) (tid flo 1) T.val)
  refine Eq.trans ?_ (sum_fin (fun p => if (wrapWord (tid flo 1 (p 0) (p 1) (p 2))).toInt = (T.val : ℤ)
    then cv flo img 1 (p 0) c (p 1) (p 2) else 0))
  refine Eq.trans (sum_idx2 _) ?_
  refine Finset.sum_congr rfl (fun j _ => ?_)
  refine Eq.trans (sum_chan ((val_main_v130 (F := Ideal) flo (ix2 j (0 : Fin 1))).toInt = (T.val : ℤ))
    (fun b => val_main_v123 (F := Ideal) img flo (ix2 j b)) c) ?_
  rewrite [ref_sidxC1 flo j 0, ref_updC1 img flo j c]
  rfl

/-- Corner 2's scatter into the normaliser at the flat position T: the sum, over the pixels whose normalised target
    word is T, of the contributed weight. -/
theorem scatW2_sum (flo : SFlo.Idx → EReal) (T : Fin 4194304) :
    val_main_v195 (F := Ideal) flo (ix1 T) = zero + psum (wv flo 2) (tid flo 2) T.val := by
  rewrite [scatW2_def, hostScatterAdd_ideal, dW_eq]
  refine (flat_apply (N := 4194304) (M := 4194304) scatter_S4194304_S4194304x1_S4194304_n_0_0_1_wf _ _ _ (ix1 T)).trans ?_
  rewrite [zeroW2_at]
  refine congrArg (fun s : EReal => zero + s) ?_
  refine Eq.trans ?_ (sum_pix (wv flo 2) (tid flo 2) T.val)
  refine Eq.trans ?_ (sum_flat (fun p => if (wrapWord (tid flo 2 (p 0) (p 1) (p 2))).toInt = (T.val : ℤ)
    then wv flo 2 (p 0) (p 1) (p 2) else 0))
  refine Finset.sum_congr rfl (fun q _ => ?_)
  have h1 : val_main_v194 (F := Ideal) flo (ix2 (q 0) (0 : Fin 1)) = wrapW (tidArr flo 2 (pixAt (q 0))) :=
    ref_sidxW2 flo (q 0) 0
  have h2 : val_main_v188 (F := Ideal) flo q = wvArr flo 2 (pixAt (q 0)) :=
    (congrArg (val_main_v188 (F := Ideal) flo) (eq_ix1 q)).trans (ref_updW2 flo (q 0))
  rewrite [h1, h2]
  rfl

/-- Corner 2's scatter into the warped image at the flat position T and channel c: the sum, over the pixels whose
    normalised target word is T, of the weighted colour in channel c. -/
theorem scatC2_sum (img : SImg.Idx → EReal) (flo : SFlo.Idx → EReal) (T : Fin 4194304) (c : Fin 3) :
    val_main_v186 (F := Ideal) img flo (ix2 T c)
      = zero + psum (fun n h w => cv flo img 2 n c h w) (tid flo 2) T.val := by
  rewrite [scatC2_def, hostScatterAdd_ideal, dC_eq]
  refine (rows_apply (N := 4194304) (M := 4194304) (C := 3) scatter_S4194304x3_S4194304x1_S4194304x3_1_0_0_1_wf _ _ _ (ix2 T c)).trans ?_
  rewrite [zeroC2_at]
  refine congrArg (fun s : EReal => zero + s) ?_
  refine Eq.trans ?_ (sum_pix (fun n h w => cv flo img 2 n c h w) (tid flo 2) T.val)
  refine Eq.trans ?_ (sum_fin (fun p => if (wrapWord (tid flo 2 (p 0) (p 1) (p 2))).toInt = (T.val : ℤ)
    then cv flo img 2 (p 0) c (p 1) (p 2) else 0))
  refine Eq.trans (sum_idx2 _) ?_
  refine Finset.sum_congr rfl (fun j _ => ?_)
  refine Eq.trans (sum_chan ((val_main_v185 (F := Ideal) flo (ix2 j (0 : Fin 1))).toInt = (T.val : ℤ))
    (fun b => val_main_v178 (F := Ideal) img flo (ix2 j b)) c) ?_
  rewrite [ref_sidxC2 flo j 0, ref_updC2 img flo j c]
  rfl

/-- Corner 3's scatter into the normaliser at the flat position T: the sum, over the pixels whose normalised target
    word is T, of the contributed weight. -/
theorem scatW3_sum (flo : SFlo.Idx → EReal) (T : Fin 4194304) :
    val_main_v250 (F := Ideal) flo (ix1 T) = zero + psum (wv flo 3) (tid flo 3) T.val := by
  rewrite [scatW3_def, hostScatterAdd_ideal, dW_eq]
  refine (flat_apply (N := 4194304) (M := 4194304) scatter_S4194304_S4194304x1_S4194304_n_0_0_1_wf _ _ _ (ix1 T)).trans ?_
  rewrite [zeroW3_at]
  refine congrArg (fun s : EReal => zero + s) ?_
  refine Eq.trans ?_ (sum_pix (wv flo 3) (tid flo 3) T.val)
  refine Eq.trans ?_ (sum_flat (fun p => if (wrapWord (tid flo 3 (p 0) (p 1) (p 2))).toInt = (T.val : ℤ)
    then wv flo 3 (p 0) (p 1) (p 2) else 0))
  refine Finset.sum_congr rfl (fun q _ => ?_)
  have h1 : val_main_v249 (F := Ideal) flo (ix2 (q 0) (0 : Fin 1)) = wrapW (tidArr flo 3 (pixAt (q 0))) :=
    ref_sidxW3 flo (q 0) 0
  have h2 : val_main_v243 (F := Ideal) flo q = wvArr flo 3 (pixAt (q 0)) :=
    (congrArg (val_main_v243 (F := Ideal) flo) (eq_ix1 q)).trans (ref_updW3 flo (q 0))
  rewrite [h1, h2]
  rfl

/-- Corner 3's scatter into the warped image at the flat position T and channel c: the sum, over the pixels whose
    normalised target word is T, of the weighted colour in channel c. -/
theorem scatC3_sum (img : SImg.Idx → EReal) (flo : SFlo.Idx → EReal) (T : Fin 4194304) (c : Fin 3) :
    val_main_v241 (F := Ideal) img flo (ix2 T c)
      = zero + psum (fun n h w => cv flo img 3 n c h w) (tid flo 3) T.val := by
  rewrite [scatC3_def, hostScatterAdd_ideal, dC_eq]
  refine (rows_apply (N := 4194304) (M := 4194304) (C := 3) scatter_S4194304x3_S4194304x1_S4194304x3_1_0_0_1_wf _ _ _ (ix2 T c)).trans ?_
  rewrite [zeroC3_at]
  refine congrArg (fun s : EReal => zero + s) ?_
  refine Eq.trans ?_ (sum_pix (fun n h w => cv flo img 3 n c h w) (tid flo 3) T.val)
  refine Eq.trans ?_ (sum_fin (fun p => if (wrapWord (tid flo 3 (p 0) (p 1) (p 2))).toInt = (T.val : ℤ)
    then cv flo img 3 (p 0) c (p 1) (p 2) else 0))
  refine Eq.trans (sum_idx2 _) ?_
  refine Finset.sum_congr rfl (fun j _ => ?_)
  refine Eq.trans (sum_chan ((val_main_v240 (F := Ideal) flo (ix2 j (0 : Fin 1))).toInt = (T.val : ℤ))
    (fun b => val_main_v233 (F := Ideal) img flo (ix2 j b)) c) ?_
  rewrite [ref_sidxC3 flo j 0, ref_updC3 img flo j c]
  rfl

/-- The reference's normaliser at one entry: the four corners' sums at the pixel's flat position. -/
theorem ref_o_final (flo : SFlo.Idx → EReal) (n : Fin 8) (c : Fin 3) (h : Fin 512) (w : Fin 1024) :
    val_main_v260 (F := Ideal) flo (ix4 n c h w)
      = (((zero + psum (wv flo 0) (tid flo 0) (flatT n h w).val) + (zero + psum (wv flo 1) (tid flo 1) (flatT n h w).val))
          + (zero + psum (wv flo 2) (tid flo 2) (flatT n h w).val)) + (zero + psum (wv flo 3) (tid flo 3) (flatT n h w).val) := by
  rw [ref_outW, scatW0_sum, scatW1_sum, scatW2_sum, scatW3_sum]

/-- The reference's warped image at one entry: the four corners' sums of the weighted colours in the entry's channel
    at the pixel's flat position. -/
theorem ref_c_final (img : SImg.Idx → EReal) (flo : SFlo.Idx → EReal) (n : Fin 8) (c : Fin 3) (h : Fin 512) (w : Fin 1024) :
    val_main_v257 (F := Ideal) img flo (ix4 n c h w)
      = (((zero + psum (fun n h w => cv flo img 0 n c h w) (tid flo 0) (flatT n h w).val)
            + (zero + psum (fun n h w => cv flo img 1 n c h w) (tid flo 1) (flatT n h w).val))
          + (zero + psum (fun n h w => cv flo img 2 n c h w) (tid flo 2) (flatT n h w).val))
        + (zero + psum (fun n h w => cv flo img 3 n c h w) (tid flo 3) (flatT n h w).val) := by
  rw [ref_outC, scatC0_sum, scatC1_sum, scatC2_sum, scatC3_sum]

end Cert.RefSide

end
-- ==== Proof.Join.lean ====
/-
  The two programs compute one function.

  At an entry `(n, c, h, w)` both results are sums over the corners of the pixels whose normalised target word is the
  flat position `T = (n·512 + h)·1024 + w`.  The kernel adds all four corners of all pixels in one sum started from
  zero; the reference adds each corner's pixels in a sum of its own started from zero and then adds the four.  The
  zero is the real zero and addition of extended reals is commutative and associative, so the two agree.
-/
import proofs.«178573_j6485400617539_2_alg».proof.Proof.KernelTailColour
import proofs.«178573_j6485400617539_2_alg».proof.Proof.RefSide

noncomputable section

namespace Cert.Join

open Cert.Splat Cert.KernelTail Cert.LibIdxSum
open Idealize.ShloMosaic Idealize.ShloMosaic.ValueIdx
open scoped BigOperators

/-- Entry `3·ci + c` of the twelve is corner `ci`, channel `c`. -/
theorem chanOf_vals (flo : SFlo.Idx → EReal) (img : SImg.Idx → EReal) (c : Fin 3) (p : SCorn.Idx) :
    chanOf (valsArr flo img) c p = cv flo img (p 1) (p 0) c (p 2) (p 3) := by
  have h1 : (p 1).val < 4 := (p 1).isLt
  have h2 := c.isLt
  unfold chanOf valsArr
  have e1 : chCorner (⟨3 * (p 1).val + c.val, by omega⟩ : Fin 12) = p 1 :=
    Fin.ext (by show (3 * (p 1).val + c.val) / 3 = (p 1).val; omega)
  have e2 : chChan (⟨3 * (p 1).val + c.val, by omega⟩ : Fin 12) = c :=
    Fin.ext (by show (3 * (p 1).val + c.val) % 3 = c.val; omega)
  show cv flo img (chCorner ⟨3 * (p 1).val + c.val, _⟩) (p 0) (chChan ⟨3 * (p 1).val + c.val, _⟩) (p 2) (p 3) = _
  rw [e1, e2]

/-- The kernel's normaliser as the four corners' sums. -/
theorem kernel_o (flo : SFlo.Idx → EReal) (n : Fin 8) (c : Fin 3) (h : Fin 512) (w : Fin 1024) :
    oTerm (wtsArr flo) (idsArr flo) (ix4 n c h w)
      = zero + (((psum (wv flo 0) (tid flo 0) (flatT n h w).val + psum (wv flo 1) (tid flo 1) (flatT n h w).val)
          + psum (wv flo 2) (tid flo 2) (flatT n h w).val) + psum (wv flo 3) (tid flo 3) (flatT n h w).val) := by
  rw [oTerm_apply]
  refine congrArg (fun s : EReal => zero + s) ?_
  exact sum_corners (fun ci => wv flo ci) (fun ci => tid flo ci) (flatT n h w).val

/-- The kernel's warped image as the four corners' sums. -/
theorem kernel_c (flo : SFlo.Idx → EReal) (img : SImg.Idx → EReal) (n : Fin 8) (c : Fin 3) (h : Fin 512) (w : Fin 1024) :
    cTerm (valsArr flo img) (idsArr flo) (ix4 n c h w)
      = zero + (((psum (fun n h w => cv flo img 0 n c h w) (tid flo 0) (flatT n h w).val
            + psum (fun n h w => cv flo img 1 n c h w) (tid flo 1) (flatT n h w).val)
          + psum (fun n h w => cv flo img 2 n c h w) (tid flo 2) (flatT n h w).val)
          + psum (fun n h w => cv flo img 3 n c h w) (tid flo 3) (flatT n h w).val) := by
  rw [cTerm_apply]
  refine congrArg (fun s : EReal => zero + s) ?_
  refine Eq.trans (Finset.sum_congr rfl (fun p _ => ?_))
    (sum_corners (fun ci n h w => cv flo img ci n c h w) (fun ci => tid flo ci) (flatT n h w).val)
  rw [chanOf_vals]
  rfl

/-- The normalisers agree. -/
theorem join_o (flo : SFlo.Idx → EReal) :
    oTerm (wtsArr flo) (idsArr flo) = Cert.ReferenceIdeal.ReadP.val_main_v260 (F := Ideal) flo := by
  funext p
  obtain ⟨n, c, h, w, rfl⟩ : ∃ (n : Fin 8) (c : Fin 3) (h : Fin 512) (w : Fin 1024), p = ix4 n c h w :=
    ⟨p 0, p 1, p 2, p 3, eq_ix4 p⟩
  rw [kernel_o]
  refine Eq.trans ?_ (Cert.RefSide.ref_o_final flo n c h w).symm
  exact (four_from_zero _ _ _ _).symm

/-- The warped images agree. -/
theorem join_c (flo : SFlo.Idx → EReal) (img : SImg.Idx → EReal) :
    cTerm (valsArr flo img) (idsArr flo) = Cert.ReferenceIdeal.ReadP.val_main_v257 (F := Ideal) img flo := by
  funext p
  obtain ⟨n, c, h, w, rfl⟩ : ∃ (n : Fin 8) (c : Fin 3) (h : Fin 512) (w : Fin 1024), p = ix4 n c h w :=
    ⟨p 0, p 1, p 2, p 3, eq_ix4 p⟩
  rw [kernel_c]
  refine Eq.trans ?_ (Cert.RefSide.ref_c_final img flo n c h w).symm
  exact (four_from_zero _ _ _ _).symm

end Cert.Join

end
-- ==== Proof.lean ====
/-
  Forward flow warping by a four-corner Gaussian splat: the kernel against its reference.

  Every pixel `(n, h, w)` of a flow field has four corners; each corner has a Gaussian weight (zero when its target
  leaves the image) and a flat target word.  The warped image and its normaliser add, at every target, the pixel's
  weighted colours and its weight.  The kernel's region writes the weights, the words and the weighted colours of all
  four corners; the host then scatter-adds them in one pass per channel.  The reference scatter-adds each corner
  separately and adds the four results.  Over the extended reals a scatter-add into zeros is, entry by entry, zero
  plus the sum of the updates landing there, so the kernel's one sum over all corners is the sum of the reference's
  four (addition is commutative and associative, and the float zero is the real zero): `algebraic`.
  The three frames: the two kernel programs run to the end, fault nowhere and leave their arguments as launched
  (the region's blocks lie inside their arrays and the host lines after it write only their own results); the
  reference is a straight line of host operations.  The idealization rewrote nothing, so `preserves` has nothing to
  state.
-/
import proofs.«178573_j6485400617539_2_alg».proof.Defs
import proofs.«178573_j6485400617539_2_alg».proof.Proof.Gen.Kernel
import proofs.«178573_j6485400617539_2_alg».proof.Proof.Gen.KernelIdeal
import proofs.«178573_j6485400617539_2_alg».proof.Proof.Gen.ReferenceIdeal
import proofs.«178573_j6485400617539_2_alg».proof.Proof.Gen.Pre_finite_inputs
import proofs.«178573_j6485400617539_2_alg».proof.Proof.KernelFrame
import proofs.«178573_j6485400617539_2_alg».proof.Proof.KernelValue
import proofs.«178573_j6485400617539_2_alg».proof.Proof.Join
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Fr.frame m ρ

/-- The idealized kernel runs and keeps its arguments. -/
theorem frame_ki : Cert.frame_KernelIdeal := fun m ρ _ => Cert.KernelIdeal.Fr.frame m ρ

/-- The idealized reference runs and keeps its arguments: its run, with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.ValueP.run (F := Ideal) m ρ)

/-- The idealization rewrote no operation. -/
theorem preserves : Cert.preserves_Kernel_KernelIdeal := trivial

/-- From memories agreeing on the image and the flow, both idealized programs end with the same warped image and the
    same normaliser. -/
theorem algebraic : Cert.algebraic_KernelIdeal_ReferenceIdeal := by
  intro m ρ m' ρ' _ hagree
  refine ⟨Cert.KernelValue.imgw m, Cert.KernelValue.norm m, Cert.KernelValue.run m ρ, ?_⟩
  refine (θ_run Cert.ReferenceIdeal.defs _ _).mono
    (fun _ h c => ⟨(h c).1.trans ?_, (h c).2.1.trans ?_, (h c).2.2.1, (h c).2.2.2⟩)
    (Cert.ReferenceIdeal.ValueP.run (F := Ideal) m' ρ')
  · rw [Cert.ReferenceIdeal.ReadP.val_main_v257_eq, (hagree c).1, (hagree c).2]
    exact (Cert.Join.join_c _ _).symm
  · rw [Cert.ReferenceIdeal.ReadP.val_main_v260_eq, (hagree c).2]
    exact (Cert.Join.join_o _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
